-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.sign_bit.Statement Cert.KernelIdeal.S8192x128 .f32
  ∧ IdealRules.sign_bit.Statement Cert.KernelIdeal.S8192x128 .f32
  ∧ IdealRules.sign_bit.Statement Cert.KernelIdeal.S8192x8 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S32x32 : Shape := ⟨2, ![32, 32]⟩
abbrev S32 : Shape := ⟨1, ![32]⟩
abbrev S2x32 : Shape := ⟨2, ![2, 32]⟩
abbrev S2 : Shape := ⟨1, ![2]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S32 .f32) (main_arg5 : FVec F S2x32 .f32) (main_arg6 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S2x32 .f32 := Host.absf main_arg5
  let main_cst_8 : FVec F S_ .f32 := constant S_ .f32 0x7F800000#32
  let main_v25 : FVec F S2x32 .f32 := broadcastInDim S2x32 ![] bcast_S_S2x32 main_cst_8
  let main_v26 : IVec S2x32 1 := cmpf .olt main_v24 main_v25
  let main_c_9 : IVec S_ 1 := constantI S_ 1 1#1
  let main_v27 : IVec S_ 1 := (fun x v => Host.reduce IntOp.andi x v reducesTo_S2x32_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S2097152x32 .f32) (main_arg1 : FVec F S32x32 .f32) (main_arg2 : FVec F S32 .f32) (main_arg3 : FVec F S32x32 .f32) (main_arg4 : FVec F S32 .f32) (main_arg5 : FVec F S2x32 .f32) (main_arg6 : FVec F S2 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_v13 main_v16
-- ==== Kernel.lean ====
abbrev S2097152x32 : Shape := ⟨2, ![2097152, 32]⟩
abbrev S32x32 : Shape := ⟨2, ![32, 32]⟩
abbrev S32 : Shape := ⟨1, ![32]⟩
abbrev S2x32 : Shape := ⟨2, ![2, 32]⟩
abbrev S2 : Shape := ⟨1, ![2]⟩
abbrev S524288x128 : Shape := ⟨2, ![524288, 128]⟩
abbrev S4x4 : Shape := ⟨2, ![4, 4]⟩
abbrev S_ : Shape := ⟨0, ![]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S1x32 : Shape := ⟨2, ![1, 32]⟩
abbrev S4x32 : Shape := ⟨2, ![4, 32]⟩
abbrev S128 : Shape := ⟨1, ![128]⟩
abbrev S32x2 : Shape := ⟨2, ![32, 2]⟩
abbrev S32x1 : Shape := ⟨2, ![32, 1]⟩
abbrev S1x32x1x1 : Shape := ⟨4, ![1, 32, 1, 1]⟩
abbrev S4x32x4x1 : Shape := ⟨4, ![4, 32, 4, 1]⟩
abbrev S128x4 : Shape := ⟨2, ![128, 4]⟩
abbrev S128x8 : Shape := ⟨2, ![128, 8]⟩
abbrev S1 : Shape := ⟨1, ![1]⟩
abbrev S4 : Shape := ⟨1, ![4]⟩
abbrev S8 : Shape := ⟨1, ![8]⟩
abbrev S524288x12 : Shape := ⟨2, ![524288, 12]⟩
abbrev S8192x128 : Shape := ⟨2, ![8192, 128]⟩
abbrev S8192x12 : Shape := ⟨2, ![8192, 12]⟩
abbrev S1x128 : Shape := ⟨2, ![1, 128]⟩
abbrev S8192x8 : Shape := ⟨2, ![8192, 8]⟩
abbrev S1x8 : Shape := ⟨2, ![1, 8]⟩
abbrev S8192x4 : Shape := ⟨2, ![8192, 4]⟩
abbrev S8192x1 : Shape := ⟨2, ![8192, 1]⟩
abbrev S2097152x3 : Shape := ⟨2, ![2097152, 3]⟩
abbrev S2097152x1 : Shape := ⟨2, ![2097152, 1]⟩
abbrev S2097152 : Shape := ⟨1, ![2097152]⟩

abbrev nBuf : Space → Nat
  | .hbm => 80
  | .vmem => 10
  | .smem => 0
  | _ => 0

abbrev bufTy : (tb : Table) → Fin (tcTables nBuf tb) → BufTy
  | .hbm, ⟨0, _⟩ => ⟨S2097152x32, .f32⟩
  | .hbm, ⟨1, _⟩ => ⟨S32x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S2x32, .f32⟩
  | .hbm, ⟨6, _⟩ => ⟨S2, .f32⟩
  | .hbm, ⟨7, _⟩ => ⟨S524288x128, .f32⟩
  | .hbm, ⟨8, _⟩ => ⟨S32x32, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x1x4x1, .f32⟩
  | .hbm, ⟨17, _⟩ => ⟨S1x32x1x32, .f32⟩
  | .hbm, ⟨18, _⟩ => ⟨S4x32x4x32, .f32⟩
  | .hbm, ⟨19, _⟩ => ⟨S4x32x4x32, .f32⟩
  | .hbm, ⟨20, _⟩ => ⟨S4x32x4x32, .f32⟩
  | .hbm, ⟨21, _⟩ => ⟨S128x128, .f32⟩
  | .hbm, ⟨22, _⟩ => ⟨S32x32, .f32⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .f32⟩
  | .hbm, ⟨30, _⟩ => ⟨S4x1x4x1, .f32⟩
  | .hbm, ⟨31, _⟩ => ⟨S1x32x1x32, .f32⟩
  | .hbm, ⟨32, _⟩ => ⟨S4x32x4x32, .f32⟩
  | .hbm, ⟨33, _⟩ => ⟨S4x32x4x32, .f32⟩
  | .hbm, ⟨34, _⟩ => ⟨S4x32x4x32, .f32⟩
  | .hbm, ⟨35, _⟩ => ⟨S128x128, .f32⟩
  | .hbm, ⟨36, _⟩ => ⟨S1x32, .f32⟩
  | .hbm, ⟨37, _⟩ => ⟨S4x32, .f32⟩
  | .hbm, ⟨38, _⟩ => ⟨S128, .f32⟩
  | .hbm, ⟨39, _⟩ => ⟨S1x32, .f32⟩
  | .hbm, ⟨40, _⟩ => ⟨S4x32, .f32⟩
  | .hbm, ⟨41, _⟩ => ⟨S128, .f32⟩
  | .hbm, ⟨42, _⟩ => ⟨S32x2, .f32⟩
  | .hbm, ⟨43, _⟩ => ⟨S4x4, .i32⟩
  | .hbm, ⟨44, _⟩ => ⟨S4x4, .i32⟩
  | .hbm, ⟨45, _⟩ => ⟨S_, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S4x4, .f32⟩
  | .hbm, ⟨50, _⟩ => ⟨S32x1, .f32⟩
  | .hbm, ⟨51, _⟩ => ⟨S4x1x4x1, .f32⟩
  | .hbm, ⟨52, _⟩ => ⟨S1x32x1x1, .f32⟩
  | .hbm, ⟨53, _⟩ => ⟨S4x32x4x1, .f32⟩
  | .hbm, ⟨54, _⟩ => ⟨S4x32x4x1, .f32⟩
  | .hbm, ⟨55, _⟩ => ⟨S4x32x4x1, .f32⟩
  | .hbm, ⟨56, _⟩ => ⟨S128x4, .f32⟩
  | .hbm, ⟨57, _⟩ => ⟨S32x1, .f32⟩
  | .hbm, ⟨58, _⟩ => ⟨S4x1x4x1, .f32⟩
  | .hbm, ⟨59, _⟩ => ⟨S1x32x1x1, .f32⟩
  | .hbm, ⟨60, _⟩ => ⟨S4x32x4x1, .f32⟩
  | .hbm, ⟨61, _⟩ => ⟨S4x32x4x1, .f32⟩
  | .hbm, ⟨62, _⟩ => ⟨S4x32x4x1, .f32⟩
  | .hbm, ⟨63, _⟩ => ⟨S128x4, .f32⟩
  | .hbm, ⟨64, _⟩ => ⟨S128x8, .f32⟩
  | .hbm, ⟨65, _⟩ => ⟨S1, .f32⟩
  | .hbm, ⟨66, _⟩ => ⟨S_, .f32⟩
  | .hbm, ⟨67, _⟩ => ⟨S4, .f32⟩
  | .hbm, ⟨68, _⟩ => ⟨S1, .f32⟩
  | .hbm, ⟨69, _⟩ => ⟨S_, .f32⟩
  | .hbm, ⟨70, _⟩ => ⟨S4, .f32⟩
  | .hbm, ⟨71, _⟩ => ⟨S8, .f32⟩
  | .hbm, ⟨72, _⟩ => ⟨S524288x12, .f32⟩
  | .hbm, ⟨73, _⟩ => ⟨S2097152x3, .f32⟩
  | .hbm, ⟨74, _⟩ => ⟨S2097152x1, .f32⟩
  | .hbm, ⟨75, _⟩ => ⟨S2097152, .f32⟩
  | .hbm, ⟨76, _⟩ => ⟨S2097152x1, .f32⟩
  | .hbm, ⟨77, _⟩ => ⟨S2097152, .f32⟩
  | .hbm, ⟨78, _⟩ => ⟨S2097152x1, .f32⟩
  | .hbm, ⟨79, _⟩ => ⟨S2097152, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x8, .f32⟩
  | .local _ .vmem, ⟨7, _⟩ => ⟨S8, .f32⟩
  | .local _ .vmem, ⟨8, _⟩ => ⟨S8192x12, .f32⟩
  | .local _ .vmem, ⟨9, _⟩ => ⟨S8192x12, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v31 : Ref sig .tc := ⟨.hbm, 56, rfl⟩
abbrev main_v32 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2097152x32_S524288x128 : S2097152x32.ShapeCasts S524288x128
  transposes_S32x32_S32x32_1_0 : S32x32.Transposes [1, 0] S32x32
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  transposes_S2x32_S32x2_1_0 : S2x32.Transposes [1, 0] S32x2
  slices_S32x2_S32x1_0_0 : S32x2.Slices ![0, 0] S32x1
  bcast_S32x1_S1x32x1x1_1_3 : S32x1.BroadcastsInDim S1x32x1x1 (![1, 3] : Fin 2 → Fin S1x32x1x1.rank)
  bcast_S4x1x4x1_S4x32x4x1_0_1_2_3 : S4x1x4x1.BroadcastsInDim S4x32x4x1 (![0, 1, 2, 3] : Fin 4 → Fin S4x32x4x1.rank)
  bcast_S1x32x1x1_S4x32x4x1_0_1_2_3 : S1x32x1x1.BroadcastsInDim S4x32x4x1 (![0, 1, 2, 3] : Fin 4 → Fin S4x32x4x1.rank)
  shapeCasts_S4x32x4x1_S128x4 : S4x32x4x1.ShapeCasts S128x4
  slices_S32x2_S32x1_0_1 : S32x2.Slices ![0, 1] S32x1
  concatenates_S128x4_S128x4_S128x8_d1 : Shape.Concatenates [S128x4, S128x4] S128x8 1
  slices_S2_S1_0 : S2.Slices ![0] S1
  shapeCasts_S1_S_ : S1.ShapeCasts S_
  bcast_S_S4 : S_.BroadcastsInDim S4 (![] : Fin 0 → Fin S4.rank)
  slices_S2_S1_1 : S2.Slices ![1] S1
  concatenates_S4_S4_S8_d0 : Shape.Concatenates [S4, S4] S8 0
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8_S8_0 : ∀ a, (![0] : Fin 1 → Nat) a + S8.size a ≤ S8.size a
  h_S8 : 0 < S8.numel
  shapeCasts_S8_S8 : S8.ShapeCasts S8
  shapeCasts_S8_S1x8 : S8.ShapeCasts S1x8
  broadcasts_S1x8_S8192x8 : S1x8.Broadcasts S8192x8
  slices_S8192x8_o0_0_S8192x4 : S8192x8.Slices ![0, 0] S8192x4
  slices_S8192x8_o0_4_S8192x4 : S8192x8.Slices ![0, 4] S8192x4
  slices_S8192x4_o0_0_S8192x1 : S8192x4.Slices ![0, 0] S8192x1
  slices_S8192x4_o0_1_S8192x1 : S8192x4.Slices ![0, 1] S8192x1
  slices_S8192x4_o0_2_S8192x1 : S8192x4.Slices ![0, 2] S8192x1
  slices_S8192x4_o0_3_S8192x1 : S8192x4.Slices ![0, 3] S8192x1
  concatenates_S8192x1_S8192x1_S8192x1_S8192x1_S8192x1_S8192x1_S8192x1_S8192x1_S8192x1_S8192x1_S8192x1_S8192x1_S8192x12_d1 : Shape.Concatenates [S8192x1, S8192x1, S8192x1, S8192x1, S8192x1, S8192x1, S8192x1, S8192x1, S8192x1, S8192x1, S8192x1, S8192x1] S8192x12 1
  inb_S8192x12_S8192x12_0_0 : ∀ a, (![0, 0] : Fin 2 → Nat) a + S8192x12.size a ≤ S8192x12.size a
  h_S8192x12 : 0 < S8192x12.numel
  shapeCasts_S524288x12_S2097152x3 : S524288x12.ShapeCasts S2097152x3
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  dot_S8192x128_S128x128_S8192x128_1_0_0_1_n_n_wf : DotDims.WF S8192x128 S128x128 S8192x128 [1] [0] [0] [1] [] []
  dot_S8192x128_S128x8_S8192x8_1_0_0_1_n_n_wf : DotDims.WF S8192x128 S128x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x8.size a ≤ S128x8.size a
  hwx0_5 : ∀ i : grid0.Coords, EltTy.bits .f32 = 32 ∨ (Rect.block (s := S128x8) S128x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x12.size a ≤ S524288x12.size a
  hwx0_7 : ∀ i : grid0.Coords, EltTy.bits .f32 = 32 ∨ (Rect.block (s := S524288x12) S8192x12.size (cc0_transform_7 i) (hinb0_7 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S128x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S8192x12.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S32x32 : Shape := ⟨2, ![32, 32]⟩
abbrev S32 : Shape := ⟨1, ![32]⟩
abbrev S2x32 : Shape := ⟨2, ![2, 32]⟩
abbrev S2 : Shape := ⟨1, ![2]⟩
abbrev S_ : Shape := ⟨0, ![]⟩
abbrev S1x32 : Shape := ⟨2, ![1, 32]⟩
abbrev S32x2 : Shape := ⟨2, ![32, 2]⟩
abbrev S2097152x2 : Shape := ⟨2, ![2097152, 2]⟩
abbrev S1x2 : Shape := ⟨2, ![1, 2]⟩
abbrev S2097152x1 : Shape := ⟨2, ![2097152, 1]⟩
abbrev S2097152 : Shape := ⟨1, ![2097152]⟩

abbrev nBuf : Space → Nat
  | .hbm => 100
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S32x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S2x32, .f32⟩
  | .hbm, ⟨6, _⟩ => ⟨S2, .f32⟩
  | .hbm, ⟨7, _⟩ => ⟨S_, .f32⟩
  | .hbm, ⟨8, _⟩ => ⟨S2097152x32, .f32⟩
  | .hbm, ⟨9, _⟩ => ⟨S2097152x32, .f32⟩
  | .hbm, ⟨10, _⟩ => ⟨S32x32, .f32⟩
  | .hbm, ⟨11, _⟩ => ⟨S2097152x32, .f32⟩
  | .hbm, ⟨12, _⟩ => ⟨S1x32, .f32⟩
  | .hbm, ⟨13, _⟩ => ⟨S2097152x32, .f32⟩
  | .hbm, ⟨14, _⟩ => ⟨S2097152x32, .f32⟩
  | .hbm, ⟨15, _⟩ => ⟨S_, .f32⟩
  | .hbm, ⟨16, _⟩ => ⟨S2097152x32, .f32⟩
  | .hbm, ⟨17, _⟩ => ⟨S2097152x32, .f32⟩
  | .hbm, ⟨18, _⟩ => ⟨S2097152x32, .f32⟩
  | .hbm, ⟨19, _⟩ => ⟨S2097152x32, .f32⟩
  | .hbm, ⟨20, _⟩ => ⟨S_, .f32⟩
  | .hbm, ⟨21, _⟩ => ⟨S2097152x32, .f32⟩
  | .hbm, ⟨22, _⟩ => ⟨S2097152x32, .f32⟩
  | .hbm, ⟨23, _⟩ => ⟨S2097152x32, .f32⟩
  | .hbm, ⟨24, _⟩ => ⟨S_, .f32⟩
  | .hbm, ⟨25, _⟩ => ⟨S2097152x32, .f32⟩
  | .hbm, ⟨26, _⟩ => ⟨S2097152x32, .f32⟩
  | .hbm, ⟨27, _⟩ => ⟨S_, .f32⟩
  | .hbm, ⟨28, _⟩ => ⟨S2097152x32, .f32⟩
  | .hbm, ⟨29, _⟩ => ⟨S2097152x32, .i1⟩
  | .hbm, ⟨30, _⟩ => ⟨S2097152x32, .f32⟩
  | .hbm, ⟨31, _⟩ => ⟨S2097152x32, .f32⟩
  | .hbm, ⟨32, _⟩ => ⟨S2097152x32, .f32⟩
  | .hbm, ⟨33, _⟩ => ⟨S_, .f32⟩
  | .hbm, ⟨34, _⟩ => ⟨S2097152x32, .f32⟩
  | .hbm, ⟨35, _⟩ => ⟨S2097152x32, .f32⟩
  | .hbm, ⟨36, _⟩ => ⟨S32x32, .f32⟩
  | .hbm, ⟨37, _⟩ => ⟨S2097152x32, .f32⟩
  | .hbm, ⟨38, _⟩ => ⟨S1x32, .f32⟩
  | .hbm, ⟨39, _⟩ => ⟨S2097152x32, .f32⟩
  | .hbm, ⟨40, _⟩ => ⟨S2097152x32, .f32⟩
  | .hbm, ⟨41, _⟩ => ⟨S_, .f32⟩
  | .hbm, ⟨42, _⟩ => ⟨S2097152x32, .f32⟩
  | .hbm, ⟨43, _⟩ => ⟨S2097152x32, .f32⟩
  | .hbm, ⟨44, _⟩ => ⟨S2097152x32, .f32⟩
  | .hbm, ⟨45, _⟩ => ⟨S2097152x32, .f32⟩
  | .hbm, ⟨46, _⟩ => ⟨S_, .f32⟩
  | .hbm, ⟨47, _⟩ => ⟨S2097152x32, .f32⟩
  | .hbm, ⟨48, _⟩ => ⟨S2097152x32, .f32⟩
  | .hbm, ⟨49, _⟩ => ⟨S2097152x32, .f32⟩
  | .hbm, ⟨50, _⟩ => ⟨S_, .f32⟩
  | .hbm, ⟨51, _⟩ => ⟨S2097152x32, .f32⟩
  | .hbm, ⟨52, _⟩ => ⟨S2097152x32, .f32⟩
  | .hbm, ⟨53, _⟩ => ⟨S_, .f32⟩
  | .hbm, ⟨54, _⟩ => ⟨S2097152x32, .f32⟩
  | .hbm, ⟨55, _⟩ => ⟨S2097152x32, .i1⟩
  | .hbm, ⟨56, _⟩ => ⟨S2097152x32, .f32⟩
  | .hbm, ⟨57, _⟩ => ⟨S2097152x32, .f32⟩
  | .hbm, ⟨58, _⟩ => ⟨S2097152x32, .f32⟩
  | .hbm, ⟨59, _⟩ => ⟨S_, .f32⟩
  | .hbm, ⟨60, _⟩ => ⟨S2097152x32, .f32⟩
  | .hbm, ⟨61, _⟩ => ⟨S2097152x32, .f32⟩
  | .hbm, ⟨62, _⟩ => ⟨S32x2, .f32⟩
  | .hbm, ⟨63, _⟩ => ⟨S2097152x2, .f32⟩
  | .hbm, ⟨64, _⟩ => ⟨S1x2, .f32⟩
  | .hbm, ⟨65, _⟩ => ⟨S2097152x2, .f32⟩
  | .hbm, ⟨66, _⟩ => ⟨S2097152x2, .f32⟩
  | .hbm, ⟨67, _⟩ => ⟨S2097152x2, .f32⟩
  | .hbm, ⟨68, _⟩ => ⟨S_, .f32⟩
  | .hbm, ⟨69, _⟩ => ⟨S2097152x2, .f32⟩
  | .hbm, ⟨70, _⟩ => ⟨S2097152x2, .f32⟩
  | .hbm, ⟨71, _⟩ => ⟨S2097152x2, .f32⟩
  | .hbm, ⟨72, _⟩ => ⟨S_, .f32⟩
  | .hbm, ⟨73, _⟩ => ⟨S2097152x2, .f32⟩
  | .hbm, ⟨74, _⟩ => ⟨S2097152x2, .f32⟩
  | .hbm, ⟨75, _⟩ => ⟨S_, .f32⟩
  | .hbm, ⟨76, _⟩ => ⟨S2097152x2, .f32⟩
  | .hbm, ⟨77, _⟩ => ⟨S2097152x2, .i1⟩
  | .hbm, ⟨78, _⟩ => ⟨S2097152x2, .f32⟩
  | .hbm, ⟨79, _⟩ => ⟨S2097152x2, .f32⟩
  | .hbm, ⟨80, _⟩ => ⟨S2097152x2, .f32⟩
  | .hbm, ⟨81, _⟩ => ⟨S_, .f32⟩
  | .hbm, ⟨82, _⟩ => ⟨S2097152x2, .f32⟩
  | .hbm, ⟨83, _⟩ => ⟨S2097152x2, .f32⟩
  | .hbm, ⟨84, _⟩ => ⟨S2097152x1, .f32⟩
  | .hbm, ⟨85, _⟩ => ⟨S2097152, .f32⟩
  | .hbm, ⟨86, _⟩ => ⟨S2097152x1, .f32⟩
  | .hbm, ⟨87, _⟩ => ⟨S2097152, .f32⟩
  | .hbm, ⟨88, _⟩ => ⟨S_, .f32⟩
  | .hbm, ⟨89, _⟩ => ⟨S2097152, .f32⟩
  | .hbm, ⟨90, _⟩ => ⟨S2097152, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S2097152, .f32⟩
  | .hbm, ⟨95, _⟩ => ⟨S2097152, .f32⟩
  | .hbm, ⟨96, _⟩ => ⟨S_, .f32⟩
  | .hbm, ⟨97, _⟩ => ⟨S2097152, .f32⟩
  | .hbm, ⟨98, _⟩ => ⟨S2097152, .f32⟩
  | .hbm, ⟨99, _⟩ => ⟨S2097152, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_v16 : Ref sig .tc := ⟨.hbm, 32, rfl⟩
abbrev main_call1_cst : Ref sig .tc := ⟨.hbm, 33, rfl⟩
abbrev main_call1_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_v32 : Ref sig .tc := ⟨.hbm, 58, rfl⟩
abbrev main_call3_cst : Ref sig .tc := ⟨.hbm, 59, rfl⟩
abbrev main_call3_v0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_call4_cst : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_v45 : Ref sig .tc := ⟨.hbm, 80, rfl⟩
abbrev main_cst_8 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_9 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_cst_11 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_v54 : Ref sig .tc := ⟨.hbm, 98, rfl⟩
abbrev main_v55 : Ref sig .tc := ⟨.hbm, 99, rfl⟩

abbrev nD : Nat := 1
abbrev τ : Topo := Topo.v7x

variable {F : FTy → Type} [FloatOps F]

class Facts₀ : Prop where
  bcast_S_S2097152x32 : S_.BroadcastsInDim S2097152x32 (![] : Fin 0 → Fin S2097152x32.rank)
  transposes_S32x32_S32x32_1_0 : S32x32.Transposes [1, 0] S32x32
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  transposes_S2x32_S32x2_1_0 : S2x32.Transposes [1, 0] S32x2
  bcast_S2_S1x2_1 : S2.BroadcastsInDim S1x2 (![1] : Fin 1 → Fin S1x2.rank)
  bcast_S1x2_S2097152x2_0_1 : S1x2.BroadcastsInDim S2097152x2 (![0, 1] : Fin 2 → Fin S2097152x2.rank)
  bcast_S_S2097152x2 : S_.BroadcastsInDim S2097152x2 (![] : Fin 0 → Fin S2097152x2.rank)
  slices_S2097152x2_S2097152x1_0_0 : S2097152x2.Slices ![0, 0] S2097152x1
  shapeCasts_S2097152x1_S2097152 : S2097152x1.ShapeCasts S2097152
  slices_S2097152x2_S2097152x1_0_1 : S2097152x2.Slices ![0, 1] S2097152x1
  bcast_S_S2097152 : S_.BroadcastsInDim S2097152 (![] : Fin 0 → Fin S2097152.rank)
  dot_S2097152x32_S32x32_S2097152x32_1_0_0_1_n_n_wf : DotDims.WF S2097152x32 S32x32 S2097152x32 [1] [0] [0] [1] [] []
  dot_S2097152x32_S32x2_S2097152x2_1_0_0_1_n_n_wf : DotDims.WF S2097152x32 S32x2 S2097152x2 [1] [0] [0] [1] [] []

variable [Facts₀]

def dot_S2097152x32_S32x32_S2097152x32_1_0_0_1_n_n : DotDims S2097152x32 S32x32 S2097152x32 where
  lhsContracting := [1]
  rhsContracting := [0]
  lhsNonContracting := [0]
  rhsNonContracting := [1]
  lhsBatch := []
  rhsBatch := []
  wf := dot_S2097152x32_S32x32_S2097152x32_1_0_0_1_n_n_wf
def dot_S2097152x32_S32x2_S2097152x2_1_0_0_1_n_n : DotDims S2097152x32 S32x2 S2097152x2 where
  lhsContracting := [1]
  rhsContracting := [0]
  lhsNonContracting := [0]
  rhsNonContracting := [1]
  lhsBatch := []
  rhsBatch := []
  wf := dot_S2097152x32_S32x2_S2097152x2_1_0_0_1_n_n_wf

class Facts : Prop extends Facts₀ where

variable [Facts]
-- ==== Proof.Spec.lean ====
/-
  The function both programs compute, row by row, on the extended reals.

  A row r of the input x (32 entries) is lifted to fixed point (times 256) and passed through two
  residual layers and one output layer.  A layer forms  xx = (sum over k of h k * W j k) + b j  (plus
  256 * h j when residual) and rounds xx / 256 half away from zero.  The reference writes that
  rounding as  trunc ((xx + sign xx * 128) / 256)  with trunc chosen between ceil and floor by the
  sign of its argument ('rnd'); the kernel writes it as  sgn xx * floor (|xx| * 2^-8 + 1/2)  with
  sgn xx equal to xx itself when |xx| is not positive ('krnd').  The two agree on every extended
  real.  The two hidden layers are clamped below at 0; the output layer's two entries, divided by
  256, are mu and the log-scale, and scale = exp (min 5 (max (-4.6) (log-scale - 4))).
-/
import Idealize.ShloMosaic.PureOps.Ideal
import Idealize.ShloMosaic.Lib.ValueIdx

noncomputable section

namespace Cert.Spec

open Idealize.ShloMosaic Idealize.ShloMosaic.ValueIdx

/-- 256, 128, 0, 4, -4.6 (as the f32 nearest to it), 5, 2^-8, 1/2, -1, 1: the literals of both programs. -/
def c256 : EReal := Ideal.ofBits .f32 0x43800000#32
def c128 : EReal := Ideal.ofBits .f32 0x43000000#32
def c0 : EReal := Ideal.ofBits .f32 0x00000000#32
def c4 : EReal := Ideal.ofBits .f32 0x40800000#32
def cLo : EReal := Ideal.ofBits .f32 0xC0933333#32
def cHi : EReal := Ideal.ofBits .f32 0x40A00000#32
def c2m8 : EReal := Ideal.ofBits .f32 0x3B800000#32
def cHalf : EReal := Ideal.ofBits .f32 0x3F000000#32
def cM1 : EReal := Ideal.ofBits .f32 0xBF800000#32
def c1 : EReal := Ideal.ofBits .f32 0x3F800000#32

/-- The reference's rounding of xx / 256: add 128 with xx's sign, divide by 256, truncate toward zero
    (ceil of a negative quotient, floor otherwise). -/
def rnd (x : EReal) : EReal :=
  Scalar.select (Ideal.cmp .olt (Ideal.div (x + Ideal.sign x * c128) c256) c0)
    (Ideal.liftRound Int.ceil (Ideal.div (x + Ideal.sign x * c128) c256))
    (Ideal.liftRound Int.floor (Ideal.div (x + Ideal.sign x * c128) c256))

/-- The kernel's sign: -1 or 1 by the order when |x| is positive, and x itself (zero) otherwise. -/
def ksgn (x : EReal) : EReal :=
  Scalar.select (Ideal.cmp .ogt (max x (-x)) c0) (Scalar.select (Ideal.cmp .olt x c0) cM1 c1) x

/-- The kernel's rounding of xx / 256: its sign times floor (|xx| * 2^-8 + 1/2). -/
def krnd (x : EReal) : EReal :=
  ksgn x * Ideal.liftRound Int.floor (max x (-x) * c2m8 + cHalf)

/-- A row lifted to fixed point. -/
def lift (x : Fin 32 → EReal) (k : Fin 32) : EReal := x k * c256

/-- The value a residual layer rounds: the affine image of the row plus 256 times the row's own entry. -/
def preRes (h : Fin 32 → EReal) (w : Fin 32 → Fin 32 → EReal) (b : Fin 32 → EReal) (j : Fin 32) : EReal :=
  ((∑ k : Fin 32, h k * w j k) + b j) + h j * c256

/-- A hidden layer: round, then clamp below at 0. -/
def hidden (h : Fin 32 → EReal) (w : Fin 32 → Fin 32 → EReal) (b : Fin 32 → EReal) (j : Fin 32) : EReal :=
  max (rnd (preRes h w b j)) c0

/-- The value the output layer rounds (no residual term): two entries per row. -/
def preOut (h : Fin 32 → EReal) (w : Fin 2 → Fin 32 → EReal) (b : Fin 2 → EReal) (c : Fin 2) : EReal :=
  (∑ k : Fin 32, h k * w c k) + b c

/-- The second hidden row of input row x. -/
def h2 (x : Fin 32 → EReal) (w0 : Fin 32 → Fin 32 → EReal) (b0 : Fin 32 → EReal)
    (w1 : Fin 32 → Fin 32 → EReal) (b1 : Fin 32 → EReal) : Fin 32 → EReal :=
  hidden (hidden (lift x) w0 b0) w1 b1

/-- The output layer's rounded entry c, divided by 256. -/
def raw (x : Fin 32 → EReal) (w0 : Fin 32 → Fin 32 → EReal) (b0 : Fin 32 → EReal)
    (w1 : Fin 32 → Fin 32 → EReal) (b1 : Fin 32 → EReal) (wo : Fin 2 → Fin 32 → EReal) (bo : Fin 2 → EReal)
    (c : Fin 2) : EReal :=
  Ideal.div (rnd (preOut (h2 x w0 b0 w1 b1) wo bo c)) c256

/-- exp of the log-scale shifted by 4 and clipped to [-4.6, 5]. -/
def scaleOf (ls : EReal) : EReal := Ideal.exp (min cHi (max cLo (ls - c4)))

/-! ## The same, over the argument arrays -/

abbrev SX : Shape := ⟨2, ![2097152, 32]⟩
abbrev SW : Shape := ⟨2, ![32, 32]⟩
abbrev SB : Shape := ⟨1, ![32]⟩
abbrev SWo : Shape := ⟨2, ![2, 32]⟩
abbrev SBo : Shape := ⟨1, ![2]⟩
abbrev SR : Shape := ⟨1, ![2097152]⟩

/-- Row r of the input. -/
def rowOf (X : FVec Ideal SX .f32) (r : Fin 2097152) : Fin 32 → EReal := fun k => X (ix2 r k)
/-- A 32 x 32 weight matrix by coordinates: entry (j, k) multiplies input k into output j. -/
def matOf (W : FVec Ideal SW .f32) : Fin 32 → Fin 32 → EReal := fun j k => W (ix2 j k)
def vecOf (B : FVec Ideal SB .f32) : Fin 32 → EReal := fun j => B (ix1 j)
def matOutOf (W : FVec Ideal SWo .f32) : Fin 2 → Fin 32 → EReal := fun c k => W (ix2 c k)
def vecOutOf (B : FVec Ideal SBo .f32) : Fin 2 → EReal := fun c => B (ix1 c)

/-- The output layer's entry c of row r, divided by 256, from the seven argument arrays. -/
def rawAt (X : FVec Ideal SX .f32) (W0 : FVec Ideal SW .f32) (B0 : FVec Ideal SB .f32) (W1 : FVec Ideal SW .f32)
    (B1 : FVec Ideal SB .f32) (Wo : FVec Ideal SWo .f32) (Bo : FVec Ideal SBo .f32) (r : Fin 2097152) (c : Fin 2) : EReal :=
  raw (rowOf X r) (matOf W0) (vecOf B0) (matOf W1) (vecOf B1) (matOutOf Wo) (vecOutOf Bo) c

/-- The three results: mu, scale, log-scale, one entry per input row. -/
def muArr (X : FVec Ideal SX .f32) (W0 : FVec Ideal SW .f32) (B0 : FVec Ideal SB .f32) (W1 : FVec Ideal SW .f32)
    (B1 : FVec Ideal SB .f32) (Wo : FVec Ideal SWo .f32) (Bo : FVec Ideal SBo .f32) : FVec Ideal SR .f32 :=
  fun i => rawAt X W0 B0 W1 B1 Wo Bo (i 0) 0
def lsArr (X : FVec Ideal SX .f32) (W0 : FVec Ideal SW .f32) (B0 : FVec Ideal SB .f32) (W1 : FVec Ideal SW .f32)
    (B1 : FVec Ideal SB .f32) (Wo : FVec Ideal SWo .f32) (Bo : FVec Ideal SBo .f32) : FVec Ideal SR .f32 :=
  fun i => rawAt X W0 B0 W1 B1 Wo Bo (i 0) 1
def scaleArr (X : FVec Ideal SX .f32) (W0 : FVec Ideal SW .f32) (B0 : FVec Ideal SB .f32) (W1 : FVec Ideal SW .f32)
    (B1 : FVec Ideal SB .f32) (Wo : FVec Ideal SWo .f32) (Bo : FVec Ideal SBo .f32) : FVec Ideal SR .f32 :=
  fun i => scaleOf (rawAt X W0 B0 W1 B1 Wo Bo (i 0) 1)

end Cert.Spec

end
-- ==== Proof.KSpec.lean ====
/-
  What the kernel computes on one packed row, on the extended reals.

  A packed row holds four consecutive input rows side by side: lanes 32 g .. 32 g + 31 are input row 4 p + g.
  The kernel multiplies the packed row (times 256) by 128 x 128 matrices, adds a 128-vector, adds 256 times the
  row itself and rounds ('Cert.Spec.krnd'), twice with a clamp at 0, then multiplies by a 128 x 8 matrix, adds an
  8-vector, rounds and scales by 2^-8.  Of the eight results, entry g (g < 4) is mu of the group g and entry
  4 + g its log-scale; the twelve outputs interleave, per group, mu, exp of the clipped shifted log-scale, and
  the log-scale.
-/
import proofs.«104846_j19911468384433_2_alg».proof.Proof.Spec

noncomputable section

namespace Cert.KSpec

open Idealize.ShloMosaic Idealize.ShloMosaic.ValueIdx Cert.Spec

abbrev SM : Shape := ⟨2, ![128, 128]⟩
abbrev SV : Shape := ⟨1, ![128]⟩
abbrev SMo : Shape := ⟨2, ![128, 8]⟩
abbrev SVo : Shape := ⟨1, ![8]⟩

/-- Lane K of a packed row belongs to input row number K / 32 of the four, -/
def grp (K : Fin 128) : Fin 4 := ⟨K.val / 32, by have := K.isLt; omega⟩
/-- at position K mod 32 of that row. -/
def lane (K : Fin 128) : Fin 32 := ⟨K.val % 32, by omega⟩
/-- Lane 32 g + k. -/
def join (g : Fin 4) (k : Fin 32) : Fin 128 := ⟨32 * g.val + k.val, by have := g.isLt; have := k.isLt; omega⟩
/-- Of the eight packed outputs, entry e belongs to input row e mod 4 -/
def grp8 (e : Fin 8) : Fin 4 := ⟨e.val % 4, by omega⟩
/-- and is output number e / 4 (0: mu, 1: log-scale). -/
def half8 (e : Fin 8) : Fin 2 := ⟨e.val / 4, by have := e.isLt; omega⟩

theorem grp_join (g : Fin 4) (k : Fin 32) : grp (join g k) = g := by
  apply Fin.ext; show (32 * g.val + k.val) / 32 = g.val; have := k.isLt; omega
theorem lane_join (g : Fin 4) (k : Fin 32) : lane (join g k) = k := by
  apply Fin.ext; show (32 * g.val + k.val) % 32 = k.val; have := k.isLt; omega

/-- The packed row lifted to fixed point. -/
def klift (row : Fin 128 → EReal) (l : Fin 128) : EReal := row l * c256

/-- The value a packed residual layer rounds at lane l. -/
def kpre (h : Fin 128 → EReal) (A : FVec Ideal SM .f32) (B : FVec Ideal SV .f32) (l : Fin 128) : EReal :=
  ((∑ k : Fin 128, h k * A (ix2 k l)) + B (ix1 l)) + h l * c256

/-- A packed hidden layer: the kernel's rounding, then the clamp at 0. -/
def khidden (h : Fin 128 → EReal) (A : FVec Ideal SM .f32) (B : FVec Ideal SV .f32) (l : Fin 128) : EReal :=
  max (krnd (kpre h A B l)) c0

/-- The value the second hidden layer rounds, from the packed input row. -/
def kpre2 (row : Fin 128 → EReal) (A1 : FVec Ideal SM .f32) (A2 : FVec Ideal SV .f32) (A3 : FVec Ideal SM .f32)
    (A4 : FVec Ideal SV .f32) (l : Fin 128) : EReal :=
  kpre (khidden (klift row) A1 A2) A3 A4 l

/-- The eight packed outputs: the output layer on the second hidden row, rounded, times 2^-8. -/
def kraw (pre2 : Fin 128 → EReal) (A5 : FVec Ideal SMo .f32) (A6 : FVec Ideal SVo .f32) (e : Fin 8) : EReal :=
  krnd ((∑ k : Fin 128, max (krnd (pre2 k)) c0 * A5 (ix2 k e)) + A6 (ix1 e)) * c2m8

/-- exp of the log-scale shifted by 4 and clipped to [-4.6, 5], as the kernel writes it. -/
def kscale (ls : EReal) : EReal := Ideal.exp (min cHi (max cLo (ls - c4)))

end Cert.KSpec

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KPay.lean ====
/-
  The kernel body's values read at an index, on the extended reals.

  Row p of the body's block is a packed row; lane l of a layer's value depends on row p of the layer's input and
  on column l of the weight block only (a matrix product is a sum over the 128 contraction positions, the bias is
  broadcast along the rows, every other operation is pointwise).  So each of the body's three named values, read at
  (p, l), is the packed-row function of the specification at row p of the loaded block.
-/
import proofs.«104846_j19911468384433_2_alg».proof.Proof.Gen.KernelIdeal.Skeleton
import proofs.«104846_j19911468384433_2_alg».proof.Proof.KSpec
import proofs.«104846_j19911468384433_2_alg».proof.Proof.LibPlainDot
import Idealize.ShloMosaic.Lib.Pipeline.Value
import Idealize.ShloMosaic.Lib.ValueIdx
import Idealize.ShloMosaic.Lib.ValueLayout
import Idealize.ShloMosaic.PureOps.Ideal

noncomputable section

namespace Cert.KernelIdeal.KPay

open Idealize.ShloMosaic Idealize.ShloMosaic.ValueIdx
open Cert.KernelIdeal Cert.KernelIdeal.Gen Cert.KSpec Cert.Spec

/-! ## One layer's pieces, over any operands -/

/-- The kernel's rounding of a whole array (the sign by selects, times the floor of |v| 2^-8 + 1/2), at an index. -/
def roundT (s : Shape) (v : FVec Ideal s .f32) : FVec Ideal s .f32 :=
  mulf (select (cmpf .ogt (absf v) (broadcast s (Scalar.ofBits .f32 0x00000000#32)))
      (select (cmpf .olt v (constant s .f32 0x00000000#32)) (constant s .f32 0xBF800000#32) (constant s .f32 0x3F800000#32)) v)
    (floor (addf (mulf (absf v) (broadcast s (Scalar.ofBits .f32 0x3B800000#32))) (broadcast s (Scalar.ofBits .f32 0x3F000000#32))))

theorem roundT_apply (s : Shape) (v : FVec Ideal s .f32) (i : s.Idx) : roundT s v i = krnd (v i) := rfl

/-- A matrix product of an 8192 x 128 block with a 128 x 128 block plus a broadcast 128-vector, at (p, l). -/
theorem affine_apply (h : FVec Ideal S8192x128 .f32) (A : FVec Ideal S128x128 .f32) (B : FVec Ideal S128 .f32)
    (p : Fin 8192) (l : Fin 128) :
    addf (matmul dot_S8192x128_S128x128_S8192x128_1_0_0_1_n_n (some .fp32) h A (constant S8192x128 .f32 0x00000000#32))
        (broadcastTo S8192x128 (shapeCast S1x128 B shapeCasts_S128_S1x128) broadcasts_S1x128_S8192x128) (ix2 p l)
      = (∑ k : Fin 128, h (ix2 p k) * A (ix2 k l)) + B (ix1 l) := by
  rw [addf_apply]
  refine congrArg₂ (· + ·) ?_ ?_
  · exact Cert.LibPlainDot.matmul_zero_apply 8192 128 128 (some .fp32) h A (ix2 p l)
  · rw [broadcastTo_1b_ab_apply _ broadcasts_S1x128_S8192x128 p l]
    exact shapeCast_a_1a_apply B shapeCasts_S128_S1x128 (0 : Fin 1) l

/-- The same with a 128 x 8 block and an 8-vector, at (p, e). -/
theorem affine8_apply (h : FVec Ideal S8192x128 .f32) (A : FVec Ideal S128x8 .f32) (B : FVec Ideal S8 .f32)
    (p : Fin 8192) (e : Fin 8) :
    addf (matmul dot_S8192x128_S128x8_S8192x8_1_0_0_1_n_n (some .fp32) h A (constant S8192x8 .f32 0x00000000#32))
        (broadcastTo S8192x8 (shapeCast S1x8 B shapeCasts_S8_S1x8) broadcasts_S1x8_S8192x8) (ix2 p e)
      = (∑ k : Fin 128, h (ix2 p k) * A (ix2 k e)) + B (ix1 e) := by
  rw [addf_apply]
  refine congrArg₂ (· + ·) ?_ ?_
  · exact Cert.LibPlainDot.matmul_zero_apply 8192 128 8 (some .fp32) h A (ix2 p e)
  · rw [broadcastTo_1b_ab_apply _ broadcasts_S1x8_S8192x8 p e]
    exact shapeCast_a_1a_apply B shapeCasts_S8_S1x8 (0 : Fin 1) e

/-- A residual layer's value before rounding, as the body writes it. -/
def preT (h : FVec Ideal S8192x128 .f32) (A : FVec Ideal S128x128 .f32) (B : FVec Ideal S128 .f32) : FVec Ideal S8192x128 .f32 :=
  addf (addf (matmul dot_S8192x128_S128x128_S8192x128_1_0_0_1_n_n (some .fp32) h A (constant S8192x128 .f32 0x00000000#32))
        (broadcastTo S8192x128 (shapeCast S1x128 B shapeCasts_S128_S1x128) broadcasts_S1x128_S8192x128))
    (mulf h (broadcast S8192x128 (Scalar.ofBits .f32 0x43800000#32)))

theorem preT_apply (h : FVec Ideal S8192x128 .f32) (A : FVec Ideal S128x128 .f32) (B : FVec Ideal S128 .f32)
    (p : Fin 8192) (l : Fin 128) : preT h A B (ix2 p l) = kpre (fun k => h (ix2 p k)) A B l := by
  unfold preT kpre
  rw [addf_apply, affine_apply]
  rfl

/-- A hidden layer as the body writes it: round, clamp at 0. -/
def hiddenT (v : FVec Ideal S8192x128 .f32) : FVec Ideal S8192x128 .f32 :=
  maximumf (roundT S8192x128 v) (broadcast S8192x128 (Scalar.ofBits .f32 0x00000000#32))

theorem hiddenT_apply (v : FVec Ideal S8192x128 .f32) (i : S8192x128.Idx) : hiddenT v i = max (krnd (v i)) c0 := rfl

/-! ## The body's three named values -/

-- The two sides are the same tree of operations; the operations' own bodies are kept closed while it is compared.
attribute [local irreducible] Ideal.matmul shapeCast broadcastTo in
/-- The value the second hidden layer rounds is two layers of the loaded blocks. -/
theorem pay2_eq (x0 : Vec Ideal S8192x128 .f32) (x1 : Vec Ideal S128x128 .f32) (x2 : Vec Ideal S128 .f32)
    (x3 : Vec Ideal S128x128 .f32) (x4 : Vec Ideal S128 .f32) :
    k0_pay2 x0 x1 x2 x3 x4
      = preT (hiddenT (preT (mulf (shapeCast S8192x128 x0 shapeCasts_S8192x128_S8192x128) (broadcast S8192x128 (Scalar.ofBits .f32 0x43800000#32)))
            (shapeCast S128x128 x1 shapeCasts_S128x128_S128x128) x2))
          (shapeCast S128x128 x3 shapeCasts_S128x128_S128x128) x4 := rfl

theorem pay2_apply (x0 : Vec Ideal S8192x128 .f32) (x1 : Vec Ideal S128x128 .f32) (x2 : Vec Ideal S128 .f32)
    (x3 : Vec Ideal S128x128 .f32) (x4 : Vec Ideal S128 .f32) (p : Fin 8192) (l : Fin 128) :
    k0_pay2 x0 x1 x2 x3 x4 (ix2 p l) = kpre2 (fun K => x0 (ix2 p K)) x1 x2 x3 x4 l := by
  rw [pay2_eq]
  simp only [shapeCast_self]
  rw [preT_apply]
  unfold kpre2
  refine congrArg (fun h => kpre h x3 x4 l) (funext fun k => ?_)
  rw [hiddenT_apply, preT_apply]
  rfl

attribute [local irreducible] Ideal.matmul shapeCast broadcastTo in
/-- The eight packed outputs are the output layer of the clamped rounding of that value, rounded and scaled. -/
theorem pay3_eq (v42 : FVec Ideal S8192x128 .f32) (x5 : Vec Ideal S128x8 .f32) (x6 : Vec Ideal S8 .f32) :
    k0_pay3 v42 x5 x6
      = mulf (roundT S8192x8
            (addf (matmul dot_S8192x128_S128x8_S8192x8_1_0_0_1_n_n (some .fp32) (hiddenT v42) (shapeCast S128x8 x5 shapeCasts_S128x8_S128x8 : FVec Ideal S128x8 .f32) (constant S8192x8 .f32 0x00000000#32))
              (broadcastTo S8192x8 (shapeCast S1x8 (shapeCast S8 x6 shapeCasts_S8_S8 : FVec Ideal S8 .f32) shapeCasts_S8_S1x8) broadcasts_S1x8_S8192x8)))
          (broadcast S8192x8 (Scalar.ofBits .f32 0x3B800000#32)) := rfl

theorem pay3_apply (v42 : FVec Ideal S8192x128 .f32) (x5 : Vec Ideal S128x8 .f32) (x6 : Vec Ideal S8 .f32)
    (p : Fin 8192) (e : Fin 8) :
    k0_pay3 v42 x5 x6 (ix2 p e) = kraw (fun K => v42 (ix2 p K)) x5 x6 e := by
  rw [pay3_eq]
  simp only [shapeCast_self]
  rw [mulf_apply, roundT_apply, affine8_apply]
  rfl

end Cert.KernelIdeal.KPay

end
-- ==== Proof.KOut.lean ====
/-
  The body's stored block, column by column: per group g of a packed row, column 3 g is mu, column 3 g + 1 is
  exp of the log-scale less 4 clipped to [-4.6, 5], column 3 g + 2 is the log-scale.
-/
import proofs.«104846_j19911468384433_2_alg».proof.Proof.KPay

noncomputable section

namespace Cert.KernelIdeal.KPay

open Idealize.ShloMosaic Idealize.ShloMosaic.ValueIdx
open Cert.KernelIdeal Cert.KernelIdeal.Gen Cert.KSpec Cert.Spec

/-- exp of (ls - four) clipped, with the subtrahend as the body holds it (a broadcast constant). -/
def kscaleSub (ls four : EReal) : EReal := Ideal.exp (min cHi (max cLo (ls - four)))

/-- The twelve one-column pieces the body concatenates, in order. -/
abbrev pieces (v89 v90 v91 : FVec Ideal S8192x4 .f32) : List ((s : Shape) × (s.Idx → EReal)) :=
    [⟨S8192x1, extractStridedSlice S8192x1 ![0, 0] v89 slices_S8192x4_o0_0_S8192x1⟩,
     ⟨S8192x1, extractStridedSlice S8192x1 ![0, 0] (exp (minimumf (broadcast S8192x4 (Scalar.ofBits .f32 0x40A00000#32)) (maximumf (broadcast S8192x4 (Scalar.ofBits .f32 0xC0933333#32)) (subf v90 v91))) : FVec Ideal S8192x4 .f32) slices_S8192x4_o0_0_S8192x1⟩,
     ⟨S8192x1, extractStridedSlice S8192x1 ![0, 0] v90 slices_S8192x4_o0_0_S8192x1⟩,
     ⟨S8192x1, extractStridedSlice S8192x1 ![0, 1] v89 slices_S8192x4_o0_1_S8192x1⟩,
     ⟨S8192x1, extractStridedSlice S8192x1 ![0, 1] (exp (minimumf (broadcast S8192x4 (Scalar.ofBits .f32 0x40A00000#32)) (maximumf (broadcast S8192x4 (Scalar.ofBits .f32 0xC0933333#32)) (subf v90 v91))) : FVec Ideal S8192x4 .f32) slices_S8192x4_o0_1_S8192x1⟩,
     ⟨S8192x1, extractStridedSlice S8192x1 ![0, 1] v90 slices_S8192x4_o0_1_S8192x1⟩,
     ⟨S8192x1, extractStridedSlice S8192x1 ![0, 2] v89 slices_S8192x4_o0_2_S8192x1⟩,
     ⟨S8192x1, extractStridedSlice S8192x1 ![0, 2] (exp (minimumf (broadcast S8192x4 (Scalar.ofBits .f32 0x40A00000#32)) (maximumf (broadcast S8192x4 (Scalar.ofBits .f32 0xC0933333#32)) (subf v90 v91))) : FVec Ideal S8192x4 .f32) slices_S8192x4_o0_2_S8192x1⟩,
     ⟨S8192x1, extractStridedSlice S8192x1 ![0, 2] v90 slices_S8192x4_o0_2_S8192x1⟩,
     ⟨S8192x1, extractStridedSlice S8192x1 ![0, 3] v89 slices_S8192x4_o0_3_S8192x1⟩,
     ⟨S8192x1, extractStridedSlice S8192x1 ![0, 3] (exp (minimumf (broadcast S8192x4 (Scalar.ofBits .f32 0x40A00000#32)) (maximumf (broadcast S8192x4 (Scalar.ofBits .f32 0xC0933333#32)) (subf v90 v91))) : FVec Ideal S8192x4 .f32) slices_S8192x4_o0_3_S8192x1⟩,
     ⟨S8192x1, extractStridedSlice S8192x1 ![0, 3] v90 slices_S8192x4_o0_3_S8192x1⟩]

theorem pay1_eq (v89 v90 v91 : FVec Ideal S8192x4 .f32) :
    k0_pay1 v89 v90 v91 = concatenate S8192x12 1 (pieces v89 v90 v91)
      concatenates_S8192x1_S8192x1_S8192x1_S8192x1_S8192x1_S8192x1_S8192x1_S8192x1_S8192x1_S8192x1_S8192x1_S8192x1_S8192x12_d1 := rfl

theorem pay1_col0 (v89 v90 v91 : FVec Ideal S8192x4 .f32) (p : Fin 8192) :
    k0_pay1 v89 v90 v91 (ix2 p (⟨0, by decide⟩ : Fin 12)) = v89 (ix2 p (⟨0, by decide⟩ : Fin 4)) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨0, by decide⟩ : Fin 12)) 0 (by show 0 < 12; omega) S8192x1 _ rfl rfl 0 (by rfl) (ix2 p (0 : Fin 1)) (fun b hb => ?_) (by rfl)).trans ?_
  · match b with
    | ⟨0, _⟩ => rfl
    | ⟨1, _⟩ => exact absurd rfl hb
  · exact slice2_axis1_apply 0 v89 slices_S8192x4_o0_0_S8192x1 p (0 : Fin 1) (⟨0, by decide⟩ : Fin 4) rfl

theorem pay1_col1 (v89 v90 v91 : FVec Ideal S8192x4 .f32) (p : Fin 8192) :
    k0_pay1 v89 v90 v91 (ix2 p (⟨1, by decide⟩ : Fin 12)) = kscaleSub (v90 (ix2 p (⟨0, by decide⟩ : Fin 4))) (v91 (ix2 p (⟨0, by decide⟩ : Fin 4))) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨1, by decide⟩ : Fin 12)) 1 (by show 1 < 12; omega) S8192x1 _ rfl rfl 1 (by rfl) (ix2 p (0 : Fin 1)) (fun b hb => ?_) (by rfl)).trans ?_
  · match b with
    | ⟨0, _⟩ => rfl
    | ⟨1, _⟩ => exact absurd rfl hb
  · exact slice2_axis1_apply 0 (exp (minimumf (broadcast S8192x4 (Scalar.ofBits .f32 0x40A00000#32)) (maximumf (broadcast S8192x4 (Scalar.ofBits .f32 0xC0933333#32)) (subf v90 v91))) : FVec Ideal S8192x4 .f32) slices_S8192x4_o0_0_S8192x1 p (0 : Fin 1) (⟨0, by decide⟩ : Fin 4) rfl

theorem pay1_col2 (v89 v90 v91 : FVec Ideal S8192x4 .f32) (p : Fin 8192) :
    k0_pay1 v89 v90 v91 (ix2 p (⟨2, by decide⟩ : Fin 12)) = v90 (ix2 p (⟨0, by decide⟩ : Fin 4)) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨2, by decide⟩ : Fin 12)) 2 (by show 2 < 12; omega) S8192x1 _ rfl rfl 2 (by rfl) (ix2 p (0 : Fin 1)) (fun b hb => ?_) (by rfl)).trans ?_
  · match b with
    | ⟨0, _⟩ => rfl
    | ⟨1, _⟩ => exact absurd rfl hb
  · exact slice2_axis1_apply 0 v90 slices_S8192x4_o0_0_S8192x1 p (0 : Fin 1) (⟨0, by decide⟩ : Fin 4) rfl

theorem pay1_col3 (v89 v90 v91 : FVec Ideal S8192x4 .f32) (p : Fin 8192) :
    k0_pay1 v89 v90 v91 (ix2 p (⟨3, by decide⟩ : Fin 12)) = v89 (ix2 p (⟨1, by decide⟩ : Fin 4)) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨3, by decide⟩ : Fin 12)) 3 (by show 3 < 12; omega) S8192x1 _ rfl rfl 3 (by rfl) (ix2 p (0 : Fin 1)) (fun b hb => ?_) (by rfl)).trans ?_
  · match b with
    | ⟨0, _⟩ => rfl
    | ⟨1, _⟩ => exact absurd rfl hb
  · exact slice2_axis1_apply 1 v89 slices_S8192x4_o0_1_S8192x1 p (0 : Fin 1) (⟨1, by decide⟩ : Fin 4) rfl

theorem pay1_col4 (v89 v90 v91 : FVec Ideal S8192x4 .f32) (p : Fin 8192) :
    k0_pay1 v89 v90 v91 (ix2 p (⟨4, by decide⟩ : Fin 12)) = kscaleSub (v90 (ix2 p (⟨1, by decide⟩ : Fin 4))) (v91 (ix2 p (⟨1, by decide⟩ : Fin 4))) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨4, by decide⟩ : Fin 12)) 4 (by show 4 < 12; omega) S8192x1 _ rfl rfl 4 (by rfl) (ix2 p (0 : Fin 1)) (fun b hb => ?_) (by rfl)).trans ?_
  · match b with
    | ⟨0, _⟩ => rfl
    | ⟨1, _⟩ => exact absurd rfl hb
  · exact slice2_axis1_apply 1 (exp (minimumf (broadcast S8192x4 (Scalar.ofBits .f32 0x40A00000#32)) (maximumf (broadcast S8192x4 (Scalar.ofBits .f32 0xC0933333#32)) (subf v90 v91))) : FVec Ideal S8192x4 .f32) slices_S8192x4_o0_1_S8192x1 p (0 : Fin 1) (⟨1, by decide⟩ : Fin 4) rfl

theorem pay1_col5 (v89 v90 v91 : FVec Ideal S8192x4 .f32) (p : Fin 8192) :
    k0_pay1 v89 v90 v91 (ix2 p (⟨5, by decide⟩ : Fin 12)) = v90 (ix2 p (⟨1, by decide⟩ : Fin 4)) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨5, by decide⟩ : Fin 12)) 5 (by show 5 < 12; omega) S8192x1 _ rfl rfl 5 (by rfl) (ix2 p (0 : Fin 1)) (fun b hb => ?_) (by rfl)).trans ?_
  · match b with
    | ⟨0, _⟩ => rfl
    | ⟨1, _⟩ => exact absurd rfl hb
  · exact slice2_axis1_apply 1 v90 slices_S8192x4_o0_1_S8192x1 p (0 : Fin 1) (⟨1, by decide⟩ : Fin 4) rfl

theorem pay1_col6 (v89 v90 v91 : FVec Ideal S8192x4 .f32) (p : Fin 8192) :
    k0_pay1 v89 v90 v91 (ix2 p (⟨6, by decide⟩ : Fin 12)) = v89 (ix2 p (⟨2, by decide⟩ : Fin 4)) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨6, by decide⟩ : Fin 12)) 6 (by show 6 < 12; omega) S8192x1 _ rfl rfl 6 (by rfl) (ix2 p (0 : Fin 1)) (fun b hb => ?_) (by rfl)).trans ?_
  · match b with
    | ⟨0, _⟩ => rfl
    | ⟨1, _⟩ => exact absurd rfl hb
  · exact slice2_axis1_apply 2 v89 slices_S8192x4_o0_2_S8192x1 p (0 : Fin 1) (⟨2, by decide⟩ : Fin 4) rfl

theorem pay1_col7 (v89 v90 v91 : FVec Ideal S8192x4 .f32) (p : Fin 8192) :
    k0_pay1 v89 v90 v91 (ix2 p (⟨7, by decide⟩ : Fin 12)) = kscaleSub (v90 (ix2 p (⟨2, by decide⟩ : Fin 4))) (v91 (ix2 p (⟨2, by decide⟩ : Fin 4))) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨7, by decide⟩ : Fin 12)) 7 (by show 7 < 12; omega) S8192x1 _ rfl rfl 7 (by rfl) (ix2 p (0 : Fin 1)) (fun b hb => ?_) (by rfl)).trans ?_
  · match b with
    | ⟨0, _⟩ => rfl
    | ⟨1, _⟩ => exact absurd rfl hb
  · exact slice2_axis1_apply 2 (exp (minimumf (broadcast S8192x4 (Scalar.ofBits .f32 0x40A00000#32)) (maximumf (broadcast S8192x4 (Scalar.ofBits .f32 0xC0933333#32)) (subf v90 v91))) : FVec Ideal S8192x4 .f32) slices_S8192x4_o0_2_S8192x1 p (0 : Fin 1) (⟨2, by decide⟩ : Fin 4) rfl

theorem pay1_col8 (v89 v90 v91 : FVec Ideal S8192x4 .f32) (p : Fin 8192) :
    k0_pay1 v89 v90 v91 (ix2 p (⟨8, by decide⟩ : Fin 12)) = v90 (ix2 p (⟨2, by decide⟩ : Fin 4)) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨8, by decide⟩ : Fin 12)) 8 (by show 8 < 12; omega) S8192x1 _ rfl rfl 8 (by rfl) (ix2 p (0 : Fin 1)) (fun b hb => ?_) (by rfl)).trans ?_
  · match b with
    | ⟨0, _⟩ => rfl
    | ⟨1, _⟩ => exact absurd rfl hb
  · exact slice2_axis1_apply 2 v90 slices_S8192x4_o0_2_S8192x1 p (0 : Fin 1) (⟨2, by decide⟩ : Fin 4) rfl

theorem pay1_col9 (v89 v90 v91 : FVec Ideal S8192x4 .f32) (p : Fin 8192) :
    k0_pay1 v89 v90 v91 (ix2 p (⟨9, by decide⟩ : Fin 12)) = v89 (ix2 p (⟨3, by decide⟩ : Fin 4)) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨9, by decide⟩ : Fin 12)) 9 (by show 9 < 12; omega) S8192x1 _ rfl rfl 9 (by rfl) (ix2 p (0 : Fin 1)) (fun b hb => ?_) (by rfl)).trans ?_
  · match b with
    | ⟨0, _⟩ => rfl
    | ⟨1, _⟩ => exact absurd rfl hb
  · exact slice2_axis1_apply 3 v89 slices_S8192x4_o0_3_S8192x1 p (0 : Fin 1) (⟨3, by decide⟩ : Fin 4) rfl

theorem pay1_col10 (v89 v90 v91 : FVec Ideal S8192x4 .f32) (p : Fin 8192) :
    k0_pay1 v89 v90 v91 (ix2 p (⟨10, by decide⟩ : Fin 12)) = kscaleSub (v90 (ix2 p (⟨3, by decide⟩ : Fin 4))) (v91 (ix2 p (⟨3, by decide⟩ : Fin 4))) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨10, by decide⟩ : Fin 12)) 10 (by show 10 < 12; omega) S8192x1 _ rfl rfl 10 (by rfl) (ix2 p (0 : Fin 1)) (fun b hb => ?_) (by rfl)).trans ?_
  · match b with
    | ⟨0, _⟩ => rfl
    | ⟨1, _⟩ => exact absurd rfl hb
  · exact slice2_axis1_apply 3 (exp (minimumf (broadcast S8192x4 (Scalar.ofBits .f32 0x40A00000#32)) (maximumf (broadcast S8192x4 (Scalar.ofBits .f32 0xC0933333#32)) (subf v90 v91))) : FVec Ideal S8192x4 .f32) slices_S8192x4_o0_3_S8192x1 p (0 : Fin 1) (⟨3, by decide⟩ : Fin 4) rfl

theorem pay1_col11 (v89 v90 v91 : FVec Ideal S8192x4 .f32) (p : Fin 8192) :
    k0_pay1 v89 v90 v91 (ix2 p (⟨11, by decide⟩ : Fin 12)) = v90 (ix2 p (⟨3, by decide⟩ : Fin 4)) := by
  rw [pay1_eq]
  refine (concatenate_apply_piece (t := S8192x12) (1 : Fin 2) (pieces v89 v90 v91) concatenates_S8192x1_S8192x1_S8192x1_S8192x1_S8192x1_S8192x1_S8192x1_S8192x1_S8192x1_S8192x1_S8192x1_S8192x1_S8192x12_d1
    (ix2 p (⟨11, by decide⟩ : Fin 12)) 11 (by show 11 < 12; omega) S8192x1 _ rfl rfl 11 (by rfl) (ix2 p (0 : Fin 1)) (fun b hb => ?_) (by rfl)).trans ?_
  · match b with
    | ⟨0, _⟩ => rfl
    | ⟨1, _⟩ => exact absurd rfl hb
  · exact slice2_axis1_apply 3 v90 slices_S8192x4_o0_3_S8192x1 p (0 : Fin 1) (⟨3, by decide⟩ : Fin 4) rfl

end Cert.KernelIdeal.KPay

end
-- ==== Proof.KBody.lean ====
/-
  The body's stored block at (p, q) as one function of row p of the loaded input block and of the six weight blocks.
-/
import proofs.«104846_j19911468384433_2_alg».proof.Proof.KOut

noncomputable section

namespace Cert.KernelIdeal.KPay

open Idealize.ShloMosaic Idealize.ShloMosaic.ValueIdx
open Cert.KernelIdeal Cert.KernelIdeal.Gen Cert.KSpec Cert.Spec

/-- Entry g of the first four packed outputs (the mu's). -/
theorem pay4_apply (v42 : FVec Ideal S8192x128 .f32) (x5 : Vec Ideal S128x8 .f32) (x6 : Vec Ideal S8 .f32)
    (p : Fin 8192) (g : Fin 4) :
    k0_pay4 v42 x5 x6 (ix2 p g) = kraw (fun K => v42 (ix2 p K)) x5 x6 (⟨g.val, by have := g.isLt; omega⟩ : Fin 8) := by
  show extractStridedSlice S8192x4 ![0, 0] (k0_pay3 v42 x5 x6) slices_S8192x8_o0_0_S8192x4 (ix2 p g) = _
  rw [slice2_axis1_apply 0 (k0_pay3 v42 x5 x6) slices_S8192x8_o0_0_S8192x4 p g (⟨g.val, by have := g.isLt; omega⟩ : Fin 8)
    (Nat.zero_add _).symm]
  exact pay3_apply v42 x5 x6 p _

/-- Entry g of the last four packed outputs (the log-scales). -/
theorem pay5_apply (v42 : FVec Ideal S8192x128 .f32) (x5 : Vec Ideal S128x8 .f32) (x6 : Vec Ideal S8 .f32)
    (p : Fin 8192) (g : Fin 4) :
    k0_pay5 v42 x5 x6 (ix2 p g) = kraw (fun K => v42 (ix2 p K)) x5 x6 (⟨4 + g.val, by have := g.isLt; omega⟩ : Fin 8) := by
  show extractStridedSlice S8192x4 ![0, 4] (k0_pay3 v42 x5 x6) slices_S8192x8_o0_4_S8192x4 (ix2 p g) = _
  rw [slice2_axis1_apply 4 (k0_pay3 v42 x5 x6) slices_S8192x8_o0_4_S8192x4 p g (⟨4 + g.val, by have := g.isLt; omega⟩ : Fin 8) rfl]
  exact pay3_apply v42 x5 x6 p _

/-- The twelve outputs of a packed row: per group g, mu, the scale, the log-scale. -/
def kout (row : Fin 128 → EReal) (A1 : FVec Ideal SM .f32) (A2 : FVec Ideal SV .f32) (A3 : FVec Ideal SM .f32)
    (A4 : FVec Ideal SV .f32) (A5 : FVec Ideal SMo .f32) (A6 : FVec Ideal SVo .f32) (q : Fin 12) : EReal :=
  if q.val % 3 = 0 then kraw (kpre2 row A1 A2 A3 A4) A5 A6 ⟨q.val / 3, by have := q.isLt; omega⟩
  else if q.val % 3 = 1 then kscale (kraw (kpre2 row A1 A2 A3 A4) A5 A6 ⟨4 + q.val / 3, by have := q.isLt; omega⟩)
  else kraw (kpre2 row A1 A2 A3 A4) A5 A6 ⟨4 + q.val / 3, by have := q.isLt; omega⟩

/-- Column 3 g of a packed row's outputs is mu of group g, -/
theorem kout_mu (row : Fin 128 → EReal) (A1 : FVec Ideal SM .f32) (A2 : FVec Ideal SV .f32) (A3 : FVec Ideal SM .f32)
    (A4 : FVec Ideal SV .f32) (A5 : FVec Ideal SMo .f32) (A6 : FVec Ideal SVo .f32) (g : Fin 4) :
    kout row A1 A2 A3 A4 A5 A6 (⟨3 * g.val, by have := g.isLt; omega⟩ : Fin 12)
      = kraw (kpre2 row A1 A2 A3 A4) A5 A6 (⟨g.val, by have := g.isLt; omega⟩ : Fin 8) := by
  unfold kout
  have h : (3 * g.val) % 3 = 0 := by omega
  rw [if_pos h]
  exact congrArg (kraw (kpre2 row A1 A2 A3 A4) A5 A6) (Fin.ext (by show 3 * g.val / 3 = g.val; omega))

/-- column 3 g + 1 its scale, -/
theorem kout_scale (row : Fin 128 → EReal) (A1 : FVec Ideal SM .f32) (A2 : FVec Ideal SV .f32) (A3 : FVec Ideal SM .f32)
    (A4 : FVec Ideal SV .f32) (A5 : FVec Ideal SMo .f32) (A6 : FVec Ideal SVo .f32) (g : Fin 4) :
    kout row A1 A2 A3 A4 A5 A6 (⟨3 * g.val + 1, by have := g.isLt; omega⟩ : Fin 12)
      = kscale (kraw (kpre2 row A1 A2 A3 A4) A5 A6 (⟨4 + g.val, by have := g.isLt; omega⟩ : Fin 8)) := by
  unfold kout
  have h0 : ¬ (3 * g.val + 1) % 3 = 0 := by omega
  have h1 : (3 * g.val + 1) % 3 = 1 := by omega
  rw [if_neg h0, if_pos h1]
  exact congrArg (fun e => kscale (kraw (kpre2 row A1 A2 A3 A4) A5 A6 e)) (Fin.ext (by show 4 + (3 * g.val + 1) / 3 = 4 + g.val; omega))

/-- column 3 g + 2 its log-scale. -/
theorem kout_ls (row : Fin 128 → EReal) (A1 : FVec Ideal SM .f32) (A2 : FVec Ideal SV .f32) (A3 : FVec Ideal SM .f32)
    (A4 : FVec Ideal SV .f32) (A5 : FVec Ideal SMo .f32) (A6 : FVec Ideal SVo .f32) (g : Fin 4) :
    kout row A1 A2 A3 A4 A5 A6 (⟨3 * g.val + 2, by have := g.isLt; omega⟩ : Fin 12)
      = kraw (kpre2 row A1 A2 A3 A4) A5 A6 (⟨4 + g.val, by have := g.isLt; omega⟩ : Fin 8) := by
  unfold kout
  have h0 : ¬ (3 * g.val + 2) % 3 = 0 := by omega
  have h1 : ¬ (3 * g.val + 2) % 3 = 1 := by omega
  rw [if_neg h0, if_neg h1]
  exact congrArg (kraw (kpre2 row A1 A2 A3 A4) A5 A6) (Fin.ext (by show 4 + (3 * g.val + 2) / 3 = 4 + g.val; omega))

theorem body_apply (x0 : Vec Ideal S8192x128 .f32) (x1 : Vec Ideal S128x128 .f32) (x2 : Vec Ideal S128 .f32)
    (x3 : Vec Ideal S128x128 .f32) (x4 : Vec Ideal S128 .f32) (x5 : Vec Ideal S128x8 .f32) (x6 : Vec Ideal S8 .f32)
    (p : Fin 8192) (q : Fin 12) :
    k0_pay1 (k0_pay4 (k0_pay2 x0 x1 x2 x3 x4) x5 x6) (k0_pay5 (k0_pay2 x0 x1 x2 x3 x4) x5 x6) (k0_pay6 (F := Ideal)) (ix2 p q)
      = kout (fun K => x0 (ix2 p K)) x1 x2 x3 x4 x5 x6 q := by
  have hrow : (fun K => k0_pay2 x0 x1 x2 x3 x4 (ix2 p K)) = kpre2 (fun K => x0 (ix2 p K)) x1 x2 x3 x4 :=
    funext fun K => pay2_apply x0 x1 x2 x3 x4 p K
  obtain ⟨k, hk⟩ := q
  interval_cases k
  · rw [pay1_col0, pay4_apply, hrow]; exact (kout_mu _ x1 x2 x3 x4 x5 x6 (⟨0, by decide⟩ : Fin 4)).symm
  · rw [pay1_col1, pay5_apply, hrow]; exact (kout_scale _ x1 x2 x3 x4 x5 x6 (⟨0, by decide⟩ : Fin 4)).symm
  · rw [pay1_col2, pay5_apply, hrow]; exact (kout_ls _ x1 x2 x3 x4 x5 x6 (⟨0, by decide⟩ : Fin 4)).symm
  · rw [pay1_col3, pay4_apply, hrow]; exact (kout_mu _ x1 x2 x3 x4 x5 x6 (⟨1, by decide⟩ : Fin 4)).symm
  · rw [pay1_col4, pay5_apply, hrow]; exact (kout_scale _ x1 x2 x3 x4 x5 x6 (⟨1, by decide⟩ : Fin 4)).symm
  · rw [pay1_col5, pay5_apply, hrow]; exact (kout_ls _ x1 x2 x3 x4 x5 x6 (⟨1, by decide⟩ : Fin 4)).symm
  · rw [pay1_col6, pay4_apply, hrow]; exact (kout_mu _ x1 x2 x3 x4 x5 x6 (⟨2, by decide⟩ : Fin 4)).symm
  · rw [pay1_col7, pay5_apply, hrow]; exact (kout_scale _ x1 x2 x3 x4 x5 x6 (⟨2, by decide⟩ : Fin 4)).symm
  · rw [pay1_col8, pay5_apply, hrow]; exact (kout_ls _ x1 x2 x3 x4 x5 x6 (⟨2, by decide⟩ : Fin 4)).symm
  · rw [pay1_col9, pay4_apply, hrow]; exact (kout_mu _ x1 x2 x3 x4 x5 x6 (⟨3, by decide⟩ : Fin 4)).symm
  · rw [pay1_col10, pay5_apply, hrow]; exact (kout_scale _ x1 x2 x3 x4 x5 x6 (⟨3, by decide⟩ : Fin 4)).symm
  · rw [pay1_col11, pay5_apply, hrow]; exact (kout_ls _ x1 x2 x3 x4 x5 x6 (⟨3, by decide⟩ : Fin 4)).symm

end Cert.KernelIdeal.KPay

end
-- ==== Proof.KBlocks.lean ====
/-
  From the blocks the grid points write back to the whole output array.

  Grid point t stages rows 8192 t .. 8192 t + 8191 of the packed input and of the packed output, and the six weight
  arrays whole.  So the block point t writes back is the restriction to those rows of ONE function of the launched
  arrays: output row P is the packed-row function of input row P.  The 64 blocks tile the 524288 rows, hence the
  output array ends at that function.
-/
import proofs.«104846_j19911468384433_2_alg».proof.Proof.Gen.KernelIdeal.Frame
import proofs.«104846_j19911468384433_2_alg».proof.Proof.KBody
import Idealize.ShloMosaic.Lib.Pipeline.Value

noncomputable section

namespace Cert.KernelIdeal.KBlocks

open Idealize.ShloMosaic Idealize.ShloMosaic.TcCoe Idealize.SL.Sem Idealize.ShloMosaic.ValueIdx
open Cert.KernelIdeal Cert.KernelIdeal.Gen Cert.KernelIdeal.KPay Cert.KSpec

variable (m : (ℓ : Loc nD τ sig) → Buf (Elt Ideal) ℓ) (c : Dev nD)

theorem hz2 : (![0, 0] : Fin 2 → Nat) = fun _ => 0 := funext fun a => by fin_cases a <;> rfl
theorem hz1 : (![0] : Fin 1 → Nat) = fun _ => 0 := funext fun a => by fin_cases a <;> rfl

/-- The packed output as one function of the launched arrays: row P, column q. -/
def Gout (a0 : S524288x128.Idx → EReal) (a1 : S128x128.Idx → EReal) (a2 : S128.Idx → EReal) (a3 : S128x128.Idx → EReal)
    (a4 : S128.Idx → EReal) (a5 : S128x8.Idx → EReal) (a6 : S8.Idx → EReal) : S524288x12.Idx → EReal :=
  fun i => kout (fun K => a0 (ix2 (i 0) K)) a1 a2 a3 a4 a5 a6 (i 1)

/-- The printed index maps, decided over the grid: the input and output blocks move together along the rows, every
    other block index is 0. -/
theorem idx_facts : ∀ t : Fin cfg0.N, win0_0.index t (0 : Fin 2) = win0_7.index t (0 : Fin 2)
    ∧ win0_0.index t (1 : Fin 2) = 0 ∧ win0_7.index t (1 : Fin 2) = 0 ∧ win0_7.index t (0 : Fin 2) = t.val ∧ t.val ≤ 63
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- Every row block is some point's. -/
theorem idx_onto : ∀ q0 : Fin 64, ∃ t : Fin cfg0.N, win0_7.index t = ![q0.val, 0] :=
  (by decide +kernel : ∀ q0 : Fin 64, ∃ t : Fin grid0.N, win0_7.index t = ![q0.val, 0])

/-! ## The staged blocks, read off the launched arrays -/

theorem blk0_read (t : Fin cfg0.N) (p : Fin 8192) (q : Fin 12) (K : Fin 128) :
    iblk m c 0 t (ix2 p K) = V m c main_v0 (ix2 ((((cfg0.win 7).blk t).view.emb (ix2 p q)) 0) K) := by
  show V m c main_v0 (((cfg0.win 0).blk t).view.emb (ix2 p K)) = _
  obtain ⟨e0, e1, e2, e3, e4, -⟩ := idx_facts t
  refine congrArg (V m c main_v0) (funext fun a => Fin.ext ?_)
  match a with
  | ⟨0, _⟩ =>
    show win0_0.index t (0 : Fin 2) * 8192 + 1 * p.val = win0_7.index t (0 : Fin 2) * 8192 + 1 * p.val
    omega
  | ⟨1, _⟩ =>
    show win0_0.index t (1 : Fin 2) * 128 + 1 * K.val = K.val
    omega

theorem blk1_read (t : Fin cfg0.N) : (iblk m c 1 t : S128x128.Idx → EReal) = V m c main_v8 := by
  funext y
  show V m c main_v8 (((cfg0.win 1).blk t).view.emb y) = V m c main_v8 y
  obtain ⟨-, -, -, -, -, e5, e6, -⟩ := idx_facts t
  refine congrArg (V m c main_v8) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem blk2_read (t : Fin cfg0.N) : (iblk m c 2 t : S128.Idx → EReal) = V m c main_v19 := by
  funext y
  show V m c main_v19 (((cfg0.win 2).blk t).view.emb y) = V m c main_v19 y
  obtain ⟨-, -, -, -, -, -, -, e7, -⟩ := idx_facts t
  refine congrArg (V m c main_v19) (funext fun a => Fin.ext ?_)
  match a with
  | ⟨0, _⟩ => show win0_2.index t (0 : Fin 1) * 128 + 1 * (y 0).val = (y 0).val; omega

theorem blk3_read (t : Fin cfg0.N) : (iblk m c 3 t : S128x128.Idx → EReal) = V m c main_v16 := by
  funext y
  show V m c main_v16 (((cfg0.win 3).blk t).view.emb y) = V m c main_v16 y
  obtain ⟨-, -, -, -, -, -, -, -, e8, e9, -⟩ := idx_facts t
  refine congrArg (V m c main_v16) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4_read (t : Fin cfg0.N) : (iblk m c 4 t : S128.Idx → EReal) = V m c main_v22 := by
  funext y
  show V m c main_v22 (((cfg0.win 4).blk t).view.emb y) = V m c main_v22 y
  obtain ⟨-, -, -, -, -, -, -, -, -, -, e10, -⟩ := idx_facts t
  refine congrArg (V m c main_v22) (funext fun a => Fin.ext ?_)
  match a with
  | ⟨0, _⟩ => show win0_4.index t (0 : Fin 1) * 128 + 1 * (y 0).val = (y 0).val; omega

theorem blk5_read (t : Fin cfg0.N) : (iblk m c 5 t : S128x8.Idx → EReal) = V m c main_v34 := by
  funext y
  show V m c main_v34 (((cfg0.win 5).blk t).view.emb y) = V m c main_v34 y
  obtain ⟨-, -, -, -, -, -, -, -, -, -, -, e11, e12, -⟩ := idx_facts t
  refine congrArg (V m c main_v34) (funext fun a => Fin.ext ?_)
  match a with
  | ⟨0, _⟩ => show win0_5.index t (0 : Fin 2) * 128 + 1 * (y 0).val = (y 0).val; omega
  | ⟨1, _⟩ => show win0_5.index t (1 : Fin 2) * 8 + 1 * (y 1).val = (y 1).val; omega

theorem blk6_read (t : Fin cfg0.N) : (iblk m c 6 t : S8.Idx → EReal) = V m c main_v41 := by
  funext y
  show V m c main_v41 (((cfg0.win 6).blk t).view.emb y) = V m c main_v41 y
  obtain ⟨-, -, -, -, -, -, -, -, -, -, -, -, -, e13⟩ := idx_facts t
  refine congrArg (V m c main_v41) (funext fun a => Fin.ext ?_)
  match a with
  | ⟨0, _⟩ => show win0_6.index t (0 : Fin 1) * 8 + 1 * (y 0).val = (y 0).val; omega

/-! ## What a point writes back, the cover, the array -/

/-- WHAT POINT t WRITES BACK is block t of the one function of the launched arrays. -/
theorem flushed_eq (t : Fin cfg0.N) :
    (dats m 0 c).flushed 7 t = ((cfg0.win 7).blk t).view.read (Elt Ideal)
      (Gout (V m c main_v0) (V m c main_v8) (V m c main_v19) (V m c main_v16) (V m c main_v22) (V m c main_v34) (V m c main_v41)) := by
  show (cfg0.win 7).cut (grid0.coords t) ((dats m 0 c).after 7 t) = _
  rw [after0_7]
  unfold out0_7
  rw [View.canon_unit_zero hz2]
  simp only [View.ld_unit_zero (S := S8192x128) hz2, View.ld_unit_zero (S := S128x128) hz2, View.ld_unit_zero (S := S128) hz1,
    View.ld_unit_zero (S := S128x8) hz2, View.ld_unit_zero (S := S8) hz1]
  funext j
  obtain ⟨p, q, rfl⟩ : ∃ (p : Fin 8192) (q : Fin 12), j = ix2 p q := ⟨j 0, j 1, eq_ix2 j⟩
  refine (body_apply (iblk m c 0 t) (iblk m c 1 t) (iblk m c 2 t) (iblk m c 3 t) (iblk m c 4 t) (iblk m c 5 t) (iblk m c 6 t) p q).trans ?_
  rw [blk1_read, blk2_read, blk3_read, blk4_read, blk5_read, blk6_read]
  show _ = kout (fun K => V m c main_v0 (ix2 ((((cfg0.win 7).blk t).view.emb (ix2 p q)) 0) K)) (V m c main_v8) (V m c main_v19)
    (V m c main_v16) (V m c main_v22) (V m c main_v34) (V m c main_v41) ((((cfg0.win 7).blk t).view.emb (ix2 p q)) 1)
  obtain ⟨-, -, e2, -⟩ := idx_facts t
  have hq : (((cfg0.win 7).blk t).view.emb (ix2 p q)) 1 = q := Fin.ext (by
    show win0_7.index t (1 : Fin 2) * 12 + 1 * q.val = q.val
    omega)
  rw [hq]
  refine congrArg (fun row => kout row (V m c main_v8) (V m c main_v19) (V m c main_v16) (V m c main_v22) (V m c main_v34) (V m c main_v41) q)
    (funext fun K => ?_)
  exact blk0_read m c t p q K

/-- An index of the output array is in point t's block iff each coordinate is in the block's range on its axis. -/
theorem mem_blk (t : Fin cfg0.N) (i : S524288x12.Idx) :
    i ∈ ((cfg0.win 7).blk t).view.set ↔ ∀ a : Fin 2, win0_7.index t a * S8192x12.size a ≤ (i a).val ∧ (i a).val < win0_7.index t a * S8192x12.size a + S8192x12.size a := by
  show i ∈ ((View.whole main_v42).slice (win0_7.rect t)).set ↔ _
  rw [View.set_slice_whole, Rect.mem_set_unit]
  exact Iff.rfl

/-- Every index of the output array is in the block of the point that stages its row: the 64 blocks tile the rows. -/
theorem cover (i : S524288x12.Idx) :
    ∃ t : Fin cfg0.N, (cfg0.win 7).flush t = true ∧ i ∈ ((cfg0.win 7).blk t).view.set := by
  have hi0 : (i 0).val < 524288 := (i 0).isLt
  have hi1 : (i 1).val < 12 := (i 1).isLt
  obtain ⟨t, ht⟩ := idx_onto (⟨(i 0).val / 8192, by omega⟩ : Fin 64)
  have q0 : win0_7.index t (0 : Fin 2) = (i 0).val / 8192 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 8192 ≤ (i 0).val ∧ (i 0).val < win0_7.index t (0 : Fin 2) * 8192 + 8192
    omega
  | ⟨1, _⟩ =>
    show win0_7.index t (1 : Fin 2) * 12 ≤ (i 1).val ∧ (i 1).val < win0_7.index t (1 : Fin 2) * 12 + 12
    omega

/-- THE OUTPUT ARRAY after the region: the one function of the launched arrays. -/
theorem final : (dats m 0 c).arrAt 7 cfg0.N
    = Gout (V m c main_v0) (V m c main_v8) (V m c main_v19) (V m c main_v16) (V m c main_v22) (V m c main_v34) (V m c main_v41) :=
  (dats m 0 c).arrAt_eq_of_cover 7 _ (fun t _ => flushed_eq m c t) (fun i => cover i)

end Cert.KernelIdeal.KBlocks

end
-- ==== Proof.KHost.lean ====
/-
  The arrays the kernel's region is launched on, as functions of the seven arguments.

  Before the region the host program packs four consecutive rows of x into one 128-lane row (a reshape), lays each
  32 x 32 weight matrix, transposed, four times along the diagonal of a 128 x 128 matrix (a Kronecker product with
  the 4 x 4 identity), tiles each 32-vector four times, and builds the 128 x 8 output matrix from the two rows of
  the output weights (columns 0..3: row 0 in block g, columns 4..7: row 1) and the 8-vector from the two output biases.
  Read at an index, with K = 32 a + k and J = 32 b + j:
    packed x (P, K) = x (4 P + a, k);   block matrix (K, J) = [a = b] * W (j, k);   tiled vector (J) = B (j);
    output matrix (K, e) = [a = e mod 4] * Wo (e / 4, k);   output vector (e) = Bo (e / 4).
-/
import proofs.«104846_j19911468384433_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal

noncomputable section

namespace Cert.KernelIdeal.KHost

open Idealize.ShloMosaic Idealize.ShloMosaic.TcCoe Idealize.SL.Sem Idealize.ShloMosaic.ValueIdx
open Cert.KernelIdeal Cert.KernelIdeal.Gen

/-! ## The terms -/

/-- The 4 x 4 identity matrix as the host program builds it: row number equals column number, as a float. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- The Kronecker product of the identity with a 32 x 32 matrix, as a 128 x 128 matrix. -/
def kron32 (T : FVec Ideal S32x32 .f32) : FVec Ideal S128x128 .f32 :=
  shapeCast S128x128
    (mulf (broadcastInDim S4x32x4x32 ![0, 1, 2, 3] bcast_S4x1x4x1_S4x32x4x32_0_1_2_3 (broadcastInDim S4x1x4x1 ![0, 2] bcast_S4x4_S4x1x4x1_0_2 eye))
      (broadcastInDim S4x32x4x32 ![0, 1, 2, 3] bcast_S1x32x1x32_S4x32x4x32_0_1_2_3 (broadcastInDim S1x32x1x32 ![1, 3] bcast_S32x32_S1x32x1x32_1_3 T)))
    shapeCasts_S4x32x4x32_S128x128

/-- The Kronecker product of the identity with a 32 x 1 column, as a 128 x 4 matrix. -/
def kron1 (T : FVec Ideal S32x1 .f32) : FVec Ideal S128x4 .f32 :=
  shapeCast S128x4
    (mulf (broadcastInDim S4x32x4x1 ![0, 1, 2, 3] bcast_S4x1x4x1_S4x32x4x1_0_1_2_3 (broadcastInDim S4x1x4x1 ![0, 2] bcast_S4x4_S4x1x4x1_0_2 eye))
      (broadcastInDim S4x32x4x1 ![0, 1, 2, 3] bcast_S1x32x1x1_S4x32x4x1_0_1_2_3 (broadcastInDim S1x32x1x1 ![1, 3] bcast_S32x1_S1x32x1x1_1_3 T)))
    shapeCasts_S4x32x4x1_S128x4

/-- A 32-vector tiled four times. -/
def tile4 (B : FVec Ideal S32 .f32) : FVec Ideal S128 .f32 :=
  shapeCast S128 (broadcastInDim S4x32 ![0, 1] bcast_S1x32_S4x32_0_1 (shapeCast S1x32 B shapeCasts_S32_S1x32)) shapeCasts_S4x32_S128

/-- The 128 x 8 output matrix. -/
def woutBd (Wo : FVec Ideal S2x32 .f32) : FVec Ideal S128x8 .f32 :=
  concatenate S128x8 1
    [⟨S128x4, kron1 (extractStridedSlice S32x1 ![0, 0] (transpose S32x2 [1, 0] Wo transposes_S2x32_S32x2_1_0) slices_S32x2_S32x1_0_0)⟩,
     ⟨S128x4, kron1 (extractStridedSlice S32x1 ![0, 1] (transpose S32x2 [1, 0] Wo transposes_S2x32_S32x2_1_0) slices_S32x2_S32x1_0_1)⟩]
    concatenates_S128x4_S128x4_S128x8_d1

/-- The 8-vector of output biases. -/
def boutT (Bo : FVec Ideal S2 .f32) : FVec Ideal S8 .f32 :=
  concatenate S8 0
    [⟨S4, broadcastInDim S4 ![] bcast_S_S4 (shapeCast S_ (extractStridedSlice S1 ![0] Bo slices_S2_S1_0) shapeCasts_S1_S_)⟩,
     ⟨S4, broadcastInDim S4 ![] bcast_S_S4 (shapeCast S_ (extractStridedSlice S1 ![1] Bo slices_S2_S1_1) shapeCasts_S1_S_)⟩]
    concatenates_S4_S4_S8_d0

/-! ## The region's arrays are those terms of the arguments -/

variable (m : (ℓ : Loc nD τ sig) → Buf (Elt Ideal) ℓ) (c : Dev nD)

-- The equalities below are by computation of the host operations' fold; the layout functions' own bodies (searches
-- over index spaces) play no part in it and are kept closed meanwhile.
attribute [local irreducible] shapeCast broadcastInDim transpose extractStridedSlice concatenate mulf uitofp cmpi addi iotaInDim constantI

local macro "open_prologue" : tactic => `(tactic| (
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl))

theorem v0_eq : (V m c main_v0 : S524288x128.Idx → EReal)
    = shapeCast S524288x128 (m ((c : Thread nD τ).loc main_arg0)) shapeCasts_S2097152x32_S524288x128 := by open_prologue

set_option maxHeartbeats 1000000 in
theorem v8_eq : (V m c main_v8 : S128x128.Idx → EReal)
    = kron32 (transpose S32x32 [1, 0] (m ((c : Thread nD τ).loc main_arg1)) transposes_S32x32_S32x32_1_0) := by open_prologue

set_option maxHeartbeats 1000000 in
theorem v16_eq : (V m c main_v16 : S128x128.Idx → EReal)
    = kron32 (transpose S32x32 [1, 0] (m ((c : Thread nD τ).loc main_arg3)) transposes_S32x32_S32x32_1_0) := by open_prologue

theorem v19_eq : (V m c main_v19 : S128.Idx → EReal) = tile4 (m ((c : Thread nD τ).loc main_arg2)) := by open_prologue

theorem v22_eq : (V m c main_v22 : S128.Idx → EReal) = tile4 (m ((c : Thread nD τ).loc main_arg4)) := by open_prologue

set_option maxHeartbeats 1000000 in
theorem v41_eq : (V m c main_v41 : S8.Idx → EReal) = boutT (m ((c : Thread nD τ).loc main_arg6)) := by open_prologue

end Cert.KernelIdeal.KHost

end
-- ==== Proof.KHostIdx.lean ====
/-
  The launched arrays read at an index (see the host-prologue module for what each array is).
-/
import proofs.«104846_j19911468384433_2_alg».proof.Proof.KHost
import proofs.«104846_j19911468384433_2_alg».proof.Proof.KSpec

noncomputable section

namespace Cert.KernelIdeal.KHost

open Idealize.ShloMosaic Idealize.ShloMosaic.ValueIdx
open Cert.KernelIdeal Cert.KernelIdeal.Gen Cert.KSpec

/-- The identity matrix's entries. -/
theorem eye_apply (a b : Fin 4) : eye (ix2 a b) = if a = b then (1 : EReal) else 0 := by
  have h : eye (ix2 a b)
      = (((IntOp.cmpi .eq (IntOp.addi (BitVec.ofNat 32 a.val) 0#32) (BitVec.ofNat 32 b.val)).toNat : ℝ) : EReal) := rfl
  rw [h]
  fin_cases a <;> fin_cases b <;> simp [IntOp.cmpi, IntOp.addi]

-- From here on the identity matrix is used through 'eye_apply' only.
attribute [local irreducible] eye

/-- Four rows packed into one: lane K of packed row P is entry K mod 32 of row 4 P + K / 32. -/
theorem pack_apply (X : FVec Ideal S2097152x32 .f32) (P : Fin 524288) (K : Fin 128) :
    shapeCast S524288x128 X shapeCasts_S2097152x32_S524288x128 (ix2 P K)
      = X (ix2 (⟨4 * P.val + K.val / 32, by have := P.isLt; have := K.isLt; omega⟩ : Fin 2097152) (lane K)) :=
  shapeCast_apply X _ _ _ (by
    rw [Shape.rowMajor_val_two, Shape.rowMajor_val_two]
    show (4 * P.val + K.val / 32) * 32 + K.val % 32 = P.val * 128 + K.val
    omega)

/-! The layout operations of the two Kronecker products, each read at an index of any operand. -/

/-- A 4 x 4 matrix laid on axes 0 and 2 of a 4 x 1 x 4 x 1 array. -/
theorem bc_4x4_apply (X : FVec Ideal S4x4 .f32) (a : Fin 4) (u : Fin 1) (b : Fin 4) (v : Fin 1) :
    broadcastInDim S4x1x4x1 ![0, 2] bcast_S4x4_S4x1x4x1_0_2 X (ix4 a u b v) = X (ix2 a b) :=
  broadcastInDim_apply ![0, 2] bcast_S4x4_S4x1x4x1_0_2 X _ (ix2 a b) (fun ax => by
    match ax with
    | ⟨0, _⟩ => rfl
    | ⟨1, _⟩ => rfl)

/-- A 4 x 1 x 4 x 1 array repeated along its two unit axes to 4 x 32 x 4 x 32. -/
theorem bc_4141_32_apply (X : FVec Ideal S4x1x4x1 .f32) (a : Fin 4) (k : Fin 32) (b : Fin 4) (j : Fin 32) :
    broadcastInDim S4x32x4x32 ![0, 1, 2, 3] bcast_S4x1x4x1_S4x32x4x32_0_1_2_3 X (ix4 a k b j)
      = X (ix4 a (0 : Fin 1) b (0 : Fin 1)) :=
  broadcastInDim_apply ![0, 1, 2, 3] bcast_S4x1x4x1_S4x32x4x32_0_1_2_3 X _ (ix4 a (0 : Fin 1) b (0 : Fin 1)) (fun ax => by
    match ax with
    | ⟨0, _⟩ => rfl
    | ⟨1, _⟩ => rfl
    | ⟨2, _⟩ => rfl
    | ⟨3, _⟩ => rfl)

/-- A 32 x 32 matrix laid on axes 1 and 3 of a 1 x 32 x 1 x 32 array. -/
theorem bc_32x32_apply (T : FVec Ideal S32x32 .f32) (u : Fin 1) (k : Fin 32) (v : Fin 1) (j : Fin 32) :
    broadcastInDim S1x32x1x32 ![1, 3] bcast_S32x32_S1x32x1x32_1_3 T (ix4 u k v j) = T (ix2 k j) :=
  broadcastInDim_apply ![1, 3] bcast_S32x32_S1x32x1x32_1_3 T _ (ix2 k j) (fun ax => by
    match ax with
    | ⟨0, _⟩ => rfl
    | ⟨1, _⟩ => rfl)

/-- A 1 x 32 x 1 x 32 array repeated along its two unit axes to 4 x 32 x 4 x 32. -/
theorem bc_1x32x1x32_apply (X : FVec Ideal S1x32x1x32 .f32) (a : Fin 4) (k : Fin 32) (b : Fin 4) (j : Fin 32) :
    broadcastInDim S4x32x4x32 ![0, 1, 2, 3] bcast_S1x32x1x32_S4x32x4x32_0_1_2_3 X (ix4 a k b j)
      = X (ix4 (0 : Fin 1) k (0 : Fin 1) j) :=
  broadcastInDim_apply ![0, 1, 2, 3] bcast_S1x32x1x32_S4x32x4x32_0_1_2_3 X _ (ix4 (0 : Fin 1) k (0 : Fin 1) j) (fun ax => by
    match ax with
    | ⟨0, _⟩ => rfl
    | ⟨1, _⟩ => rfl
    | ⟨2, _⟩ => rfl
    | ⟨3, _⟩ => rfl)

/-- A 4 x 32 x 4 x 32 array read as 128 x 128: entry (K, J) is entry (K / 32, K mod 32, J / 32, J mod 32). -/
theorem cast_4x32x4x32_apply (X : FVec Ideal S4x32x4x32 .f32) (K J : Fin 128) :
    shapeCast S128x128 X shapeCasts_S4x32x4x32_S128x128 (ix2 K J) = X (ix4 (grp K) (lane K) (grp J) (lane J)) :=
  shapeCast_apply X shapeCasts_S4x32x4x32_S128x128 (ix2 K J) (ix4 (grp K) (lane K) (grp J) (lane J)) (by
    rw [Shape.rowMajor_val_four, Shape.rowMajor_val_two]
    show ((K.val / 32 * 32 + K.val % 32) * 4 + J.val / 32) * 32 + J.val % 32 = K.val * 128 + J.val
    have := K.isLt; have := J.isLt; omega)

/-- The block-diagonal matrix: entry (K, J) is the identity's (K / 32, J / 32) times T (K mod 32, J mod 32). -/
theorem kron32_apply (T : FVec Ideal S32x32 .f32) (K J : Fin 128) :
    kron32 T (ix2 K J) = eye (ix2 (grp K) (grp J)) * T (ix2 (lane K) (lane J)) := by
  unfold kron32
  rw [cast_4x32x4x32_apply, mulf_apply, bc_4141_32_apply, bc_4x4_apply, bc_1x32x1x32_apply, bc_32x32_apply]

/-- A 4 x 1 x 4 x 1 array repeated along its first unit axis to 4 x 32 x 4 x 1. -/
theorem bc_4141_1_apply (X : FVec Ideal S4x1x4x1 .f32) (a : Fin 4) (k : Fin 32) (b : Fin 4) (v : Fin 1) :
    broadcastInDim S4x32x4x1 ![0, 1, 2, 3] bcast_S4x1x4x1_S4x32x4x1_0_1_2_3 X (ix4 a k b v)
      = X (ix4 a (0 : Fin 1) b (0 : Fin 1)) :=
  broadcastInDim_apply ![0, 1, 2, 3] bcast_S4x1x4x1_S4x32x4x1_0_1_2_3 X _ (ix4 a (0 : Fin 1) b (0 : Fin 1)) (fun ax => by
    match ax with
    | ⟨0, _⟩ => rfl
    | ⟨1, _⟩ => rfl
    | ⟨2, _⟩ => rfl
    | ⟨3, _⟩ => rfl)

/-- A 32 x 1 column laid on axes 1 and 3 of a 1 x 32 x 1 x 1 array. -/
theorem bc_32x1_apply (T : FVec Ideal S32x1 .f32) (u : Fin 1) (k : Fin 32) (v w : Fin 1) :
    broadcastInDim S1x32x1x1 ![1, 3] bcast_S32x1_S1x32x1x1_1_3 T (ix4 u k v w) = T (ix2 k (0 : Fin 1)) :=
  broadcastInDim_apply ![1, 3] bcast_S32x1_S1x32x1x1_1_3 T _ (ix2 k (0 : Fin 1)) (fun ax => by
    match ax with
    | ⟨0, _⟩ => rfl
    | ⟨1, _⟩ => rfl)

/-- A 1 x 32 x 1 x 1 array repeated along its unit axes 0 and 2 to 4 x 32 x 4 x 1. -/
theorem bc_1x32x1x1_apply (X : FVec Ideal S1x32x1x1 .f32) (a : Fin 4) (k : Fin 32) (b : Fin 4) (v : Fin 1) :
    broadcastInDim S4x32x4x1 ![0, 1, 2, 3] bcast_S1x32x1x1_S4x32x4x1_0_1_2_3 X (ix4 a k b v)
      = X (ix4 (0 : Fin 1) k (0 : Fin 1) (0 : Fin 1)) :=
  broadcastInDim_apply ![0, 1, 2, 3] bcast_S1x32x1x1_S4x32x4x1_0_1_2_3 X _ (ix4 (0 : Fin 1) k (0 : Fin 1) (0 : Fin 1)) (fun ax => by
    match ax with
    | ⟨0, _⟩ => rfl
    | ⟨1, _⟩ => rfl
    | ⟨2, _⟩ => rfl
    | ⟨3, _⟩ => rfl)

/-- A 4 x 32 x 4 x 1 array read as 128 x 4: entry (K, e) is entry (K / 32, K mod 32, e, 0). -/
theorem cast_4x32x4x1_apply (X : FVec Ideal S4x32x4x1 .f32) (K : Fin 128) (e : Fin 4) :
    shapeCast S128x4 X shapeCasts_S4x32x4x1_S128x4 (ix2 K e) = X (ix4 (grp K) (lane K) e (0 : Fin 1)) :=
  shapeCast_apply X shapeCasts_S4x32x4x1_S128x4 (ix2 K e) (ix4 (grp K) (lane K) e (0 : Fin 1)) (by
    rw [Shape.rowMajor_val_four, Shape.rowMajor_val_two]
    show ((K.val / 32 * 32 + K.val % 32) * 4 + e.val) * 1 + 0 = K.val * 4 + e.val
    have := K.isLt; omega)

/-- The same for a column: entry (K, e) is the identity's (K / 32, e) times T (K mod 32). -/
theorem kron1_apply (T : FVec Ideal S32x1 .f32) (K : Fin 128) (e : Fin 4) :
    kron1 T (ix2 K e) = eye (ix2 (grp K) e) * T (ix2 (lane K) (0 : Fin 1)) := by
  unfold kron1
  rw [cast_4x32x4x1_apply, mulf_apply, bc_4141_1_apply, bc_4x4_apply, bc_1x32x1x1_apply, bc_32x1_apply]

/-- A 32-vector tiled four times reads, at lane J, its entry J mod 32. -/
theorem tile4_apply (B : FVec Ideal S32 .f32) (J : Fin 128) : tile4 B (ix1 J) = B (ix1 (lane J)) := by
  unfold tile4
  rw [shapeCast_apply _ shapeCasts_S4x32_S128 (ix1 J) (ix2 (grp J) (lane J)) (by
    rw [Shape.rowMajor_val_two, Shape.rowMajor_val_one]
    show J.val / 32 * 32 + J.val % 32 = J.val
    omega)]
  rw [broadcastInDim_apply ![0, 1] bcast_S1x32_S4x32_0_1 _ (ix2 (grp J) (lane J)) (ix2 (0 : Fin 1) (lane J)) (fun ax => by
    match ax with
    | ⟨0, _⟩ => rfl
    | ⟨1, _⟩ => rfl)]
  exact shapeCast_a_1a_apply B shapeCasts_S32_S1x32 (0 : Fin 1) (lane J)

/-- Column c (0 or 1) of the transposed output weights, as a 32 x 1 column, reads row c of the output weights. -/
theorem woCol_apply (Wo : FVec Ideal S2x32 .f32) (c : Fin 2) (h : S32x2.Slices ![0, c.val] S32x1) (k : Fin 32) :
    extractStridedSlice S32x1 ![0, c.val] (transpose S32x2 [1, 0] Wo transposes_S2x32_S32x2_1_0) h (ix2 k (0 : Fin 1)) = Wo (ix2 c k) := by
  rw [slice2_axis1_apply c.val _ h k (0 : Fin 1) c rfl]
  exact transpose_ix2_apply Wo transposes_S2x32_S32x2_1_0 k c

/-- The output matrix, columns 0..3: the identity's (K / 32, g) times row 0 of the output weights. -/
theorem woutBd_left (Wo : FVec Ideal S2x32 .f32) (K : Fin 128) (g : Fin 4) :
    woutBd Wo (ix2 K (⟨g.val, by have := g.isLt; omega⟩ : Fin 8)) = eye (ix2 (grp K) g) * Wo (ix2 (0 : Fin 2) (lane K)) := by
  unfold woutBd
  rw [concatenate_pair_apply_left (t := S128x8) (s₁ := S128x4) (s₂ := S128x4) (1 : Fin 2) _ _ concatenates_S128x4_S128x4_S128x8_d1
    (ix2 K (⟨g.val, by have := g.isLt; omega⟩ : Fin 8)) rfl (ix2 K g) (fun b => by
      match b with
      | ⟨0, _⟩ => rfl
      | ⟨1, _⟩ => rfl)]
  rw [kron1_apply]
  exact congrArg (eye (ix2 (grp K) g) * ·) (woCol_apply Wo (0 : Fin 2) slices_S32x2_S32x1_0_0 (lane K))

/-- Columns 4..7: the identity's (K / 32, g) times row 1 of the output weights. -/
theorem woutBd_right (Wo : FVec Ideal S2x32 .f32) (K : Fin 128) (g : Fin 4) :
    woutBd Wo (ix2 K (⟨4 + g.val, by have := g.isLt; omega⟩ : Fin 8)) = eye (ix2 (grp K) g) * Wo (ix2 (1 : Fin 2) (lane K)) := by
  unfold woutBd
  rw [concatenate_pair_apply_right (1 : Fin 2) _ _ concatenates_S128x4_S128x4_S128x8_d1 (ix2 K (⟨4 + g.val, by have := g.isLt; omega⟩ : Fin 8)) rfl rfl
    (ix2 K g) (fun b hb => by
      match b with
      | ⟨0, _⟩ => rfl
      | ⟨1, _⟩ => exact absurd rfl hb) (by show g.val + 4 = 4 + g.val; omega)]
  rw [kron1_apply]
  exact congrArg (eye (ix2 (grp K) g) * ·) (woCol_apply Wo (1 : Fin 2) slices_S32x2_S32x1_0_1 (lane K))

theorem woutBd_apply (Wo : FVec Ideal S2x32 .f32) (K : Fin 128) (e : Fin 8) :
    woutBd Wo (ix2 K e) = eye (ix2 (grp K) (grp8 e)) * Wo (ix2 (half8 e) (lane K)) := by
  by_cases he : e.val < 4
  · have h2 : grp8 e = (⟨e.val, he⟩ : Fin 4) := Fin.ext (by show e.val % 4 = e.val; omega)
    have h3 : half8 e = (0 : Fin 2) := Fin.ext (by show e.val / 4 = 0; omega)
    rw [h2, h3]
    exact woutBd_left Wo K (⟨e.val, he⟩ : Fin 4)
  · have hlt : e.val - 4 < 4 := by have := e.isLt; omega
    have h1 : e = (⟨4 + (⟨e.val - 4, hlt⟩ : Fin 4).val, by have := e.isLt; show 4 + (e.val - 4) < 8; omega⟩ : Fin 8) :=
      Fin.ext (by show e.val = 4 + (e.val - 4); omega)
    have h2 : grp8 e = (⟨e.val - 4, hlt⟩ : Fin 4) := Fin.ext (by show e.val % 4 = e.val - 4; have := e.isLt; omega)
    have h3 : half8 e = (1 : Fin 2) := Fin.ext (by show e.val / 4 = 1; have := e.isLt; omega)
    rw [h2, h3]
    have h := woutBd_right Wo K (⟨e.val - 4, hlt⟩ : Fin 4)
    rw [← h1] at h
    exact h

/-- One output bias broadcast to four entries reads that bias. -/
theorem boFour_apply (Bo : FVec Ideal S2 .f32) (c : Fin 2) (h : S2.Slices ![c.val] S1) (g : Fin 4) :
    broadcastInDim S4 ![] bcast_S_S4 (shapeCast S_ (extractStridedSlice S1 ![c.val] Bo h) shapeCasts_S1_S_) (ix1 g) = Bo (ix1 c) := by
  rw [broadcastInDim_scalar_apply, shapeCast_dropUnit_apply ![] _ shapeCasts_S1_S_ ix0]
  exact extractStridedSlice_apply _ Bo h _ (ix1 c) (fun a => by
    match a with
    | ⟨0, _⟩ => rfl)

theorem boutT_left (Bo : FVec Ideal S2 .f32) (g : Fin 4) :
    boutT Bo (ix1 (⟨g.val, by have := g.isLt; omega⟩ : Fin 8)) = Bo (ix1 (0 : Fin 2)) := by
  unfold boutT
  rw [concatenate_pair_apply_left (t := S8) (s₁ := S4) (s₂ := S4) (0 : Fin 1) _ _ concatenates_S4_S4_S8_d0
    (ix1 (⟨g.val, by have := g.isLt; omega⟩ : Fin 8)) rfl (ix1 g) (fun b => by
      match b with
      | ⟨0, _⟩ => rfl)]
  exact boFour_apply Bo (0 : Fin 2) slices_S2_S1_0 g

theorem boutT_right (Bo : FVec Ideal S2 .f32) (g : Fin 4) :
    boutT Bo (ix1 (⟨4 + g.val, by have := g.isLt; omega⟩ : Fin 8)) = Bo (ix1 (1 : Fin 2)) := by
  unfold boutT
  rw [concatenate_pair_apply_right (0 : Fin 1) _ _ concatenates_S4_S4_S8_d0 (ix1 (⟨4 + g.val, by have := g.isLt; omega⟩ : Fin 8)) rfl rfl
    (ix1 g) (fun b hb => by
      match b with
      | ⟨0, _⟩ => exact absurd rfl hb) (by show g.val + 4 = 4 + g.val; omega)]
  exact boFour_apply Bo (1 : Fin 2) slices_S2_S1_1 g

theorem boutT_apply (Bo : FVec Ideal S2 .f32) (e : Fin 8) : boutT Bo (ix1 e) = Bo (ix1 (half8 e)) := by
  by_cases he : e.val < 4
  · have h3 : half8 e = (0 : Fin 2) := Fin.ext (by show e.val / 4 = 0; omega)
    rw [h3]
    exact boutT_left Bo (⟨e.val, he⟩ : Fin 4)
  · have hlt : e.val - 4 < 4 := by have := e.isLt; omega
    have h1 : e = (⟨4 + (⟨e.val - 4, hlt⟩ : Fin 4).val, by have := e.isLt; show 4 + (e.val - 4) < 8; omega⟩ : Fin 8) :=
      Fin.ext (by show e.val = 4 + (e.val - 4); omega)
    have h3 : half8 e = (1 : Fin 2) := Fin.ext (by show e.val / 4 = 1; have := e.isLt; omega)
    rw [h3]
    have h := boutT_right Bo (⟨e.val - 4, hlt⟩ : Fin 4)
    rw [← h1] at h
    exact h

end Cert.KernelIdeal.KHost

end
-- ==== Proof.Law.lean ====
/-
  The laws of the extended reals that the comparison of the two programs rests on.

  The literals of both programs are read off as extended reals (256, 128, 0, 2^-8, 1/2, -1, 1).  Multiplying
  by 2^-8 is dividing by 256 on every extended real.  The two roundings of xx / 256 half away from zero,
  sign xx * floor (|xx| * 2^-8 + 1/2)  and  trunc ((xx + sign xx * 128) / 256),  agree on every extended
  real: at the two infinities both return the infinity itself, and at a real r the three cases r < 0,
  r = 0, 0 < r are checked by  -floor (-q) = ceil q.  Last, a 128-term sum against a block-diagonal matrix
  (four blocks of 32) collapses to the 32 terms of its own block, because 0 annihilates every extended real.
-/
import proofs.«104846_j19911468384433_2_alg».proof.Proof.Spec
import Idealize.ShloMosaic.PureOps.Ideal.Laws
import Mathlib.Algebra.BigOperators.Fin
import Mathlib.Data.Fintype.BigOperators
import Mathlib.Logic.Equiv.Fin.Basic
import Mathlib.Algebra.Order.Floor.Ring

noncomputable section

namespace Cert.Spec

open Idealize.ShloMosaic Idealize.ShloMosaic.ValueIdx

/-! ## The literals as extended reals -/

theorem c256_eq : c256 = ((256 : ℝ) : EReal) := by
  unfold c256
  simp [Ideal.ofBits, Ideal.ieee, -EReal.coe_mul]; norm_num

theorem c128_eq : c128 = ((128 : ℝ) : EReal) := by
  unfold c128
  simp [Ideal.ofBits, Ideal.ieee, -EReal.coe_mul]; norm_num

theorem c0_eq : c0 = 0 := by
  unfold c0
  simp [Ideal.ofBits, Ideal.ieee]

theorem c2m8_eq : c2m8 = (((1 : ℝ) / 256 : ℝ) : EReal) := by
  unfold c2m8
  simp [Ideal.ofBits, Ideal.ieee, -EReal.coe_mul]; norm_num

theorem cHalf_eq : cHalf = (((1 : ℝ) / 2 : ℝ) : EReal) := by
  unfold cHalf
  simp [Ideal.ofBits, Ideal.ieee, -EReal.coe_mul]; norm_num

theorem cM1_eq : cM1 = ((-(1 : ℝ) : ℝ) : EReal) := by
  unfold cM1
  simp [Ideal.ofBits, Ideal.ieee, -EReal.coe_mul, -EReal.coe_neg]; norm_num

theorem c1_eq : c1 = ((1 : ℝ) : EReal) := by
  unfold c1
  simp [Ideal.ofBits, Ideal.ieee, -EReal.coe_mul]; norm_num

/-! ## Multiplying by 2^-8 is dividing by 256 -/

theorem mul_c2m8 (x : EReal) : x * c2m8 = Ideal.div x c256 := by
  rw [c256_eq, c2m8_eq, Ideal.div_coe (by norm_num : (256 : ℝ) ≠ 0)]

/-! ## Comparisons on a decided order -/

theorem cmp_olt_of_lt {x y : EReal} (h : x < y) : Ideal.cmp .olt x y = 1#1 := by
  simp [Ideal.cmp, h]
theorem cmp_olt_of_not_lt {x y : EReal} (h : ¬ x < y) : Ideal.cmp .olt x y = 0#1 := by
  simp [Ideal.cmp, h]
theorem cmp_ogt_of_lt {x y : EReal} (h : y < x) : Ideal.cmp .ogt x y = 1#1 := by
  simp [Ideal.cmp, h]
theorem cmp_ogt_of_not_lt {x y : EReal} (h : ¬ y < x) : Ideal.cmp .ogt x y = 0#1 := by
  simp [Ideal.cmp, h]

/-! ## The two roundings at the infinities -/

theorem rnd_bot : rnd ⊥ = ⊥ := by
  have hq : Ideal.div ((⊥ : EReal) + Ideal.sign ⊥ * c128) c256 = ⊥ := by
    rw [EReal.bot_add, c256_eq, Ideal.div_coe (by norm_num : (256 : ℝ) ≠ 0),
      EReal.bot_mul_coe_of_pos (by norm_num)]
  unfold rnd
  rw [hq, c0_eq, cmp_olt_of_lt EReal.bot_lt_zero, select_one, Ideal.liftRound_bot]

theorem rnd_top : rnd ⊤ = ⊤ := by
  have hq : Ideal.div ((⊤ : EReal) + Ideal.sign ⊤ * c128) c256 = ⊤ := by
    rw [Ideal.sign_top, one_mul, c128_eq, EReal.top_add_coe, c256_eq,
      Ideal.div_coe (by norm_num : (256 : ℝ) ≠ 0), EReal.top_mul_coe_of_pos (by norm_num)]
  unfold rnd
  rw [hq, c0_eq, cmp_olt_of_not_lt (not_lt.mpr le_top), select_zero, Ideal.liftRound_top]

theorem krnd_bot : krnd ⊥ = ⊥ := by
  have habs : max (⊥ : EReal) (-⊥) = ⊤ := by rw [EReal.neg_bot]; exact max_eq_right bot_le
  unfold krnd ksgn
  rw [habs, c0_eq, cmp_ogt_of_lt EReal.zero_lt_top, select_one, cmp_olt_of_lt EReal.bot_lt_zero, select_one,
    c2m8_eq, EReal.top_mul_coe_of_pos (by norm_num), cHalf_eq, EReal.top_add_coe, Ideal.liftRound_top, cM1_eq,
    EReal.coe_mul_top_of_neg (by norm_num)]

theorem krnd_top : krnd ⊤ = ⊤ := by
  have habs : max (⊤ : EReal) (-⊤) = ⊤ := max_eq_left le_top
  unfold krnd ksgn
  rw [habs, c0_eq, cmp_ogt_of_lt EReal.zero_lt_top, select_one, cmp_olt_of_not_lt (not_lt.mpr le_top), select_zero,
    c2m8_eq, EReal.top_mul_coe_of_pos (by norm_num), cHalf_eq, EReal.top_add_coe, Ideal.liftRound_top, c1_eq,
    EReal.coe_mul_top_of_pos (by norm_num)]

/-! ## The two roundings at a real -/

/-- The reference's quotient at a real argument with a real sign. -/
theorem quot_coe (r s : ℝ) :
    Ideal.div ((r : EReal) + (s : EReal) * c128) c256 = (((r + s * 128) * (1 / 256) : ℝ) : EReal) := by
  rw [c128_eq, c256_eq, Ideal.div_coe (by norm_num : (256 : ℝ) ≠ 0), ← EReal.coe_mul, ← EReal.coe_add,
    ← EReal.coe_mul]

theorem rnd_coe (r : ℝ) :
    rnd (r : EReal) =
      if (r + (SignType.sign r : ℝ) * 128) * (1 / 256) < 0
      then ((⌈(r + (SignType.sign r : ℝ) * 128) * (1 / 256)⌉ : ℝ) : EReal)
      else ((⌊(r + (SignType.sign r : ℝ) * 128) * (1 / 256)⌋ : ℝ) : EReal) := by
  unfold rnd
  rw [Ideal.sign_coe, quot_coe, c0_eq, Ideal.liftRound_coe, Ideal.liftRound_coe]
  by_cases h : (r + (SignType.sign r : ℝ) * 128) * (1 / 256) < 0
  · rw [cmp_olt_of_lt (EReal.coe_neg'.mpr h), select_one, if_pos h]
  · rw [cmp_olt_of_not_lt (fun h' => h (EReal.coe_neg'.mp h')), select_zero, if_neg h]

theorem krnd_zero : krnd 0 = 0 := by
  unfold krnd ksgn
  rw [neg_zero, max_self, c0_eq, cmp_ogt_of_not_lt (lt_irrefl _), select_zero, zero_mul]

theorem krnd_neg (r : ℝ) (h : r < 0) :
    krnd (r : EReal) = ((-(1 : ℝ) * (⌊(-r) * (1 / 256) + 1 / 2⌋ : ℝ) : ℝ) : EReal) := by
  have hx : (r : EReal) < 0 := EReal.coe_neg'.mpr h
  have habs : max (r : EReal) (-(r : EReal)) = ((-r : ℝ) : EReal) := by
    rw [EReal.coe_neg]
    exact max_eq_right (by rw [← EReal.coe_neg]; exact_mod_cast (by linarith : r ≤ -r))
  have hpos : (0 : EReal) < ((-r : ℝ) : EReal) := EReal.coe_pos.mpr (by linarith)
  unfold krnd ksgn
  rw [habs, c0_eq, cmp_ogt_of_lt hpos, select_one, cmp_olt_of_lt hx, select_one, c2m8_eq, cHalf_eq, cM1_eq,
    ← EReal.coe_mul, ← EReal.coe_add, Ideal.liftRound_coe, ← EReal.coe_mul]

theorem krnd_pos (r : ℝ) (h : 0 < r) :
    krnd (r : EReal) = (((1 : ℝ) * (⌊r * (1 / 256) + 1 / 2⌋ : ℝ) : ℝ) : EReal) := by
  have hx : (0 : EReal) < (r : EReal) := EReal.coe_pos.mpr h
  have habs : max (r : EReal) (-(r : EReal)) = (r : EReal) :=
    max_eq_left (by rw [← EReal.coe_neg]; exact_mod_cast (by linarith : -r ≤ r))
  unfold krnd ksgn
  rw [habs, c0_eq, cmp_ogt_of_lt hx, select_one, cmp_olt_of_not_lt (not_lt.mpr hx.le), select_zero, c2m8_eq,
    cHalf_eq, c1_eq, ← EReal.coe_mul, ← EReal.coe_add, Ideal.liftRound_coe, ← EReal.coe_mul]

/-! ## The kernel's rounding is the reference's -/

theorem krnd_eq_rnd (x : EReal) : krnd x = rnd x := by
  induction x using EReal.rec with
  | bot => rw [krnd_bot, rnd_bot]
  | top => rw [krnd_top, rnd_top]
  | coe r =>
    rcases lt_trichotomy r 0 with h | h | h
    · -- below zero: the sign is -1, the quotient q = (r - 128) / 256 is negative, and -⌊-q⌋ = ⌈q⌉
      have hq : (r + ((-1 : SignType) : ℝ) * 128) * (1 / 256) < 0 := by
        rw [SignType.coe_neg_one]; linarith
      have hfl : (-r) * (1 / 256) + 1 / 2 = -((r + ((-1 : SignType) : ℝ) * 128) * (1 / 256)) := by
        rw [SignType.coe_neg_one]; ring
      rw [krnd_neg r h, rnd_coe, sign_neg h, if_pos hq, hfl, Int.floor_neg]
      congr 1
      push_cast
      ring
    · -- at zero both are zero
      subst h
      rw [EReal.coe_zero, krnd_zero, ← EReal.coe_zero, rnd_coe]
      simp
    · -- above zero: the sign is 1, the quotient (r + 128) / 256 is positive, and both take its floor
      have hq : ¬ (r + ((1 : SignType) : ℝ) * 128) * (1 / 256) < 0 := by
        rw [SignType.coe_one]; intro h'; linarith
      have hfl : r * (1 / 256) + 1 / 2 = (r + ((1 : SignType) : ℝ) * 128) * (1 / 256) := by
        rw [SignType.coe_one]; ring
      rw [krnd_pos r h, rnd_coe, sign_pos h, if_neg hq, hfl, one_mul]

/-! ## A sum against a block-diagonal matrix -/

theorem blockdiag_sum (f : Fin 128 → EReal) (w : Fin 32 → EReal) (g : Fin 4) (d : Fin 4 → Fin 4 → EReal)
    (hd1 : ∀ a, d a a = 1) (hd0 : ∀ a b, a ≠ b → d a b = 0) :
    (∑ k : Fin 128, f k * (d ⟨k.val / 32, by omega⟩ g * w ⟨k.val % 32, by omega⟩))
      = ∑ k : Fin 32, f ⟨32 * g.val + k.val, by omega⟩ * w k := by
  -- split the index k = 32 a + b into its block a and its place b within the block
  let e : Fin 4 × Fin 32 ≃ Fin 128 := finProdFinEquiv
  have he : ∀ a b, (e (a, b)).val = b.val + 32 * a.val := fun a b => rfl
  rw [← Fintype.sum_equiv e
      (fun p => f (e p) * (d ⟨(e p).val / 32, by omega⟩ g * w ⟨(e p).val % 32, by omega⟩)) _ (fun _ => rfl),
    Fintype.sum_prod_type, Fintype.sum_eq_single g]
  · -- the block g itself: the diagonal entry is 1
    refine Finset.sum_congr rfl (fun b _ => ?_)
    have h1 : (⟨(e (g, b)).val / 32, by omega⟩ : Fin 4) = g := Fin.ext (by simp only [he]; omega)
    have h2 : (⟨(e (g, b)).val % 32, by omega⟩ : Fin 32) = b := Fin.ext (by simp only [he]; omega)
    have h3 : e (g, b) = ⟨32 * g.val + b.val, by omega⟩ := Fin.ext (by simp only [he]; omega)
    rw [h1, h2, h3, hd1, one_mul]
  · -- every other block: the entry is 0, and 0 annihilates every extended real
    intro a ha
    refine Finset.sum_eq_zero (fun b _ => ?_)
    have h1 : (⟨(e (a, b)).val / 32, by omega⟩ : Fin 4) = a := Fin.ext (by simp only [he]; omega)
    rw [h1, hd0 a g ha, zero_mul, mul_zero]

end Cert.Spec

end
-- ==== Proof.KAlg.lean ====
/-
  Each packed layer is the specification's layer on each of the four rows it holds.

  A packed row holds four input rows side by side: lane 32 g + k is entry k of row g.  The packed weight
  matrices are block-diagonal: entry (K, J) is the 32 x 32 weight at (lane J, lane K) when K and J lie in the
  same block and 0 otherwise; the packed bias repeats the 32-vector in every block.  A 128-term sum against
  such a matrix collapses to the 32 terms of the block of the output lane, so the value a packed residual layer
  rounds at lane 32 g + j is the value the specification's layer rounds at entry j of row g; the kernel's
  rounding is the reference's, so the hidden layers agree as well.  The same collapse, once more, for the
  128 x 8 output matrix (entry e belongs to row e mod 4 and is output e / 4), together with "times 2^-8 is
  divided by 256", gives the eight packed outputs.
-/
import proofs.«104846_j19911468384433_2_alg».proof.Proof.KSpec
import proofs.«104846_j19911468384433_2_alg».proof.Proof.Law

noncomputable section

namespace Cert.KSpec

open Idealize.ShloMosaic Idealize.ShloMosaic.ValueIdx Cert.Spec

/-- The collapse of a sum against a block-diagonal matrix, with the lane coordinates by name. -/
theorem blockdiag_sum' (f : Fin 128 → EReal) (w : Fin 32 → EReal) (g : Fin 4) (d : Fin 4 → Fin 4 → EReal)
    (hd1 : ∀ a, d a a = 1) (hd0 : ∀ a b, a ≠ b → d a b = 0) :
    (∑ k : Fin 128, f k * (d (grp k) g * w (lane k))) = ∑ k : Fin 32, f (join g k) * w k :=
  blockdiag_sum f w g d hd1 hd0

/-- One packed residual layer, before rounding: at lane 32 g + j it is the specification's value at entry j
    of the row that block g holds. -/
theorem kpre_join (h : Fin 128 → EReal) (A : FVec Ideal SM .f32) (B : FVec Ideal SV .f32)
    (d : Fin 4 → Fin 4 → EReal) (hd1 : ∀ a, d a a = 1) (hd0 : ∀ a b, a ≠ b → d a b = 0)
    (w : Fin 32 → Fin 32 → EReal) (b : Fin 32 → EReal)
    (hA : ∀ K J : Fin 128, A (ix2 K J) = d (grp K) (grp J) * w (lane J) (lane K))
    (hB : ∀ J : Fin 128, B (ix1 J) = b (lane J)) (g : Fin 4) (j : Fin 32) :
    kpre h A B (join g j) = Cert.Spec.preRes (fun k => h (join g k)) w b j := by
  unfold kpre Cert.Spec.preRes
  simp only [hA, hB, grp_join, lane_join]
  rw [blockdiag_sum' h (w j) g d hd1 hd0]

/-- One packed hidden layer: the kernel's rounding is the reference's, and the clamp is the same. -/
theorem khidden_join (h : Fin 128 → EReal) (A : FVec Ideal SM .f32) (B : FVec Ideal SV .f32)
    (d : Fin 4 → Fin 4 → EReal) (hd1 : ∀ a, d a a = 1) (hd0 : ∀ a b, a ≠ b → d a b = 0)
    (w : Fin 32 → Fin 32 → EReal) (b : Fin 32 → EReal)
    (hA : ∀ K J : Fin 128, A (ix2 K J) = d (grp K) (grp J) * w (lane J) (lane K))
    (hB : ∀ J : Fin 128, B (ix1 J) = b (lane J)) (g : Fin 4) (j : Fin 32) :
    khidden h A B (join g j) = Cert.Spec.hidden (fun k => h (join g k)) w b j := by
  unfold khidden Cert.Spec.hidden
  rw [kpre_join h A B d hd1 hd0 w b hA hB g j, krnd_eq_rnd]

/-- The value the second packed hidden layer rounds at lane 32 g + j is the specification's, on row g. -/
theorem kpre2_join (row : Fin 128 → EReal) (A1 A3 : FVec Ideal SM .f32) (A2 A4 : FVec Ideal SV .f32)
    (d : Fin 4 → Fin 4 → EReal) (hd1 : ∀ a, d a a = 1) (hd0 : ∀ a b, a ≠ b → d a b = 0)
    (w0 w1 : Fin 32 → Fin 32 → EReal) (b0 b1 : Fin 32 → EReal)
    (hA1 : ∀ K J : Fin 128, A1 (ix2 K J) = d (grp K) (grp J) * w0 (lane J) (lane K))
    (hA2 : ∀ J : Fin 128, A2 (ix1 J) = b0 (lane J))
    (hA3 : ∀ K J : Fin 128, A3 (ix2 K J) = d (grp K) (grp J) * w1 (lane J) (lane K))
    (hA4 : ∀ J : Fin 128, A4 (ix1 J) = b1 (lane J)) (g : Fin 4) (j : Fin 32) :
    kpre2 row A1 A2 A3 A4 (join g j)
      = Cert.Spec.preRes (Cert.Spec.hidden (Cert.Spec.lift (fun k => row (join g k))) w0 b0) w1 b1 j := by
  -- the first hidden layer, block g, is the specification's first hidden row of row g
  have h1 : (fun k => khidden (klift row) A1 A2 (join g k))
      = Cert.Spec.hidden (Cert.Spec.lift (fun k => row (join g k))) w0 b0 := by
    funext k
    exact khidden_join (klift row) A1 A2 d hd1 hd0 w0 b0 hA1 hA2 g k
  unfold kpre2
  rw [kpre_join (khidden (klift row) A1 A2) A3 A4 d hd1 hd0 w1 b1 hA3 hA4 g j, h1]

/-- The eight packed outputs: entry e is the specification's output e / 4 of row e mod 4. -/
theorem kraw_eq (row : Fin 128 → EReal) (A1 A3 : FVec Ideal SM .f32) (A2 A4 : FVec Ideal SV .f32)
    (A5 : FVec Ideal SMo .f32) (A6 : FVec Ideal SVo .f32)
    (d : Fin 4 → Fin 4 → EReal) (hd1 : ∀ a, d a a = 1) (hd0 : ∀ a b, a ≠ b → d a b = 0)
    (w0 w1 : Fin 32 → Fin 32 → EReal) (b0 b1 : Fin 32 → EReal) (wo : Fin 2 → Fin 32 → EReal) (bo : Fin 2 → EReal)
    (hA1 : ∀ K J : Fin 128, A1 (ix2 K J) = d (grp K) (grp J) * w0 (lane J) (lane K))
    (hA2 : ∀ J : Fin 128, A2 (ix1 J) = b0 (lane J))
    (hA3 : ∀ K J : Fin 128, A3 (ix2 K J) = d (grp K) (grp J) * w1 (lane J) (lane K))
    (hA4 : ∀ J : Fin 128, A4 (ix1 J) = b1 (lane J))
    (hA5 : ∀ (K : Fin 128) (e : Fin 8), A5 (ix2 K e) = d (grp K) (grp8 e) * wo (half8 e) (lane K))
    (hA6 : ∀ e : Fin 8, A6 (ix1 e) = bo (half8 e)) (e : Fin 8) :
    kraw (kpre2 row A1 A2 A3 A4) A5 A6 e
      = Cert.Spec.raw (fun k => row (join (grp8 e) k)) w0 b0 w1 b1 wo bo (half8 e) := by
  -- the 128-term sum of the output layer collapses to the block of row e mod 4
  have hb := blockdiag_sum' (fun K => max (krnd (kpre2 row A1 A2 A3 A4 K)) c0) (wo (half8 e)) (grp8 e) d hd1 hd0
  beta_reduce at hb
  -- and there the clamped rounded second layer is the specification's second hidden row
  have hsum : (∑ k : Fin 32, max (krnd (kpre2 row A1 A2 A3 A4 (join (grp8 e) k))) c0 * wo (half8 e) k)
      = ∑ k : Fin 32, Cert.Spec.h2 (fun k => row (join (grp8 e) k)) w0 b0 w1 b1 k * wo (half8 e) k := by
    refine Finset.sum_congr rfl (fun k _ => ?_)
    rw [kpre2_join row A1 A3 A2 A4 d hd1 hd0 w0 w1 b0 b1 hA1 hA2 hA3 hA4 (grp8 e) k, krnd_eq_rnd]
    rfl
  unfold kraw Cert.Spec.raw Cert.Spec.preOut
  simp only [hA5, hA6]
  rw [hb, hsum, krnd_eq_rnd, mul_c2m8]

/-- The scale is written the same way on both sides. -/
theorem kscale_eq (x : EReal) : kscale x = Cert.Spec.scaleOf x := rfl

end Cert.KSpec

end
-- ==== Proof.KGlue.lean ====
/-
  The packed outputs on the launched arrays are the specification's values of the four rows in the packed row.

  The launched weight arrays are block-diagonal in the sense the algebra asks (identity entries times the weights,
  tiled biases), so group g of packed row P gets the specification's output layer of input row 4 P + g: entry g of
  the eight packed outputs is its mu, entry 4 + g its log-scale.
-/
import proofs.«104846_j19911468384433_2_alg».proof.Proof.KHostIdx
import proofs.«104846_j19911468384433_2_alg».proof.Proof.KBody
import proofs.«104846_j19911468384433_2_alg».proof.Proof.KAlg

noncomputable section

namespace Cert.KernelIdeal.KGlue

open Idealize.ShloMosaic Idealize.ShloMosaic.ValueIdx
open Cert.KernelIdeal Cert.KernelIdeal.Gen Cert.KernelIdeal.KHost Cert.KernelIdeal.KPay Cert.KSpec Cert.Spec

-- The identity matrix is read through its entries only.
attribute [local irreducible] eye

variable (X : FVec Ideal S2097152x32 .f32) (W0 : FVec Ideal S32x32 .f32) (B0 : FVec Ideal S32 .f32) (W1 : FVec Ideal S32x32 .f32)
  (B1 : FVec Ideal S32 .f32) (Wo : FVec Ideal S2x32 .f32) (Bo : FVec Ideal S2 .f32)

/-- The identity's diagonal and off-diagonal entries. -/
theorem eye_diag (a : Fin 4) : eye (ix2 a a) = 1 := by rw [eye_apply, if_pos rfl]
theorem eye_off (a b : Fin 4) (h : a ≠ b) : eye (ix2 a b) = 0 := by rw [eye_apply, if_neg h]

/-- The block-diagonal matrix of a transposed weight matrix, entry by entry. -/
theorem kronT_apply (W : FVec Ideal S32x32 .f32) (K J : Fin 128) :
    kron32 (transpose S32x32 [1, 0] W transposes_S32x32_S32x32_1_0) (ix2 K J)
      = eye (ix2 (grp K) (grp J)) * matOf W (lane J) (lane K) := by
  rw [kron32_apply]
  exact congrArg (eye (ix2 (grp K) (grp J)) * ·) (transpose_ix2_apply W transposes_S32x32_S32x32_1_0 (lane K) (lane J))

/-- Group g of the packed row P of x is row 4 P + g of x. -/
theorem packed_row (P : Fin 524288) (g : Fin 4) (k : Fin 32) :
    shapeCast S524288x128 X shapeCasts_S2097152x32_S524288x128 (ix2 P (join g k))
      = rowOf X (⟨4 * P.val + g.val, by have := P.isLt; have := g.isLt; omega⟩ : Fin 2097152) k := by
  rw [pack_apply, lane_join]
  exact congrArg (fun r => X (ix2 r k)) (Fin.ext (by
    show 4 * P.val + (32 * g.val + k.val) / 32 = 4 * P.val + g.val
    have := k.isLt; omega))

/-- Entry e of the eight packed outputs of packed row P: the specification's output e / 4 of row 4 P + e mod 4. -/
theorem kraw_launched (P : Fin 524288) (e : Fin 8) :
    kraw (kpre2 (fun K => shapeCast S524288x128 X shapeCasts_S2097152x32_S524288x128 (ix2 P K))
        (kron32 (transpose S32x32 [1, 0] W0 transposes_S32x32_S32x32_1_0)) (tile4 B0)
        (kron32 (transpose S32x32 [1, 0] W1 transposes_S32x32_S32x32_1_0)) (tile4 B1)) (woutBd Wo) (boutT Bo) e
      = rawAt X W0 B0 W1 B1 Wo Bo (⟨4 * P.val + (grp8 e).val, by have := P.isLt; have := (grp8 e).isLt; omega⟩ : Fin 2097152) (half8 e) := by
  rw [kraw_eq (fun K => shapeCast S524288x128 X shapeCasts_S2097152x32_S524288x128 (ix2 P K))
    (kron32 (transpose S32x32 [1, 0] W0 transposes_S32x32_S32x32_1_0)) (kron32 (transpose S32x32 [1, 0] W1 transposes_S32x32_S32x32_1_0))
    (tile4 B0) (tile4 B1) (woutBd Wo) (boutT Bo) (fun a b => eye (ix2 a b)) eye_diag eye_off
    (matOf W0) (matOf W1) (vecOf B0) (vecOf B1) (matOutOf Wo) (vecOutOf Bo)
    (kronT_apply W0) (tile4_apply B0) (kronT_apply W1) (tile4_apply B1) (woutBd_apply Wo) (boutT_apply Bo) e]
  unfold rawAt
  exact congrArg (fun row => raw row (matOf W0) (vecOf B0) (matOf W1) (vecOf B1) (matOutOf Wo) (vecOutOf Bo) (half8 e))
    (funext fun k => packed_row X P (grp8 e) k)

/-- Entry g (g < 4) of the packed outputs of packed row P is mu of row 4 P + g, -/
theorem kraw_mu (P : Fin 524288) (g : Fin 4) :
    kraw (kpre2 (fun K => shapeCast S524288x128 X shapeCasts_S2097152x32_S524288x128 (ix2 P K))
        (kron32 (transpose S32x32 [1, 0] W0 transposes_S32x32_S32x32_1_0)) (tile4 B0)
        (kron32 (transpose S32x32 [1, 0] W1 transposes_S32x32_S32x32_1_0)) (tile4 B1)) (woutBd Wo) (boutT Bo)
        (⟨g.val, by have := g.isLt; omega⟩ : Fin 8)
      = rawAt X W0 B0 W1 B1 Wo Bo (⟨4 * P.val + g.val, by have := P.isLt; have := g.isLt; omega⟩ : Fin 2097152) (0 : Fin 2) := by
  rw [kraw_launched]
  exact congrArg₂ (rawAt X W0 B0 W1 B1 Wo Bo)
    (Fin.ext (by show 4 * P.val + g.val % 4 = 4 * P.val + g.val; have := g.isLt; omega))
    (Fin.ext (by show g.val / 4 = 0; have := g.isLt; omega))

/-- and entry 4 + g its log-scale. -/
theorem kraw_ls (P : Fin 524288) (g : Fin 4) :
    kraw (kpre2 (fun K => shapeCast S524288x128 X shapeCasts_S2097152x32_S524288x128 (ix2 P K))
        (kron32 (transpose S32x32 [1, 0] W0 transposes_S32x32_S32x32_1_0)) (tile4 B0)
        (kron32 (transpose S32x32 [1, 0] W1 transposes_S32x32_S32x32_1_0)) (tile4 B1)) (woutBd Wo) (boutT Bo)
        (⟨4 + g.val, by have := g.isLt; omega⟩ : Fin 8)
      = rawAt X W0 B0 W1 B1 Wo Bo (⟨4 * P.val + g.val, by have := P.isLt; have := g.isLt; omega⟩ : Fin 2097152) (1 : Fin 2) := by
  rw [kraw_launched]
  exact congrArg₂ (rawAt X W0 B0 W1 B1 Wo Bo)
    (Fin.ext (by show 4 * P.val + (4 + g.val) % 4 = 4 * P.val + g.val; have := g.isLt; omega))
    (Fin.ext (by show (4 + g.val) / 4 = 1; have := g.isLt; omega))

end Cert.KernelIdeal.KGlue

end
-- ==== Proof.KHost34.lean ====
/-
  The 128 x 8 output matrix the kernel's region is launched on, as a function of the output weights: the two
  Kronecker products of the 4 x 4 identity with the two columns of the transposed weights, side by side.
  The fold of the sixty-five host operations before the region is read at that one buffer in a single pass, each
  intermediate array met once although the identity pattern feeds both products.
-/
import proofs.«104846_j19911468384433_2_alg».proof.Proof.KHost

noncomputable section

namespace Cert.KernelIdeal.KHost

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

-- The equality is by computation of the host operations' fold; the layout functions' own bodies (searches over
-- index spaces) play no part in it and are kept closed meanwhile.
attribute [local irreducible] shapeCast broadcastInDim transpose extractStridedSlice concatenate mulf uitofp cmpi addi iotaInDim constantI

set_option maxHeartbeats 4000000 in
theorem v34_eq : (V m c main_v34 : S128x8.Idx → EReal) = woutBd (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

end Cert.KernelIdeal.KHost

end
-- ==== Proof.KTail.lean ====
/-
  The three results, read off the run.

  After the region the host program views the packed output [524288, 12] as [2097152, 3] (packed row P, column
  3 g + e is row 4 P + g, column e), and returns its three columns.  So entry r of result e is the region's output
  at packed row r / 4, column 3 (r mod 4) + e, which is mu (e = 0), the scale (e = 1) or the log-scale (e = 2) of
  input row r as the specification defines them.
-/
import proofs.«104846_j19911468384433_2_alg».proof.Proof.Gen.KernelIdeal.Frame
import proofs.«104846_j19911468384433_2_alg».proof.Proof.KBlocks
import proofs.«104846_j19911468384433_2_alg».proof.Proof.KGlue
import proofs.«104846_j19911468384433_2_alg».proof.Proof.KHost34
import Idealize.ShloMosaic.Lib.StableHlo.Run
import Idealize.ShloMosaic.Lib.Pipeline.Value

noncomputable section

namespace Cert.KernelIdeal.KTail

open Idealize.ShloMosaic Idealize.ShloMosaic.TcCoe Idealize.SL.Sem Idealize.ShloMosaic.ValueIdx
open Cert.KernelIdeal Cert.KernelIdeal.Gen Cert.KernelIdeal.KPay Cert.KernelIdeal.KHost Cert.KernelIdeal.KBlocks Cert.KernelIdeal.KGlue
open Cert.KSpec Cert.Spec

variable (m : (ℓ : Loc nD τ sig) → Buf (Elt Ideal) ℓ) (c : Dev nD)

/-- The region's output array, as the host operations after the region find it. -/
theorem out_arr : Pipeline.withArrays (cfgs 0).spec c (V0 m c) (fun w => (dats m 0 c).arrAt w (cfgs 0).N) (Proc.devRef .tc main_v42)
    = Gout (V m c main_v0) (V m c main_v8) (V m c main_v19) (V m c main_v16) (V m c main_v22) (V m c main_v34) (V m c main_v41) :=
  (Pipeline.withArrays_arr spec0 launch0.win.arr_inj c _ _ 7).trans (final m c)

/-- Column e of the [2097152, 3] view of a [524288, 12] array, flattened, at r. -/
theorem tail_read (e : Fin 3) (hsl : S2097152x3.Slices ![0, e.val] S2097152x1) (A : S524288x12.Idx → EReal) (r : Fin 2097152) :
    shapeCast S2097152 (extractStridedSlice S2097152x1 ![0, e.val] (shapeCast S2097152x3 A shapeCasts_S524288x12_S2097152x3) hsl)
        shapeCasts_S2097152x1_S2097152 (ix1 r)
      = A (ix2 (⟨r.val / 4, by have := r.isLt; omega⟩ : Fin 524288) (⟨3 * (r.val % 4) + e.val, by have := e.isLt; omega⟩ : Fin 12)) := by
  rw [shapeCast_apply _ shapeCasts_S2097152x1_S2097152 (ix1 r) (ix2 r (0 : Fin 1)) (by
    rw [Shape.rowMajor_val_two, Shape.rowMajor_val_one]
    show r.val * 1 + 0 = r.val
    omega)]
  rw [slice2_axis1_apply e.val _ hsl r (0 : Fin 1) e rfl]
  exact shapeCast_apply A shapeCasts_S524288x12_S2097152x3 (ix2 r e)
    (ix2 (⟨r.val / 4, by have := r.isLt; omega⟩ : Fin 524288) (⟨3 * (r.val % 4) + e.val, by have := e.isLt; omega⟩ : Fin 12)) (by
    rw [Shape.rowMajor_val_two, Shape.rowMajor_val_two]
    show r.val / 4 * 12 + (3 * (r.val % 4) + e.val) = r.val * 3 + e.val
    omega)

/-- The launched arrays in the packed-row function, as terms of the arguments. -/
theorem gout_launched (P : Fin 524288) (q : Fin 12) :
    Gout (V m c main_v0) (V m c main_v8) (V m c main_v19) (V m c main_v16) (V m c main_v22) (V m c main_v34) (V m c main_v41) (ix2 P q)
      = kout (fun K => shapeCast S524288x128 (m ((c : Thread nD τ).loc main_arg0)) shapeCasts_S2097152x32_S524288x128 (ix2 P K))
          (kron32 (transpose S32x32 [1, 0] (m ((c : Thread nD τ).loc main_arg1)) transposes_S32x32_S32x32_1_0)) (tile4 (m ((c : Thread nD τ).loc main_arg2)))
          (kron32 (transpose S32x32 [1, 0] (m ((c : Thread nD τ).loc main_arg3)) transposes_S32x32_S32x32_1_0)) (tile4 (m ((c : Thread nD τ).loc main_arg4)))
          (woutBd (m ((c : Thread nD τ).loc main_arg5))) (boutT (m ((c : Thread nD τ).loc main_arg6))) q := by
  rw [v0_eq, v8_eq, v19_eq, v16_eq, v22_eq, v34_eq, v41_eq]
  rfl

/-- Row r is group r mod 4 of packed row r / 4. -/
theorem row_split (r : Fin 2097152) :
    (⟨4 * (r.val / 4) + r.val % 4, by have := r.isLt; omega⟩ : Fin 2097152) = r := Fin.ext (by show 4 * (r.val / 4) + r.val % 4 = r.val; omega)

theorem mu_at (r : Fin 2097152) :
    Gout (V m c main_v0) (V m c main_v8) (V m c main_v19) (V m c main_v16) (V m c main_v22) (V m c main_v34) (V m c main_v41)
        (ix2 (⟨r.val / 4, by have := r.isLt; omega⟩ : Fin 524288) (⟨3 * (r.val % 4) + (⟨0, by decide⟩ : Fin 3).val, by omega⟩ : Fin 12))
      = muArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix1 r) := by
  rw [gout_launched]
  refine (kout_mu _ _ _ _ _ _ _ (⟨r.val % 4, by omega⟩ : Fin 4)).trans ?_
  rw [kraw_mu]
  show rawAt _ _ _ _ _ _ _ _ _ = rawAt _ _ _ _ _ _ _ r 0
  rw [row_split]

theorem scale_at (r : Fin 2097152) :
    Gout (V m c main_v0) (V m c main_v8) (V m c main_v19) (V m c main_v16) (V m c main_v22) (V m c main_v34) (V m c main_v41)
        (ix2 (⟨r.val / 4, by have := r.isLt; omega⟩ : Fin 524288) (⟨3 * (r.val % 4) + (⟨1, by decide⟩ : Fin 3).val, by omega⟩ : Fin 12))
      = scaleArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix1 r) := by
  rw [gout_launched]
  refine (kout_scale _ _ _ _ _ _ _ (⟨r.val % 4, by omega⟩ : Fin 4)).trans ?_
  rw [kraw_ls, kscale_eq]
  show scaleOf (rawAt _ _ _ _ _ _ _ _ _) = scaleOf (rawAt _ _ _ _ _ _ _ r 1)
  rw [row_split]

theorem ls_at (r : Fin 2097152) :
    Gout (V m c main_v0) (V m c main_v8) (V m c main_v19) (V m c main_v16) (V m c main_v22) (V m c main_v34) (V m c main_v41)
        (ix2 (⟨r.val / 4, by have := r.isLt; omega⟩ : Fin 524288) (⟨3 * (r.val % 4) + (⟨2, by decide⟩ : Fin 3).val, by omega⟩ : Fin 12))
      = lsArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix1 r) := by
  rw [gout_launched]
  refine (kout_ls _ _ _ _ _ _ _ (⟨r.val % 4, by omega⟩ : Fin 4)).trans ?_
  rw [kraw_ls]
  show rawAt _ _ _ _ _ _ _ _ _ = rawAt _ _ _ _ _ _ _ r 1
  rw [row_split]

/-- Result mu: entry r is column 3 (r mod 4) + 0 of packed row r / 4 of the region's output. -/
theorem tail_mu : (Pipeline.afterTail₀ cfgs (dats m) 0 (V0 m) [hostOps1] c main_v45 : S2097152.Idx → EReal)
    = muArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  unfold Pipeline.afterTail₀
  show StableHlo.after hostOps1 _ (Proc.devRef .tc main_v45) = _
  after_results
  funext i
  obtain ⟨r, rfl⟩ : ∃ r : Fin 2097152, i = ix1 r := ⟨i 0, eq_ix1 i⟩
  show shapeCast S2097152 (extractStridedSlice S2097152x1 ![0, 0]
      (shapeCast S2097152x3 (Pipeline.withArrays (cfgs 0).spec c (V0 m c) (fun w => (dats m 0 c).arrAt w (cfgs 0).N) (Proc.devRef .tc main_v42))
        shapeCasts_S524288x12_S2097152x3) slices_S2097152x3_S2097152x1_0_0) shapeCasts_S2097152x1_S2097152 (ix1 r) = _
  rw [out_arr m c, tail_read (⟨0, by decide⟩ : Fin 3) slices_S2097152x3_S2097152x1_0_0 _ r]
  exact mu_at m c r

/-- Result scale: entry r is column 3 (r mod 4) + 1 of packed row r / 4 of the region's output. -/
theorem tail_scale : (Pipeline.afterTail₀ cfgs (dats m) 0 (V0 m) [hostOps1] c main_v47 : S2097152.Idx → EReal)
    = scaleArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  unfold Pipeline.afterTail₀
  show StableHlo.after hostOps1 _ (Proc.devRef .tc main_v47) = _
  after_results
  funext i
  obtain ⟨r, rfl⟩ : ∃ r : Fin 2097152, i = ix1 r := ⟨i 0, eq_ix1 i⟩
  show shapeCast S2097152 (extractStridedSlice S2097152x1 ![0, 1]
      (shapeCast S2097152x3 (Pipeline.withArrays (cfgs 0).spec c (V0 m c) (fun w => (dats m 0 c).arrAt w (cfgs 0).N) (Proc.devRef .tc main_v42))
        shapeCasts_S524288x12_S2097152x3) slices_S2097152x3_S2097152x1_0_1) shapeCasts_S2097152x1_S2097152 (ix1 r) = _
  rw [out_arr m c, tail_read (⟨1, by decide⟩ : Fin 3) slices_S2097152x3_S2097152x1_0_1 _ r]
  exact scale_at m c r

/-- Result ls: entry r is column 3 (r mod 4) + 2 of packed row r / 4 of the region's output. -/
theorem tail_ls : (Pipeline.afterTail₀ cfgs (dats m) 0 (V0 m) [hostOps1] c main_v49 : S2097152.Idx → EReal)
    = lsArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  unfold Pipeline.afterTail₀
  show StableHlo.after hostOps1 _ (Proc.devRef .tc main_v49) = _
  after_results
  funext i
  obtain ⟨r, rfl⟩ : ∃ r : Fin 2097152, i = ix1 r := ⟨i 0, eq_ix1 i⟩
  show shapeCast S2097152 (extractStridedSlice S2097152x1 ![0, 2]
      (shapeCast S2097152x3 (Pipeline.withArrays (cfgs 0).spec c (V0 m c) (fun w => (dats m 0 c).arrAt w (cfgs 0).N) (Proc.devRef .tc main_v42))
        shapeCasts_S524288x12_S2097152x3) slices_S2097152x3_S2097152x1_0_2) shapeCasts_S2097152x1_S2097152 (ix1 r) = _
  rw [out_arr m c, tail_read (⟨2, by decide⟩ : Fin 3) slices_S2097152x3_S2097152x1_0_2 _ r]
  exact ls_at m c r

/-- THE KERNEL'S RUN: it terminates without a fault, its three results are the specification's arrays of the
    arguments, and the arguments end unchanged. -/
theorem run (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v45) = muArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ∧ r.2.mem ((c.tc : Thread nD τ).loc main_v47) = scaleArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ∧ r.2.mem ((c.tc : Thread nD τ).loc main_v49) = lsArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨⟨((h c).2 main_v45 (Pipeline.mem_restRefs_of main_v45 (by decide) (by decide))).trans (tail_mu m c),
      ((h c).2 main_v47 (Pipeline.mem_restRefs_of main_v47 (by decide) (by decide))).trans (tail_scale m c),
      ((h c).2 main_v49 (Pipeline.mem_restRefs_of main_v49 (by decide) (by decide))).trans (tail_ls m c)⟩,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.KernelIdeal.KTail

end
-- ==== Proof.RefRun.lean ====
/-
  The reference program's run.  Its @main is a straight line of ninety-three host operations once the
  outlined functions (the truncation toward zero with its select, the clamp below at zero, the clip) are
  written out at their call sites over each call's own buffers.  From any memory with zero counters every
  weakly fair execution terminates, the seven arguments are unchanged, and the three results are the
  operations' composed whole-array terms of the arguments: three layers, each the affine image of the
  previous row (plus 256 times that row for the first two), 128 added with the sign, divided by 256,
  truncated toward zero (and clamped below at zero for the first two); the third layer's two columns
  divided by 256 are the first and third results, and the second result is the exponential of the third
  minus 4 clipped to [-4.6, 5].
-/
import proofs.«104846_j19911468384433_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's ninety-three operations in order, the calls written out: a truncation toward zero is six (the
    zero, its broadcast, the comparison with it, the ceiling, the floor, the select between them), a clamp
    below at zero three (the zero, its broadcast, the maximum), the clip six (each bound converted and
    broadcast, the maximum with the lower, the minimum with the upper). -/
abbrev ops : List (HloOp τ sig (Elt F)) :=
  [ nullary main_cst (constant S_ .f32 0x43800000#32),
    unary main_cst main_v0 (broadcastInDim S2097152x32 ![] bcast_S_S2097152x32 : (⟨S_, .f32⟩ : BufTy).Contents (Elt F) → (⟨S2097152x32, .f32⟩ : BufTy).Contents (Elt F)),
    binary main_arg0 main_v0 main_v1 (mulf : (⟨S2097152x32, .f32⟩ : BufTy).Contents (Elt F) → (⟨S2097152x32, .f32⟩ : BufTy).Contents (Elt F) → (⟨S2097152x32, .f32⟩ : BufTy).Contents (Elt F)),
    unary main_arg1 main_v2 ((transpose S32x32 [1, 0] · transposes_S32x32_S32x32_1_0) : (⟨S32x32, .f32⟩ : BufTy).Contents (Elt F) → (⟨S32x32, .f32⟩ : BufTy).Contents (Elt F)),
    binary main_v1 main_v2 main_v3 ((fun l r => Host.dotGeneral dot_S2097152x32_S32x32_S2097152x32_1_0_0_1_n_n none l r) : (⟨S2097152x32, .f32⟩ : BufTy).Contents (Elt F) → (⟨S32x32, .f32⟩ : BufTy).Contents (Elt F) → (⟨S2097152x32, .f32⟩ : BufTy).Contents (Elt F)),
    unary main_arg2 main_v4 (broadcastInDim S1x32 ![1] bcast_S32_S1x32_1 : (⟨S32, .f32⟩ : BufTy).Contents (Elt F) → (⟨S1x32, .f32⟩ : BufTy).Contents (Elt F)),
    unary main_v4 main_v5 (broadcastInDim S2097152x32 ![0, 1] bcast_S1x32_S2097152x32_0_1 : (⟨S1x32, .f32⟩ : BufTy).Contents (Elt F) → (⟨S2097152x32, .f32⟩ : BufTy).Contents (Elt F)),
    binary main_v3 main_v5 main_v6 (addf : (⟨S2097152x32, .f32⟩ : BufTy).Contents (Elt F) → (⟨S2097152x32, .f32⟩ : BufTy).Contents (Elt F) → (⟨S2097152x32, .f32⟩ : BufTy).Contents (Elt F)),
    nullary main_cst_0 (constant S_ .f32 0x43800000#32),
    unary main_cst_0 main_v7 (broadcastInDim S2097152x32 ![] bcast_S_S2097152x32 : (⟨S_, .f32⟩ : BufTy).Contents (Elt F) → (⟨S2097152x32, .f32⟩ : BufTy).Contents (Elt F)),
    binary main_v1 main_v7 main_v8 (mulf : (⟨S2097152x32, .f32⟩ : BufTy).Contents (Elt F) → (⟨S2097152x32, .f32⟩ : BufTy).Contents (Elt F) → (⟨S2097152x32, .f32⟩ : BufTy).Contents (Elt F)),
    binary main_v6 main_v8 main_v9 (addf : (⟨S2097152x32, .f32⟩ : BufTy).Contents (Elt F) → (⟨S2097152x32, .f32⟩ : BufTy).Contents (Elt F) → (⟨S2097152x32, .f32⟩ : BufTy).Contents (Elt F)),
    unary main_v9 main_v10 (Host.sign : (⟨S2097152x32, .f32⟩ : BufTy).Contents (Elt F) → (⟨S2097152x32, .f32⟩ : BufTy).Contents (Elt F)),
    nullary main_cst_1 (constant S_ .f32 0x43000000#32),
    unary main_cst_1 main_v11 (broadcastInDim S2097152x32 ![] bcast_S_S2097152x32 : (⟨S_, .f32⟩ : BufTy).Contents (Elt F) → (⟨S2097152x32, .f32⟩ : BufTy).Contents (Elt F)),
    binary main_v10 main_v11 main_v12 (mulf : (⟨S2097152x32, .f32⟩ : BufTy).Contents (Elt F) → (⟨S2097152x32, .f32⟩ : BufTy).Contents (Elt F) → (⟨S2097152x32, .f32⟩ : BufTy).Contents (Elt F)),
    binary main_v9 main_v12 main_v13 (addf : (⟨S2097152x32, .f32⟩ : BufTy).Contents (Elt F) → (⟨S2097152x32, .f32⟩ : BufTy).Contents (Elt F) → (⟨S2097152x32, .f32⟩ : BufTy).Contents (Elt F)),
    nullary main_cst_2 (constant S_ .f32 0x43800000#32),
    unary main_cst_2 main_v14 (broadcastInDim S2097152x32 ![] bcast_S_S2097152x32 : (⟨S_, .f32⟩ : BufTy).Contents (Elt F) → (⟨S2097152x32, .f32⟩ : BufTy).Contents (Elt F)),
    binary main_v13 main_v14 main_v15 (Host.divf : (⟨S2097152x32, .f32⟩ : BufTy).Contents (Elt F) → (⟨S2097152x32, .f32⟩ : BufTy).Contents (Elt F) → (⟨S2097152x32, .f32⟩ : BufTy).Contents (Elt F)),
    TRef.nullary main_call0.cst (constant S_ .f32 0x00000000#32),
    TRef.unary main_call0.cst main_call0.v0 (broadcastInDim S2097152x32 ![] bcast_S_S2097152x32),
    TRef.binary (.of main_v15 : TRef sig ⟨S2097152x32, .f32⟩) main_call0.v0 main_call0.v1 (cmpf .olt),
    TRef.unary (.of main_v15 : TRef sig ⟨S2097152x32, .f32⟩) main_call0.v2 Host.ceil,
    TRef.unary (.of main_v15 : TRef sig ⟨S2097152x32, .f32⟩) main_call0.v3 Host.floor,
    TRef.ternary main_call0.v1 main_call0.v2 main_call0.v3 main_call0.call0.v0 select,
    TRef.nullary main_call1.cst (constant S_ .f32 0x00000000#32),
    TRef.unary main_call1.cst main_call1.v0 (broadcastInDim S2097152x32 ![] bcast_S_S2097152x32),
    TRef.binary (.of main_v16 : TRef sig ⟨S2097152x32, .f32⟩) main_call1.v0 main_call1.v1 maximumf,
    unary main_arg3 main_v18 ((transpose S32x32 [1, 0] · transposes_S32x32_S32x32_1_0) : (⟨S32x32, .f32⟩ : BufTy).Contents (Elt F) → (⟨S32x32, .f32⟩ : BufTy).Contents (Elt F)),
    binary main_v17 main_v18 main_v19 ((fun l r => Host.dotGeneral dot_S2097152x32_S32x32_S2097152x32_1_0_0_1_n_n none l r) : (⟨S2097152x32, .f32⟩ : BufTy).Contents (Elt F) → (⟨S32x32, .f32⟩ : BufTy).Contents (Elt F) → (⟨S2097152x32, .f32⟩ : BufTy).Contents (Elt F)),
    unary main_arg4 main_v20 (broadcastInDim S1x32 ![1] bcast_S32_S1x32_1 : (⟨S32, .f32⟩ : BufTy).Contents (Elt F) → (⟨S1x32, .f32⟩ : BufTy).Contents (Elt F)),
    unary main_v20 main_v21 (broadcastInDim S2097152x32 ![0, 1] bcast_S1x32_S2097152x32_0_1 : (⟨S1x32, .f32⟩ : BufTy).Contents (Elt F) → (⟨S2097152x32, .f32⟩ : BufTy).Contents (Elt F)),
    binary main_v19 main_v21 main_v22 (addf : (⟨S2097152x32, .f32⟩ : BufTy).Contents (Elt F) → (⟨S2097152x32, .f32⟩ : BufTy).Contents (Elt F) → (⟨S2097152x32, .f32⟩ : BufTy).Contents (Elt F)),
    nullary main_cst_3 (constant S_ .f32 0x43800000#32),
    unary main_cst_3 main_v23 (broadcastInDim S2097152x32 ![] bcast_S_S2097152x32 : (⟨S_, .f32⟩ : BufTy).Contents (Elt F) → (⟨S2097152x32, .f32⟩ : BufTy).Contents (Elt F)),
    binary main_v17 main_v23 main_v24 (mulf : (⟨S2097152x32, .f32⟩ : BufTy).Contents (Elt F) → (⟨S2097152x32, .f32⟩ : BufTy).Contents (Elt F) → (⟨S2097152x32, .f32⟩ : BufTy).Contents (Elt F)),
    binary main_v22 main_v24 main_v25 (addf : (⟨S2097152x32, .f32⟩ : BufTy).Contents (Elt F) → (⟨S2097152x32, .f32⟩ : BufTy).Contents (Elt F) → (⟨S2097152x32, .f32⟩ : BufTy).Contents (Elt F)),
    unary main_v25 main_v26 (Host.sign : (⟨S2097152x32, .f32⟩ : BufTy).Contents (Elt F) → (⟨S2097152x32, .f32⟩ : BufTy).Contents (Elt F)),
    nullary main_cst_4 (constant S_ .f32 0x43000000#32),
    unary main_cst_4 main_v27 (broadcastInDim S2097152x32 ![] bcast_S_S2097152x32 : (⟨S_, .f32⟩ : BufTy).Contents (Elt F) → (⟨S2097152x32, .f32⟩ : BufTy).Contents (Elt F)),
    binary main_v26 main_v27 main_v28 (mulf : (⟨S2097152x32, .f32⟩ : BufTy).Contents (Elt F) → (⟨S2097152x32, .f32⟩ : BufTy).Contents (Elt F) → (⟨S2097152x32, .f32⟩ : BufTy).Contents (Elt F)),
    binary main_v25 main_v28 main_v29 (addf : (⟨S2097152x32, .f32⟩ : BufTy).Contents (Elt F) → (⟨S2097152x32, .f32⟩ : BufTy).Contents (Elt F) → (⟨S2097152x32, .f32⟩ : BufTy).Contents (Elt F)),
    nullary main_cst_5 (constant S_ .f32 0x43800000#32),
    unary main_cst_5 main_v30 (broadcastInDim S2097152x32 ![] bcast_S_S2097152x32 : (⟨S_, .f32⟩ : BufTy).Contents (Elt F) → (⟨S2097152x32, .f32⟩ : BufTy).Contents (Elt F)),
    binary main_v29 main_v30 main_v31 (Host.divf : (⟨S2097152x32, .f32⟩ : BufTy).Contents (Elt F) → (⟨S2097152x32, .f32⟩ : BufTy).Contents (Elt F) → (⟨S2097152x32, .f32⟩ : BufTy).Contents (Elt F)),
    TRef.nullary main_call2.cst (constant S_ .f32 0x00000000#32),
    TRef.unary main_call2.cst main_call2.v0 (broadcastInDim S2097152x32 ![] bcast_S_S2097152x32),
    TRef.binary (.of main_v31 : TRef sig ⟨S2097152x32, .f32⟩) main_call2.v0 main_call2.v1 (cmpf .olt),
    TRef.unary (.of main_v31 : TRef sig ⟨S2097152x32, .f32⟩) main_call2.v2 Host.ceil,
    TRef.unary (.of main_v31 : TRef sig ⟨S2097152x32, .f32⟩) main_call2.v3 Host.floor,
    TRef.ternary main_call2.v1 main_call2.v2 main_call2.v3 main_call2.call0.v0 select,
    TRef.nullary main_call3.cst (constant S_ .f32 0x00000000#32),
    TRef.unary main_call3.cst main_call3.v0 (broadcastInDim S2097152x32 ![] bcast_S_S2097152x32),
    TRef.binary (.of main_v32 : TRef sig ⟨S2097152x32, .f32⟩) main_call3.v0 main_call3.v1 maximumf,
    unary main_arg5 main_v34 ((transpose S32x2 [1, 0] · transposes_S2x32_S32x2_1_0) : (⟨S2x32, .f32⟩ : BufTy).Contents (Elt F) → (⟨S32x2, .f32⟩ : BufTy).Contents (Elt F)),
    binary main_v33 main_v34 main_v35 ((fun l r => Host.dotGeneral dot_S2097152x32_S32x2_S2097152x2_1_0_0_1_n_n none l r) : (⟨S2097152x32, .f32⟩ : BufTy).Contents (Elt F) → (⟨S32x2, .f32⟩ : BufTy).Contents (Elt F) → (⟨S2097152x2, .f32⟩ : BufTy).Contents (Elt F)),
    unary main_arg6 main_v36 (broadcastInDim S1x2 ![1] bcast_S2_S1x2_1 : (⟨S2, .f32⟩ : BufTy).Contents (Elt F) → (⟨S1x2, .f32⟩ : BufTy).Contents (Elt F)),
    unary main_v36 main_v37 (broadcastInDim S2097152x2 ![0, 1] bcast_S1x2_S2097152x2_0_1 : (⟨S1x2, .f32⟩ : BufTy).Contents (Elt F) → (⟨S2097152x2, .f32⟩ : BufTy).Contents (Elt F)),
    binary main_v35 main_v37 main_v38 (addf : (⟨S2097152x2, .f32⟩ : BufTy).Contents (Elt F) → (⟨S2097152x2, .f32⟩ : BufTy).Contents (Elt F) → (⟨S2097152x2, .f32⟩ : BufTy).Contents (Elt F)),
    unary main_v38 main_v39 (Host.sign : (⟨S2097152x2, .f32⟩ : BufTy).Contents (Elt F) → (⟨S2097152x2, .f32⟩ : BufTy).Contents (Elt F)),
    nullary main_cst_6 (constant S_ .f32 0x43000000#32),
    unary main_cst_6 main_v40 (broadcastInDim S2097152x2 ![] bcast_S_S2097152x2 : (⟨S_, .f32⟩ : BufTy).Contents (Elt F) → (⟨S2097152x2, .f32⟩ : BufTy).Contents (Elt F)),
    binary main_v39 main_v40 main_v41 (mulf : (⟨S2097152x2, .f32⟩ : BufTy).Contents (Elt F) → (⟨S2097152x2, .f32⟩ : BufTy).Contents (Elt F) → (⟨S2097152x2, .f32⟩ : BufTy).Contents (Elt F)),
    binary main_v38 main_v41 main_v42 (addf : (⟨S2097152x2, .f32⟩ : BufTy).Contents (Elt F) → (⟨S2097152x2, .f32⟩ : BufTy).Contents (Elt F) → (⟨S2097152x2, .f32⟩ : BufTy).Contents (Elt F)),
    nullary main_cst_7 (constant S_ .f32 0x43800000#32),
    unary main_cst_7 main_v43 (broadcastInDim S2097152x2 ![] bcast_S_S2097152x2 : (⟨S_, .f32⟩ : BufTy).Contents (Elt F) → (⟨S2097152x2, .f32⟩ : BufTy).Contents (Elt F)),
    binary main_v42 main_v43 main_v44 (Host.divf : (⟨S2097152x2, .f32⟩ : BufTy).Contents (Elt F) → (⟨S2097152x2, .f32⟩ : BufTy).Contents (Elt F) → (⟨S2097152x2, .f32⟩ : BufTy).Contents (Elt F)),
    TRef.nullary main_call4.cst (constant S_ .f32 0x00000000#32),
    TRef.unary main_call4.cst main_call4.v0 (broadcastInDim S2097152x2 ![] bcast_S_S2097152x2),
    TRef.binary (.of main_v44 : TRef sig ⟨S2097152x2, .f32⟩) main_call4.v0 main_call4.v1 (cmpf .olt),
    TRef.unary (.of main_v44 : TRef sig ⟨S2097152x2, .f32⟩) main_call4.v2 Host.ceil,
    TRef.unary (.of main_v44 : TRef sig ⟨S2097152x2, .f32⟩) main_call4.v3 Host.floor,
    TRef.ternary main_call4.v1 main_call4.v2 main_call4.v3 main_call4.call0.v0 select,
    nullary main_cst_8 (constant S_ .f32 0x43800000#32),
    unary main_cst_8 main_v46 (broadcastInDim S2097152x2 ![] bcast_S_S2097152x2 : (⟨S_, .f32⟩ : BufTy).Contents (Elt F) → (⟨S2097152x2, .f32⟩ : BufTy).Contents (Elt F)),
    binary main_v45 main_v46 main_v47 (Host.divf : (⟨S2097152x2, .f32⟩ : BufTy).Contents (Elt F) → (⟨S2097152x2, .f32⟩ : BufTy).Contents (Elt F) → (⟨S2097152x2, .f32⟩ : BufTy).Contents (Elt F)),
    unary main_v47 main_v48 ((extractStridedSlice S2097152x1 ![0, 0] · slices_S2097152x2_S2097152x1_0_0) : (⟨S2097152x2, .f32⟩ : BufTy).Contents (Elt F) → (⟨S2097152x1, .f32⟩ : BufTy).Contents (Elt F)),
    reshape main_v48 main_v49 rfl shapeCasts_S2097152x1_S2097152,
    unary main_v47 main_v50 ((extractStridedSlice S2097152x1 ![0, 1] · slices_S2097152x2_S2097152x1_0_1) : (⟨S2097152x2, .f32⟩ : BufTy).Contents (Elt F) → (⟨S2097152x1, .f32⟩ : BufTy).Contents (Elt F)),
    reshape main_v50 main_v51 rfl shapeCasts_S2097152x1_S2097152,
    nullary main_cst_9 (constant S_ .f32 0x40800000#32),
    unary main_cst_9 main_v52 (broadcastInDim S2097152 ![] bcast_S_S2097152 : (⟨S_, .f32⟩ : BufTy).Contents (Elt F) → (⟨S2097152, .f32⟩ : BufTy).Contents (Elt F)),
    binary main_v51 main_v52 main_v53 (subf : (⟨S2097152, .f32⟩ : BufTy).Contents (Elt F) → (⟨S2097152, .f32⟩ : BufTy).Contents (Elt F) → (⟨S2097152, .f32⟩ : BufTy).Contents (Elt F)),
    nullary main_cst_10 (constant S_ .f32 0xC0933333#32),
    nullary main_cst_11 (constant S_ .f32 0x40A00000#32),
    TRef.unary (.of main_cst_10 : TRef sig ⟨S_, .f32⟩) main_call5.v0 id,
    TRef.unary main_call5.v0 main_call5.v1 (broadcastInDim S2097152 ![] bcast_S_S2097152),
    TRef.binary main_call5.v1 (.of main_v53 : TRef sig ⟨S2097152, .f32⟩) main_call5.v2 maximumf,
    TRef.unary (.of main_cst_11 : TRef sig ⟨S_, .f32⟩) main_call5.v3 id,
    TRef.unary main_call5.v3 main_call5.v4 (broadcastInDim S2097152 ![] bcast_S_S2097152),
    TRef.binary main_call5.v4 main_call5.v2 main_call5.v5 minimumf,
    unary main_v54 main_v55 (Host.exp : (⟨S2097152, .f32⟩ : BufTy).Contents (Elt F) → (⟨S2097152, .f32⟩ : BufTy).Contents (Elt F)) ]

-- the two windows and the outlined functions unfold to the one chain by computation; the chain is ninety-three steps deep
set_option maxRecDepth 65536 in
set_option maxHeartbeats 8000000 in
/-- @main is that straight line: the two windows and the functions' definitions unfolded at their calls give the
    same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., unary_bufs_sub ..,
    unary_bufs_sub .., ternary_bufs_sub .., nullary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., unary_bufs_sub .., unary_bufs_sub .., ternary_bufs_sub .., nullary_bufs_sub .., unary_bufs_sub ..,
    binary_bufs_sub .., unary_bufs_sub .., binary_bufs_sub .., unary_bufs_sub .., unary_bufs_sub .., binary_bufs_sub ..,
    unary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., unary_bufs_sub ..,
    unary_bufs_sub .., ternary_bufs_sub .., nullary_bufs_sub .., unary_bufs_sub .., binary_bufs_sub .., unary_bufs_sub ..,
    reshape_bufs_sub .., unary_bufs_sub .., reshape_bufs_sub .., nullary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub ..⟩

/-! ## The results as whole-array terms of the arguments -/

/-- A scalar constant broadcast to a shape. -/
abbrev splat (S : Shape) (hb : S_.BroadcastsInDim S (![] : Fin 0 → Fin S.rank)) (w : BitVec 32) : FVec F S .f32 :=
  broadcastInDim S ![] hb (constant S_ .f32 w)

/-- Truncation toward zero: the ceiling where the argument is below zero, the floor elsewhere. -/
def truncT (S : Shape) (hb : S_.BroadcastsInDim S (![] : Fin 0 → Fin S.rank)) (y : FVec F S .f32) : FVec F S .f32 :=
  select (cmpf .olt y (splat S hb 0x00000000#32)) (Host.ceil y) (Host.floor y)

/-- A layer's rounding of xx / 256: add 128 with xx's sign, divide by 256, truncate toward zero. -/
def rndT (S : Shape) (hb : S_.BroadcastsInDim S (![] : Fin 0 → Fin S.rank)) (xx : FVec F S .f32) : FVec F S .f32 :=
  truncT S hb (Host.divf (addf xx (mulf (Host.sign xx) (splat S hb 0x43000000#32))) (splat S hb 0x43800000#32))

/-- A residual layer over all rows: the product with the transposed weights plus the bias row, plus 256 times
    the input, rounded, clamped below at zero. -/
def hiddenT (h : FVec F S2097152x32 .f32) (W : FVec F S32x32 .f32) (b : FVec F S32 .f32) : FVec F S2097152x32 .f32 :=
  maximumf
    (rndT S2097152x32 bcast_S_S2097152x32
      (addf
        (addf (Host.dotGeneral dot_S2097152x32_S32x32_S2097152x32_1_0_0_1_n_n none h (transpose S32x32 [1, 0] W transposes_S32x32_S32x32_1_0))
          (broadcastInDim S2097152x32 ![0, 1] bcast_S1x32_S2097152x32_0_1 (broadcastInDim S1x32 ![1] bcast_S32_S1x32_1 b)))
        (mulf h (splat S2097152x32 bcast_S_S2097152x32 0x43800000#32))))
    (splat S2097152x32 bcast_S_S2097152x32 0x00000000#32)

/-- The output layer over all rows (no residual term, no clamp), divided by 256: two columns. -/
def rawT (A0 : FVec F S2097152x32 .f32) (A1 : FVec F S32x32 .f32) (A2 : FVec F S32 .f32) (A3 : FVec F S32x32 .f32)
    (A4 : FVec F S32 .f32) (A5 : FVec F S2x32 .f32) (A6 : FVec F S2 .f32) : FVec F S2097152x2 .f32 :=
  Host.divf
    (rndT S2097152x2 bcast_S_S2097152x2
      (addf
        (Host.dotGeneral dot_S2097152x32_S32x2_S2097152x2_1_0_0_1_n_n none
          (hiddenT (hiddenT (mulf A0 (splat S2097152x32 bcast_S_S2097152x32 0x43800000#32)) A1 A2) A3 A4)
          (transpose S32x2 [1, 0] A5 transposes_S2x32_S32x2_1_0))
        (broadcastInDim S2097152x2 ![0, 1] bcast_S1x2_S2097152x2_0_1 (broadcastInDim S1x2 ![1] bcast_S2_S1x2_1 A6))))
    (splat S2097152x2 bcast_S_S2097152x2 0x43800000#32)

/-- Column 0 of the output layer, as a vector: the first result. -/
def muT (A0 : FVec F S2097152x32 .f32) (A1 : FVec F S32x32 .f32) (A2 : FVec F S32 .f32) (A3 : FVec F S32x32 .f32)
    (A4 : FVec F S32 .f32) (A5 : FVec F S2x32 .f32) (A6 : FVec F S2 .f32) : FVec F S2097152 .f32 :=
  shapeCast S2097152 (extractStridedSlice S2097152x1 ![0, 0] (rawT A0 A1 A2 A3 A4 A5 A6) slices_S2097152x2_S2097152x1_0_0)
    shapeCasts_S2097152x1_S2097152

/-- Column 1 of the output layer, as a vector: the third result. -/
def lsT (A0 : FVec F S2097152x32 .f32) (A1 : FVec F S32x32 .f32) (A2 : FVec F S32 .f32) (A3 : FVec F S32x32 .f32)
    (A4 : FVec F S32 .f32) (A5 : FVec F S2x32 .f32) (A6 : FVec F S2 .f32) : FVec F S2097152 .f32 :=
  shapeCast S2097152 (extractStridedSlice S2097152x1 ![0, 1] (rawT A0 A1 A2 A3 A4 A5 A6) slices_S2097152x2_S2097152x1_0_1)
    shapeCasts_S2097152x1_S2097152

/-- The second result: the exponential of column 1 minus 4, clipped to [-4.6, 5]. -/
def scT (A0 : FVec F S2097152x32 .f32) (A1 : FVec F S32x32 .f32) (A2 : FVec F S32 .f32) (A3 : FVec F S32x32 .f32)
    (A4 : FVec F S32 .f32) (A5 : FVec F S2x32 .f32) (A6 : FVec F S2 .f32) : FVec F S2097152 .f32 :=
  Host.exp
    (minimumf (splat S2097152 bcast_S_S2097152 0x40A00000#32)
      (maximumf (splat S2097152 bcast_S_S2097152 0xC0933333#32)
        (subf (lsT A0 A1 A2 A3 A4 A5 A6) (splat S2097152 bcast_S_S2097152 0x40800000#32))))

/-! ## What the line leaves in the result buffers and in the arguments -/

section Results

variable (V : Valuation τ sig (Elt F))

set_option maxHeartbeats 4000000 in
/-- The first result's buffer after the line: column 0 of the output layer. -/
theorem res_mu : after ops V (Proc.devRef .tc main_v49) = muT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_results_simp
  rfl

set_option maxHeartbeats 4000000 in
/-- The third result's buffer after the line: column 1 of the output layer. -/
theorem res_ls : after ops V (Proc.devRef .tc main_v51) = lsT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_results_simp
  rfl

set_option maxHeartbeats 4000000 in
/-- The second result's buffer after the line: the clipped exponential. -/
theorem res_sc : after ops V (Proc.devRef .tc main_v55) = scT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_results_simp
  rfl

set_option maxHeartbeats 4000000 in
/-- No operation writes argument 0. -/
theorem res_arg0 : after ops V (Proc.devRef .tc main_arg0) = V (Proc.devRef .tc main_arg0) := by
  after_results_simp

set_option maxHeartbeats 4000000 in
/-- No operation writes argument 1. -/
theorem res_arg1 : after ops V (Proc.devRef .tc main_arg1) = V (Proc.devRef .tc main_arg1) := by
  after_results_simp

set_option maxHeartbeats 4000000 in
/-- No operation writes argument 2. -/
theorem res_arg2 : after ops V (Proc.devRef .tc main_arg2) = V (Proc.devRef .tc main_arg2) := by
  after_results_simp

set_option maxHeartbeats 4000000 in
/-- No operation writes argument 3. -/
theorem res_arg3 : after ops V (Proc.devRef .tc main_arg3) = V (Proc.devRef .tc main_arg3) := by
  after_results_simp

set_option maxHeartbeats 4000000 in
/-- No operation writes argument 4. -/
theorem res_arg4 : after ops V (Proc.devRef .tc main_arg4) = V (Proc.devRef .tc main_arg4) := by
  after_results_simp

set_option maxHeartbeats 4000000 in
/-- No operation writes argument 5. -/
theorem res_arg5 : after ops V (Proc.devRef .tc main_arg5) = V (Proc.devRef .tc main_arg5) := by
  after_results_simp

set_option maxHeartbeats 4000000 in
/-- No operation writes argument 6. -/
theorem res_arg6 : after ops V (Proc.devRef .tc main_arg6) = V (Proc.devRef .tc main_arg6) := by
  after_results_simp

end Results

/-- On every device, for any float values, from any memory with zero counters: every weakly fair execution of
    @main terminates with the three results at their whole-array terms of the arguments' launch contents and
    the seven arguments unchanged. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v49) = muT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_v55) = scT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_v51) = lsT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨⟨(h c main_v49).trans (res_mu _), (h c main_v55).trans (res_sc _), (h c main_v51).trans (res_ls _)⟩,
        (h c main_arg0).trans (res_arg0 _), (h c main_arg1).trans (res_arg1 _), (h c main_arg2).trans (res_arg2 _), (h c main_arg3).trans (res_arg3 _), (h c main_arg4).trans (res_arg4 _), (h c main_arg5).trans (res_arg5 _), (h c main_arg6).trans (res_arg6 _)⟩)
    (run_seq scopedRefs_eq scopedSems_eq defs main (fun _ => ops) main_eq (fun _ => ops_sub) m ρ)

end Cert.ReferenceIdeal.RefRun

end
-- ==== Proof.RefValue.lean ====
/-
  The reference's three results, element by element, are the specification's.

  Each whole-array operation of the reference reads, at an index, one operation on extended reals: a broadcast
  scalar is its value; the product with the transposed weights at (r, j) is the sum over k of h (r, k) * W (j, k);
  the bias row broadcast over the rows reads b j; sign, quotient, ceiling, floor, maximum, minimum, exponential
  and select act entry by entry.  So a residual layer at (r, j) is the specification's hidden layer of row r, the
  output layer at (r, c) divided by 256 is its entry c, column 0 and column 1 as vectors are the first and
  third results, and the clipped exponential of column 1 minus 4 is the second.  No finiteness is used: both
  sides are the same operations on every extended real.
-/
import proofs.«104846_j19911468384433_2_alg».proof.Proof.RefRun
import proofs.«104846_j19911468384433_2_alg».proof.Proof.Spec
import proofs.«104846_j19911468384433_2_alg».proof.Proof.LibPlainDot
import Idealize.ShloMosaic.Lib.ValueLayout
import Idealize.ShloMosaic.Lib.IdealHost

noncomputable section

namespace Cert.ReferenceIdeal.RefValue

open Cert.ReferenceIdeal Cert.ReferenceIdeal.Gen Cert.ReferenceIdeal.RefRun Idealize.ShloMosaic Idealize.ShloMosaic.ValueIdx
  Idealize.ShloMosaic.TcCoe Idealize.SL.Sem
open scoped BigOperators

/-! ## Single operations at an index -/

/-- A broadcast scalar constant reads the extended real its word encodes. -/
theorem splat_apply (S : Shape) (hb : S_.BroadcastsInDim S (![] : Fin 0 → Fin S.rank)) (w : BitVec 32) (j : S.Idx) :
    splat (F := Ideal) S hb w j = Ideal.ofBits .f32 w :=
  broadcastInDim_scalar_apply hb _ j

/-- The rounding at an index is the specification's rounding of the entry. -/
theorem rndT_apply (S : Shape) (hb : S_.BroadcastsInDim S (![] : Fin 0 → Fin S.rank)) (xx : FVec Ideal S .f32) (j : S.Idx) :
    rndT S hb xx j = Cert.Spec.rnd (xx j) := by
  have h128 := splat_apply S hb 0x43000000#32 j
  have h256 := splat_apply S hb 0x43800000#32 j
  have h0 := splat_apply S hb 0x00000000#32 j
  show Scalar.select
      (Ideal.cmp .olt (Ideal.div (xx j + Ideal.sign (xx j) * splat (F := Ideal) S hb 0x43000000#32 j) (splat (F := Ideal) S hb 0x43800000#32 j))
        (splat (F := Ideal) S hb 0x00000000#32 j))
      (Ideal.liftRound Int.ceil (Ideal.div (xx j + Ideal.sign (xx j) * splat (F := Ideal) S hb 0x43000000#32 j) (splat (F := Ideal) S hb 0x43800000#32 j)))
      (Ideal.liftRound Int.floor (Ideal.div (xx j + Ideal.sign (xx j) * splat (F := Ideal) S hb 0x43000000#32 j) (splat (F := Ideal) S hb 0x43800000#32 j)))
    = _
  rw [h128, h256, h0]
  rfl

/-- The product with the transposed 32 x 32 weights at (r, j): the sum over k of h (r, k) * W (j, k). -/
theorem dot32_apply (h : FVec Ideal S2097152x32 .f32) (W : FVec Ideal S32x32 .f32) (r : Fin 2097152) (j : Fin 32) :
    Host.dotGeneral dot_S2097152x32_S32x32_S2097152x32_1_0_0_1_n_n none h
        (transpose S32x32 [1, 0] W transposes_S32x32_S32x32_1_0) (ix2 r j)
      = ∑ k : Fin 32, h (ix2 r k) * W (ix2 j k) := by
  refine (Cert.LibPlainDot.dotGeneral_apply 2097152 32 32 none .single h
    (transpose S32x32 [1, 0] W transposes_S32x32_S32x32_1_0) (ix2 r j)).trans ?_
  exact Finset.sum_congr rfl fun k _ => congrArg (h (ix2 r k) * ·) (transpose_ix2_apply W transposes_S32x32_S32x32_1_0 k j)

/-- The product with the transposed 2 x 32 weights at (r, c): the sum over k of h (r, k) * W (c, k). -/
theorem dot2_apply (h : FVec Ideal S2097152x32 .f32) (W : FVec Ideal S2x32 .f32) (r : Fin 2097152) (c : Fin 2) :
    Host.dotGeneral dot_S2097152x32_S32x2_S2097152x2_1_0_0_1_n_n none h
        (transpose S32x2 [1, 0] W transposes_S2x32_S32x2_1_0) (ix2 r c)
      = ∑ k : Fin 32, h (ix2 r k) * W (ix2 c k) := by
  refine (Cert.LibPlainDot.dotGeneral_apply 2097152 32 2 none .single h
    (transpose S32x2 [1, 0] W transposes_S2x32_S32x2_1_0) (ix2 r c)).trans ?_
  exact Finset.sum_congr rfl fun k _ => congrArg (h (ix2 r k) * ·) (transpose_ix2_apply W transposes_S2x32_S32x2_1_0 k c)

/-- The 32-entry bias as a row, broadcast over the rows, reads b j at (r, j). -/
theorem bias32_apply (b : FVec Ideal S32 .f32) (r : Fin 2097152) (j : Fin 32) :
    broadcastInDim S2097152x32 ![0, 1] bcast_S1x32_S2097152x32_0_1 (broadcastInDim S1x32 ![1] bcast_S32_S1x32_1 b) (ix2 r j)
      = b (ix1 j) := by
  refine (broadcastInDim_apply _ _ _ (ix2 r j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- The 2-entry bias as a row, broadcast over the rows, reads b c at (r, c). -/
theorem bias2_apply (b : FVec Ideal S2 .f32) (r : Fin 2097152) (c : Fin 2) :
    broadcastInDim S2097152x2 ![0, 1] bcast_S1x2_S2097152x2_0_1 (broadcastInDim S1x2 ![1] bcast_S2_S1x2_1 b) (ix2 r c)
      = b (ix1 c) := by
  refine (broadcastInDim_apply _ _ _ (ix2 r c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

/-- Column 0 of a two-column array, reshaped to a vector, reads the array at (r, 0). -/
theorem col0_apply (X : FVec Ideal S2097152x2 .f32) (r : Fin 2097152) :
    shapeCast S2097152 (extractStridedSlice S2097152x1 ![0, 0] X slices_S2097152x2_S2097152x1_0_0)
        shapeCasts_S2097152x1_S2097152 (ix1 r) = X (ix2 r (0 : Fin 2)) := by
  refine (shapeCast_apply _ _ (ix1 r) (ix2 r (0 : Fin 1)) ?_).trans ?_
  · rw [Shape.rowMajor_val_two, Shape.rowMajor_val_one]
    show r.val * 1 + 0 = r.val
    omega
  · exact slice2_axis1_apply 0 X slices_S2097152x2_S2097152x1_0_0 r (0 : Fin 1) (0 : Fin 2) rfl

/-- Column 1 of a two-column array, reshaped to a vector, reads the array at (r, 1). -/
theorem col1_apply (X : FVec Ideal S2097152x2 .f32) (r : Fin 2097152) :
    shapeCast S2097152 (extractStridedSlice S2097152x1 ![0, 1] X slices_S2097152x2_S2097152x1_0_1)
        shapeCasts_S2097152x1_S2097152 (ix1 r) = X (ix2 r (1 : Fin 2)) := by
  refine (shapeCast_apply _ _ (ix1 r) (ix2 r (0 : Fin 1)) ?_).trans ?_
  · rw [Shape.rowMajor_val_two, Shape.rowMajor_val_one]
    show r.val * 1 + 0 = r.val
    omega
  · exact slice2_axis1_apply 1 X slices_S2097152x2_S2097152x1_0_1 r (0 : Fin 1) (1 : Fin 2) rfl

/-! ## The layers at an index -/

/-- A residual layer at (r, j) is the specification's hidden layer of row r at j. -/
theorem hiddenT_apply (h : FVec Ideal S2097152x32 .f32) (W : FVec Ideal S32x32 .f32) (b : FVec Ideal S32 .f32)
    (r : Fin 2097152) (j : Fin 32) :
    hiddenT h W b (ix2 r j) = Cert.Spec.hidden (fun k => h (ix2 r k)) (Cert.Spec.matOf W) (Cert.Spec.vecOf b) j := by
  show max (rndT S2097152x32 bcast_S_S2097152x32
        (addf
          (addf (Host.dotGeneral dot_S2097152x32_S32x32_S2097152x32_1_0_0_1_n_n none h (transpose S32x32 [1, 0] W transposes_S32x32_S32x32_1_0))
            (broadcastInDim S2097152x32 ![0, 1] bcast_S1x32_S2097152x32_0_1 (broadcastInDim S1x32 ![1] bcast_S32_S1x32_1 b)))
          (mulf h (splat S2097152x32 bcast_S_S2097152x32 0x43800000#32))) (ix2 r j))
      (splat (F := Ideal) S2097152x32 bcast_S_S2097152x32 0x00000000#32 (ix2 r j)) = _
  rw [rndT_apply, splat_apply]
  show max (Cert.Spec.rnd
      ((Host.dotGeneral dot_S2097152x32_S32x32_S2097152x32_1_0_0_1_n_n none h (transpose S32x32 [1, 0] W transposes_S32x32_S32x32_1_0) (ix2 r j)
          + broadcastInDim S2097152x32 ![0, 1] bcast_S1x32_S2097152x32_0_1 (broadcastInDim S1x32 ![1] bcast_S32_S1x32_1 b) (ix2 r j))
        + h (ix2 r j) * splat (F := Ideal) S2097152x32 bcast_S_S2097152x32 0x43800000#32 (ix2 r j)))
      (Ideal.ofBits .f32 0x00000000#32) = _
  rw [dot32_apply, bias32_apply, splat_apply]
  rfl

/-- The output layer at (r, c), divided by 256, is the specification's entry c of row r. -/
theorem rawT_apply (A0 : FVec Ideal S2097152x32 .f32) (A1 : FVec Ideal S32x32 .f32) (A2 : FVec Ideal S32 .f32) (A3 : FVec Ideal S32x32 .f32)
    (A4 : FVec Ideal S32 .f32) (A5 : FVec Ideal S2x32 .f32) (A6 : FVec Ideal S2 .f32)
    (r : Fin 2097152) (c : Fin 2) :
    rawT A0 A1 A2 A3 A4 A5 A6 (ix2 r c) = Cert.Spec.rawAt A0 A1 A2 A3 A4 A5 A6 r c := by
  show Ideal.div
      (rndT S2097152x2 bcast_S_S2097152x2
        (addf
          (Host.dotGeneral dot_S2097152x32_S32x2_S2097152x2_1_0_0_1_n_n none
            (hiddenT (hiddenT (mulf A0 (splat S2097152x32 bcast_S_S2097152x32 0x43800000#32)) A1 A2) A3 A4)
            (transpose S32x2 [1, 0] A5 transposes_S2x32_S32x2_1_0))
          (broadcastInDim S2097152x2 ![0, 1] bcast_S1x2_S2097152x2_0_1 (broadcastInDim S1x2 ![1] bcast_S2_S1x2_1 A6))) (ix2 r c))
      (splat (F := Ideal) S2097152x2 bcast_S_S2097152x2 0x43800000#32 (ix2 r c)) = _
  rw [rndT_apply, splat_apply]
  show Ideal.div (Cert.Spec.rnd
      (Host.dotGeneral dot_S2097152x32_S32x2_S2097152x2_1_0_0_1_n_n none
          (hiddenT (hiddenT (mulf A0 (splat S2097152x32 bcast_S_S2097152x32 0x43800000#32)) A1 A2) A3 A4)
          (transpose S32x2 [1, 0] A5 transposes_S2x32_S32x2_1_0) (ix2 r c)
        + broadcastInDim S2097152x2 ![0, 1] bcast_S1x2_S2097152x2_0_1 (broadcastInDim S1x2 ![1] bcast_S2_S1x2_1 A6) (ix2 r c)))
      (Ideal.ofBits .f32 0x43800000#32) = _
  rw [dot2_apply, bias2_apply]
  have h2 : ∀ k : Fin 32,
      hiddenT (hiddenT (mulf A0 (splat S2097152x32 bcast_S_S2097152x32 0x43800000#32)) A1 A2) A3 A4 (ix2 r k)
        = Cert.Spec.h2 (Cert.Spec.rowOf A0 r) (Cert.Spec.matOf A1) (Cert.Spec.vecOf A2) (Cert.Spec.matOf A3) (Cert.Spec.vecOf A4) k := by
    intro k
    rw [hiddenT_apply]
    have h1 : (fun k' : Fin 32 => hiddenT (mulf A0 (splat S2097152x32 bcast_S_S2097152x32 0x43800000#32)) A1 A2 (ix2 r k'))
        = Cert.Spec.hidden (Cert.Spec.lift (Cert.Spec.rowOf A0 r)) (Cert.Spec.matOf A1) (Cert.Spec.vecOf A2) := by
      funext k'
      show hiddenT (mulf A0 (splat S2097152x32 bcast_S_S2097152x32 0x43800000#32)) A1 A2 (ix2 r k') = _
      rw [hiddenT_apply]
      have h0 : (fun k'' : Fin 32 => mulf A0 (splat S2097152x32 bcast_S_S2097152x32 0x43800000#32) (ix2 r k''))
          = Cert.Spec.lift (Cert.Spec.rowOf A0 r) := by
        funext k''
        show A0 (ix2 r k'') * splat (F := Ideal) S2097152x32 bcast_S_S2097152x32 0x43800000#32 (ix2 r k'') = _
        rw [splat_apply]
        rfl
      rw [h0]
    rw [h1]
    rfl
  have hsum : (∑ k : Fin 32,
        hiddenT (hiddenT (mulf A0 (splat S2097152x32 bcast_S_S2097152x32 0x43800000#32)) A1 A2) A3 A4 (ix2 r k) * A5 (ix2 c k))
      = ∑ k : Fin 32,
        Cert.Spec.h2 (Cert.Spec.rowOf A0 r) (Cert.Spec.matOf A1) (Cert.Spec.vecOf A2) (Cert.Spec.matOf A3) (Cert.Spec.vecOf A4) k
          * A5 (ix2 c k) :=
    Finset.sum_congr rfl fun k _ => by rw [h2 k]
  rw [hsum]
  rfl

/-! ## The three results -/

/-- The first result is the specification's mu. -/
theorem muT_eq (A0 : FVec Ideal S2097152x32 .f32) (A1 : FVec Ideal S32x32 .f32) (A2 : FVec Ideal S32 .f32) (A3 : FVec Ideal S32x32 .f32)
    (A4 : FVec Ideal S32 .f32) (A5 : FVec Ideal S2x32 .f32) (A6 : FVec Ideal S2 .f32) :
    muT A0 A1 A2 A3 A4 A5 A6 = Cert.Spec.muArr A0 A1 A2 A3 A4 A5 A6 := by
  funext i
  obtain ⟨r, rfl⟩ : ∃ r : Fin 2097152, i = ix1 r := ⟨i 0, eq_ix1 i⟩
  exact (col0_apply (rawT A0 A1 A2 A3 A4 A5 A6) r).trans (rawT_apply A0 A1 A2 A3 A4 A5 A6 r 0)

/-- The third result is the specification's log-scale. -/
theorem lsT_eq (A0 : FVec Ideal S2097152x32 .f32) (A1 : FVec Ideal S32x32 .f32) (A2 : FVec Ideal S32 .f32) (A3 : FVec Ideal S32x32 .f32)
    (A4 : FVec Ideal S32 .f32) (A5 : FVec Ideal S2x32 .f32) (A6 : FVec Ideal S2 .f32) :
    lsT A0 A1 A2 A3 A4 A5 A6 = Cert.Spec.lsArr A0 A1 A2 A3 A4 A5 A6 := by
  funext i
  obtain ⟨r, rfl⟩ : ∃ r : Fin 2097152, i = ix1 r := ⟨i 0, eq_ix1 i⟩
  exact (col1_apply (rawT A0 A1 A2 A3 A4 A5 A6) r).trans (rawT_apply A0 A1 A2 A3 A4 A5 A6 r 1)

/-- The second result is the specification's scale. -/
theorem scT_eq (A0 : FVec Ideal S2097152x32 .f32) (A1 : FVec Ideal S32x32 .f32) (A2 : FVec Ideal S32 .f32) (A3 : FVec Ideal S32x32 .f32)
    (A4 : FVec Ideal S32 .f32) (A5 : FVec Ideal S2x32 .f32) (A6 : FVec Ideal S2 .f32) :
    scT A0 A1 A2 A3 A4 A5 A6 = Cert.Spec.scaleArr A0 A1 A2 A3 A4 A5 A6 := by
  funext i
  obtain ⟨r, rfl⟩ : ∃ r : Fin 2097152, i = ix1 r := ⟨i 0, eq_ix1 i⟩
  show Ideal.exp
      (min (splat (F := Ideal) S2097152 bcast_S_S2097152 0x40A00000#32 (ix1 r))
        (max (splat (F := Ideal) S2097152 bcast_S_S2097152 0xC0933333#32 (ix1 r))
          (lsT A0 A1 A2 A3 A4 A5 A6 (ix1 r) - splat (F := Ideal) S2097152 bcast_S_S2097152 0x40800000#32 (ix1 r)))) = _
  rw [splat_apply, splat_apply, splat_apply, lsT_eq]
  rfl

/-! ## The run, against the specification -/

/-- On every device, from any memory with zero counters: every weakly fair execution of the reference terminates
    with its three results the specification's mu, scale and log-scale of the arguments' launch contents, and
    the seven arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        (r.2.mem ((c.tc : Thread nD τ).loc main_v49) = Cert.Spec.muArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          ∧ r.2.mem ((c.tc : Thread nD τ).loc main_v55) = Cert.Spec.scaleArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          ∧ r.2.mem ((c.tc : Thread nD τ).loc main_v51) = Cert.Spec.lsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run (Cert.ReferenceIdeal.defs (F := Ideal)) _ _).mono
    (fun _ h c =>
      ⟨⟨(h c).1.1.trans (muT_eq ..), (h c).1.2.1.trans (scT_eq ..), (h c).1.2.2.trans (lsT_eq ..)⟩, (h c).2⟩)
    (run_terms (F := Ideal) m ρ)

end Cert.ReferenceIdeal.RefValue

end
-- ==== Proof.lean ====
/-
  A three-layer fixed-point network, row by row: the kernel against its reference, on the extended reals.

  Each of the 2097152 rows of x (32 entries) is multiplied by 256 and passed through two residual layers and an
  output layer; a layer forms an affine image of the row (plus 256 times the row when residual) and rounds it,
  divided by 256, half away from zero; the hidden layers are clamped below at 0; the two outputs divided by 256
  are mu and the log-scale, and scale = exp (min 5 (max (-4.6) (log-scale - 4))).
  The reference does this row by row with 32 x 32 weights and rounds by  trunc ((xx + sign xx * 128) / 256).
  The kernel packs four rows into one 128-lane row, multiplies by block-diagonal 128 x 128 weights (four copies of
  a weight matrix on the diagonal, zeros elsewhere: the zeros annihilate the other three rows' entries, also
  infinite ones, since 0 * y = 0 on the extended reals), rounds by  sgn xx * floor (|xx| * 2^-8 + 1/2)  — the same
  function of xx on every extended real —, scales by 2^-8 where the reference divides by 256 — the same —, and
  interleaves the three results per row; the host program around it unpacks them.  No finiteness of the inputs is
  used: the two programs apply the same operations to the same values.
  The modules: the specification (Spec), its laws (Law); the kernel's packed-row function (KSpec) and the algebra
  taking it to the specification (KAlg); the host prologue's arrays (KHost, KHost34, KHostIdx); the body's values at
  an index (KPay, KOut, KBody); blocks to array (KBlocks); the glue and the results (KGlue, KTail); the reference's
  run and values (RefRun, RefValue).
-/
import proofs.«104846_j19911468384433_2_alg».proof.Defs
import proofs.«104846_j19911468384433_2_alg».proof.Proof.Gen.Kernel
import proofs.«104846_j19911468384433_2_alg».proof.Proof.Gen.Kernel.Skeleton
import proofs.«104846_j19911468384433_2_alg».proof.Proof.Gen.Kernel.Launch
import proofs.«104846_j19911468384433_2_alg».proof.Proof.Gen.Kernel.Points
import proofs.«104846_j19911468384433_2_alg».proof.Proof.Gen.Kernel.Frame
import proofs.«104846_j19911468384433_2_alg».proof.Proof.Gen.KernelIdeal
import proofs.«104846_j19911468384433_2_alg».proof.Proof.Gen.KernelIdeal.Skeleton
import proofs.«104846_j19911468384433_2_alg».proof.Proof.Gen.KernelIdeal.Launch
import proofs.«104846_j19911468384433_2_alg».proof.Proof.Gen.KernelIdeal.Points
import proofs.«104846_j19911468384433_2_alg».proof.Proof.Gen.KernelIdeal.Frame
import proofs.«104846_j19911468384433_2_alg».proof.Proof.Gen.ReferenceIdeal
import proofs.«104846_j19911468384433_2_alg».proof.Proof.Gen.Pre_finite_inputs
import proofs.«104846_j19911468384433_2_alg».proof.Proof.KTail
import proofs.«104846_j19911468384433_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- So does the idealized reference: its run with the results dropped. -/
theorem frame_ri : Cert.frame_ReferenceIdeal := fun m ρ _ =>
  (θ_run (Cert.ReferenceIdeal.defs (F := Ideal)) _ _).mono (fun _ h c => (h c).2) (Cert.ReferenceIdeal.RefValue.run m ρ)

/-- The three rewrites of the idealization: 1.0 with a value's sign bit is -1 or 1 by the order. -/
theorem preserves : Cert.preserves_Kernel_KernelIdeal :=
  ⟨IdealRules.sign_bit.statement Cert.KernelIdeal.S8192x128 .f32, IdealRules.sign_bit.statement Cert.KernelIdeal.S8192x128 .f32,
    IdealRules.sign_bit.statement Cert.KernelIdeal.S8192x8 .f32⟩

/-- Both idealized programs end with the specification's three arrays of the (agreeing) arguments. -/
theorem algebraic : Cert.algebraic_KernelIdeal_ReferenceIdeal := by
  intro m ρ m' ρ' _ hagree
  refine ⟨fun c => Cert.Spec.muArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.scaleArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.lsArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono (fun _ h c => ⟨(h c).1.1, (h c).1.2.1, (h c).1.2.2, (h c).2⟩)
      (Cert.KernelIdeal.KTail.run m ρ)
  · refine (θ_run (Cert.ReferenceIdeal.defs (F := Ideal)) _ _).mono (fun _ h c => ⟨?_, ?_, ?_, (h c).2⟩)
      (Cert.ReferenceIdeal.RefValue.run m' ρ')
    · rw [(h c).1.1, (hagree c).1, (hagree c).2.1, (hagree c).2.2.1, (hagree c).2.2.2.1, (hagree c).2.2.2.2.1, (hagree c).2.2.2.2.2.1, (hagree c).2.2.2.2.2.2]
    · rw [(h c).1.2.1, (hagree c).1, (hagree c).2.1, (hagree c).2.2.1, (hagree c).2.2.2.1, (hagree c).2.2.2.2.1, (hagree c).2.2.2.2.2.1, (hagree c).2.2.2.2.2.2]
    · rw [(h c).1.2.2, (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
